-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v208)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v208) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x240 : Shape := ⟨2, ![50000, 240]⟩
abbrev S50000x16 : Shape := ⟨2, ![50000, 16]⟩
abbrev S50000 : Shape := ⟨1, ![50000]⟩
abbrev S1x16 : Shape := ⟨2, ![1, 16]⟩
abbrev S16 : Shape := ⟨1, ![16]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x240 : S_.BroadcastsInDim S50000x240 (![] : Fin 0 → Fin S50000x240.rank)
  reducesTo_S50000x240_S_d0_1 : S50000x240.ReducesTo [0, 1] S_
  h_S_ : 0 < S_.numel
  bcast_S_S50000 : S_.BroadcastsInDim S50000 (![] : Fin 0 → Fin S50000.rank)
  reducesTo_S50000_S_d0 : S50000.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S1 .f32) (main_arg9 : FVec F S256x256 .f32) (main_arg10 : FVec F S256 .f32) (main_arg11 : FVec F S256x1 .f32) (main_arg12 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg11
  let main_cst_18 : FVec F S_ .f32 := constant S_ .f32 0x7F800000#32
  let main_v50 : FVec F S256x1 .f32 := broadcastInDim S256x1 ![] bcast_S_S256x1 main_cst_18
  fn_part3 (F := F) main_arg12 main_v48 main_v49 main_v50

def fn_part1 {F : FTy → Type} [FloatOps F] (main_arg5 : FVec F S256x256 .f32) (main_arg6 : FVec F S256 .f32) (main_arg7 : FVec F S256x1 .f32) (main_arg8 : FVec F S1 .f32) (main_arg9 : FVec F S256x256 .f32) (main_arg10 : FVec F S256 .f32) (main_arg11 : FVec F S256x1 .f32) (main_arg12 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg7
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x240 .f32) (main_arg1 : IVec S50000x16 32) (main_arg2 : FVec F S50000 .f32) (main_arg3 : FVec F S1x16 .f32) (main_arg4 : FVec F S16 .f32) (main_arg5 : FVec F S256x256 .f32) (main_arg6 : FVec F S256 .f32) (main_arg7 : FVec F S256x1 .f32) (main_arg8 : FVec F S1 .f32) (main_arg9 : FVec F S256x256 .f32) (main_arg10 : FVec F S256 .f32) (main_arg11 : FVec F S256x1 .f32) (main_arg12 : FVec F S1 .f32) : IVec S_ 1 :=
  let main_v0 : FVec F S50000x240 .f32 := Host.absf main_arg0
  let main_cst : FVec F S_ .f32 := constant S_ .f32 0x7F800000#32
  let main_v1 : FVec F S50000x240 .f32 := broadcastInDim S50000x240 ![] bcast_S_S50000x240 main_cst
  let main_v2 : IVec S50000x240 1 := cmpf .olt main_v0 main_v1
  let main_c : IVec S_ 1 := constantI S_ 1 1#1
  let main_v3 : IVec S_ 1 := (fun x v => Host.reduce IntOp.andi x v reducesTo_S50000x240_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_v13 main_v16
-- ==== Kernel.lean ====
abbrev S50000x240 : Shape := ⟨2, ![50000, 240]⟩
abbrev S50000x16 : Shape := ⟨2, ![50000, 16]⟩
abbrev S50000 : Shape := ⟨1, ![50000]⟩
abbrev S1x16 : Shape := ⟨2, ![1, 16]⟩
abbrev S16 : Shape := ⟨1, ![16]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S50000x1 : Shape := ⟨2, ![50000, 1]⟩
abbrev S50000x256 : Shape := ⟨2, ![50000, 256]⟩
abbrev S1x256 : Shape := ⟨2, ![1, 256]⟩
abbrev S5000x256 : Shape := ⟨2, ![5000, 256]⟩
abbrev S800000 : Shape := ⟨1, ![800000]⟩
abbrev S800000x1 : Shape := ⟨2, ![800000, 1]⟩
abbrev S50000x16x1 : Shape := ⟨3, ![50000, 16, 1]⟩
abbrev S50000x16x256 : Shape := ⟨3, ![50000, 16, 256]⟩
abbrev S800000x256 : Shape := ⟨2, ![800000, 256]⟩
abbrev S1x1 : Shape := ⟨2, ![1, 1]⟩

abbrev nBuf : Space → Nat
  | .hbm => 298
  | .vmem => 12
  | .smem => 0
  | _ => 0

abbrev hbmTy0_0 (i : Nat) : BufTy := match i % 128 with
  | 0 => ⟨S50000x240, .f32⟩
  | 1 => ⟨S50000x16, .i32⟩
  | 2 => ⟨S50000, .f32⟩
  | 3 => ⟨S1x16, .f32⟩
  | 4 => ⟨S16, .f32⟩
  | 5 => ⟨S256x256, .f32⟩
  | 6 => ⟨S256, .f32⟩
  | 7 => ⟨S256x1, .f32⟩
  | 8 => ⟨S1, .f32⟩
  | 9 => ⟨S256x256, .f32⟩
  | 10 => ⟨S256, .f32⟩
  | 11 => ⟨S256x1, .f32⟩
  | 12 => ⟨S1, .f32⟩
  | 13 => ⟨S_, .f32⟩
  | 14 => ⟨S_, .f32⟩
  | 15 => ⟨S50000, .f32⟩
  | 16 => ⟨S50000, .f32⟩
  | 17 => ⟨S50000, .f32⟩
  | 18 => ⟨S_, .f32⟩
  | 19 => ⟨S50000, .f32⟩
  | 20 => ⟨S50000, .f32⟩
  | 21 => ⟨S50000, .f32⟩
  | 22 => ⟨S50000x1, .f32⟩
  | 23 => ⟨S50000x16, .f32⟩
  | 24 => ⟨S1x16, .f32⟩
  | 25 => ⟨S50000x16, .f32⟩
  | 26 => ⟨S50000x16, .f32⟩
  | 27 => ⟨S_, .f32⟩
  | 28 => ⟨S16, .f32⟩
  | 29 => ⟨S_, .f32⟩
  | 30 => ⟨S16, .f32⟩
  | 31 => ⟨S16, .f32⟩
  | 32 => ⟨S50000x16, .f32⟩
  | 33 => ⟨S50000x256, .f32⟩
  | 34 => ⟨S1x256, .f32⟩
  | 35 => ⟨S50000x256, .f32⟩
  | 36 => ⟨S800000, .i32⟩
  | 37 => ⟨S_, .f32⟩
  | 38 => ⟨S50000, .f32⟩
  | 39 => ⟨S50000x16, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S50000, .f32⟩
  | 50 => ⟨S_, .f32⟩
  | 51 => ⟨S50000, .f32⟩
  | 52 => ⟨S50000, .i1⟩
  | 53 => ⟨S_, .f32⟩
  | 54 => ⟨S50000, .f32⟩
  | 55 => ⟨S50000, .f32⟩
  | 56 => ⟨S50000, .f32⟩
  | 57 => ⟨S_, .f32⟩
  | 58 => ⟨S_, .f32⟩
  | 59 => ⟨S50000, .f32⟩
  | 60 => ⟨S50000, .f32⟩
  | 61 => ⟨S50000x1, .f32⟩
  | 62 => ⟨S50000x256, .f32⟩
  | 63 => ⟨S50000x256, .f32⟩
  | 64 => ⟨S_, .i32⟩
  | 65 => ⟨S50000x16, .i32⟩
  | 66 => ⟨S50000x16, .i1⟩
  | 67 => ⟨S_, .i32⟩
  | 68 => ⟨S50000x16, .i32⟩
  | 69 => ⟨S50000x16, .i32⟩
  | 70 => ⟨S50000x16, .i32⟩
  | 71 => ⟨S50000x16x1, .i32⟩
  | 72 => ⟨S50000x16x256, .f32⟩
  | 73 => ⟨S_, .f32⟩
  | 74 => ⟨S50000x256, .f32⟩
  | 75 => ⟨S_, .f32⟩
  | 76 => ⟨S50000x256, .f32⟩
  | 77 => ⟨S50000x256, .f32⟩
  | 78 => ⟨S50000x1, .f32⟩
  | 79 => ⟨S50000x256, .f32⟩
  | 80 => ⟨S50000x256, .f32⟩
  | 81 => ⟨S_, .f32⟩
  | 82 => ⟨S50000x256, .f32⟩
  | 83 => ⟨S50000x16x256, .f32⟩
  | 84 => ⟨S800000x256, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S50000x256, .f32⟩
  | 94 => ⟨S50000x1, .f32⟩
  | 95 => ⟨S50000x256, .f32⟩
  | 96 => ⟨S50000x256, .f32⟩
  | 97 => ⟨S_, .i32⟩
  | 98 => ⟨S50000x16, .i32⟩
  | 99 => ⟨S50000x16, .i1⟩
  | 100 => ⟨S_, .i32⟩
  | 101 => ⟨S50000x16, .i32⟩
  | 102 => ⟨S50000x16, .i32⟩
  | 103 => ⟨S50000x16, .i32⟩
  | 104 => ⟨S50000x16x1, .i32⟩
  | 105 => ⟨S50000x16x256, .f32⟩
  | 106 => ⟨S_, .f32⟩
  | 107 => ⟨S50000x256, .f32⟩
  | 108 => ⟨S_, .f32⟩
  | 109 => ⟨S50000x256, .f32⟩
  | 110 => ⟨S50000x256, .f32⟩
  | 111 => ⟨S50000x1, .f32⟩
  | 112 => ⟨S1x1, .f32⟩
  | 113 => ⟨S50000x1, .f32⟩
  | 114 => ⟨S50000x1, .f32⟩
  | 115 => ⟨S50000x1, .f32⟩
  | 116 => ⟨S50000x1, .f32⟩
  | 117 => ⟨S_, .f32⟩
  | 118 => ⟨S50000x1, .f32⟩
  | 119 => ⟨S50000x1, .f32⟩
  | 120 => ⟨S_, .f32⟩
  | 121 => ⟨S50000x1, .f32⟩
  | 122 => ⟨S50000x1, .f32⟩
  | 123 => ⟨S50000x256, .f32⟩
  | 124 => ⟨S50000x256, .f32⟩
  | 125 => ⟨S800000, .i32⟩
  | 126 => ⟨S_, .f32⟩
  | 127 => ⟨S50000x256, .f32⟩
  | _ => ⟨S50000x240, .f32⟩

abbrev hbmTy0_1 (i : Nat) : BufTy := match i % 128 with
  | 0 => ⟨S50000x16x256, .f32⟩
  | 1 => ⟨S800000x256, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S50000x256, .f32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S50000x256, .f32⟩
  | 29 => ⟨S50000x256, .f32⟩
  | 30 => ⟨S_, .f32⟩
  | 31 => ⟨S_, .f32⟩
  | 32 => ⟨S50000x256, .f32⟩
  | 33 => ⟨S50000x256, .i1⟩
  | 34 => ⟨S_, .f32⟩
  | 35 => ⟨S50000x256, .f32⟩
  | 36 => ⟨S50000x256, .f32⟩
  | 37 => ⟨S50000x256, .f32⟩
  | 38 => ⟨S1x256, .f32⟩
  | 39 => ⟨S50000x256, .f32⟩
  | 40 => ⟨S800000, .i32⟩
  | 41 => ⟨S_, .f32⟩
  | 42 => ⟨S50000, .f32⟩
  | 43 => ⟨S50000x16, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S50000, .f32⟩
  | 54 => ⟨S_, .f32⟩
  | 55 => ⟨S50000, .f32⟩
  | 56 => ⟨S50000, .i1⟩
  | 57 => ⟨S_, .f32⟩
  | 58 => ⟨S50000, .f32⟩
  | 59 => ⟨S50000, .f32⟩
  | 60 => ⟨S50000, .f32⟩
  | 61 => ⟨S_, .f32⟩
  | 62 => ⟨S_, .f32⟩
  | 63 => ⟨S50000, .f32⟩
  | 64 => ⟨S50000, .f32⟩
  | 65 => ⟨S50000x1, .f32⟩
  | 66 => ⟨S50000x256, .f32⟩
  | 67 => ⟨S50000x256, .f32⟩
  | 68 => ⟨S_, .i32⟩
  | 69 => ⟨S50000x16, .i32⟩
  | 70 => ⟨S50000x16, .i1⟩
  | 71 => ⟨S_, .i32⟩
  | 72 => ⟨S50000x16, .i32⟩
  | 73 => ⟨S50000x16, .i32⟩
  | 74 => ⟨S50000x16, .i32⟩
  | 75 => ⟨S50000x16x1, .i32⟩
  | 76 => ⟨S50000x16x256, .f32⟩
  | 77 => ⟨S_, .f32⟩
  | 78 => ⟨S50000x256, .f32⟩
  | 79 => ⟨S_, .f32⟩
  | 80 => ⟨S50000x256, .f32⟩
  | 81 => ⟨S50000x256, .f32⟩
  | 82 => ⟨S50000x1, .f32⟩
  | 83 => ⟨S50000x256, .f32⟩
  | 84 => ⟨S50000x256, .f32⟩
  | 85 => ⟨S_, .f32⟩
  | 86 => ⟨S50000x256, .f32⟩
  | 87 => ⟨S50000x16x256, .f32⟩
  | 88 => ⟨S800000x256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S50000x256, .f32⟩
  | 98 => ⟨S50000x1, .f32⟩
  | 99 => ⟨S50000x256, .f32⟩
  | 100 => ⟨S50000x256, .f32⟩
  | 101 => ⟨S_, .i32⟩
  | 102 => ⟨S50000x16, .i32⟩
  | 103 => ⟨S50000x16, .i1⟩
  | 104 => ⟨S_, .i32⟩
  | 105 => ⟨S50000x16, .i32⟩
  | 106 => ⟨S50000x16, .i32⟩
  | 107 => ⟨S50000x16, .i32⟩
  | 108 => ⟨S50000x16x1, .i32⟩
  | 109 => ⟨S50000x16x256, .f32⟩
  | 110 => ⟨S_, .f32⟩
  | 111 => ⟨S50000x256, .f32⟩
  | 112 => ⟨S_, .f32⟩
  | 113 => ⟨S50000x256, .f32⟩
  | 114 => ⟨S50000x256, .f32⟩
  | 115 => ⟨S50000x1, .f32⟩
  | 116 => ⟨S1x1, .f32⟩
  | 117 => ⟨S50000x1, .f32⟩
  | 118 => ⟨S50000x1, .f32⟩
  | 119 => ⟨S50000x1, .f32⟩
  | 120 => ⟨S50000x1, .f32⟩
  | 121 => ⟨S_, .f32⟩
  | 122 => ⟨S50000x1, .f32⟩
  | 123 => ⟨S50000x1, .f32⟩
  | 124 => ⟨S_, .f32⟩
  | 125 => ⟨S50000x1, .f32⟩
  | 126 => ⟨S50000x1, .f32⟩
  | 127 => ⟨S50000x256, .f32⟩
  | _ => ⟨S50000x240, .f32⟩

abbrev hbmTy0_2 (i : Nat) : BufTy := match i % 128 with
  | 0 => ⟨S50000x256, .f32⟩
  | 1 => ⟨S800000, .i32⟩
  | 2 => ⟨S_, .f32⟩
  | 3 => ⟨S50000x256, .f32⟩
  | 4 => ⟨S50000x16x256, .f32⟩
  | 5 => ⟨S800000x256, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S50000x256, .f32⟩
  | 15 => ⟨S_, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S50000, .f32⟩
  | 28 => ⟨S_, .f32⟩
  | 29 => ⟨S50000, .f32⟩
  | 30 => ⟨S50000, .f32⟩
  | 31 => ⟨S50000x1, .f32⟩
  | 32 => ⟨S50000x256, .f32⟩
  | 33 => ⟨S50000x256, .f32⟩
  | 34 => ⟨S_, .f32⟩
  | 35 => ⟨S_, .f32⟩
  | 36 => ⟨S50000x256, .f32⟩
  | 37 => ⟨S50000x256, .i1⟩
  | 38 => ⟨S_, .f32⟩
  | 39 => ⟨S50000x256, .f32⟩
  | 40 => ⟨S50000x256, .f32⟩
  | 41 => ⟨S50000x256, .f32⟩
  | _ => ⟨S50000x240, .f32⟩

abbrev hbmTy (i : Nat) : BufTy := match i / 128 with
  | 0 => hbmTy0_0 i
  | 1 => hbmTy0_1 i
  | 2 => hbmTy0_2 i
  | _ => ⟨S50000x240, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | _, _ => ⟨S50000x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_call0_v0 : Ref sig .tc := ⟨.hbm, 58, rfl⟩
abbrev main_call0_v1 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_c_16 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_cst_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_cst_20 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_21 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_22 : Ref sig .tc := ⟨.hbm, 130, rfl⟩
abbrev main_v91 : Ref sig .tc := ⟨.hbm, 131, rfl⟩
abbrev main_v92 : Ref sig .tc := ⟨.hbm, 132, rfl⟩
abbrev main_c_23 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_24 : Ref sig .tc := ⟨.hbm, 139, rfl⟩
abbrev main_v98 : Ref sig .tc := ⟨.hbm, 140, rfl⟩
abbrev main_c_25 : Ref sig .tc := ⟨.hbm, 141, rfl⟩
abbrev main_v99 : Ref sig .tc := ⟨.hbm, 142, rfl⟩
abbrev main_v100 : Ref sig .tc := ⟨.hbm, 143, rfl⟩
abbrev main_c_26 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_27 : Ref sig .tc := ⟨.hbm, 149, rfl⟩
abbrev main_v105 : Ref sig .tc := ⟨.hbm, 150, rfl⟩
abbrev main_v106 : Ref sig .tc := ⟨.hbm, 151, rfl⟩
abbrev main_cst_28 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_29 : Ref sig .tc := ⟨.hbm, 158, rfl⟩
abbrev main_call1_cst : Ref sig .tc := ⟨.hbm, 159, rfl⟩
abbrev main_call1_v0 : Ref sig .tc := ⟨.hbm, 160, rfl⟩
abbrev main_call1_v1 : Ref sig .tc := ⟨.hbm, 161, rfl⟩
abbrev main_call1_v2 : Ref sig .tc := ⟨.hbm, 162, rfl⟩
abbrev main_call1_v3 : Ref sig .tc := ⟨.hbm, 163, rfl⟩
abbrev main_call1_v4 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_30 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_31 : Ref sig .tc := ⟨.hbm, 173, rfl⟩
abbrev main_v119 : Ref sig .tc := ⟨.hbm, 174, rfl⟩
abbrev main_v120 : Ref sig .tc := ⟨.hbm, 175, rfl⟩
abbrev main_c_32 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_33 : Ref sig .tc := ⟨.hbm, 182, rfl⟩
abbrev main_v126 : Ref sig .tc := ⟨.hbm, 183, rfl⟩
abbrev main_v127 : Ref sig .tc := ⟨.hbm, 184, rfl⟩
abbrev main_cst_34 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_35 : Ref sig .tc := ⟨.hbm, 189, rfl⟩
abbrev main_call2_v0 : Ref sig .tc := ⟨.hbm, 190, rfl⟩
abbrev main_call2_v1 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_c_36 : Ref sig .tc := ⟨.hbm, 196, rfl⟩
abbrev main_v135 : Ref sig .tc := ⟨.hbm, 197, rfl⟩
abbrev main_v136 : Ref sig .tc := ⟨.hbm, 198, rfl⟩
abbrev main_c_37 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_cst_38 : Ref sig .tc := ⟨.hbm, 205, rfl⟩
abbrev main_v142 : Ref sig .tc := ⟨.hbm, 206, rfl⟩
abbrev main_cst_39 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_cst_40 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_c_41 : Ref sig .tc := ⟨.hbm, 217, rfl⟩
abbrev main_v151 : Ref sig .tc := ⟨.hbm, 218, rfl⟩
abbrev main_v152 : Ref sig .tc := ⟨.hbm, 219, rfl⟩
abbrev main_c_42 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_c_43 : Ref sig .tc := ⟨.hbm, 229, rfl⟩
abbrev main_v161 : Ref sig .tc := ⟨.hbm, 230, rfl⟩
abbrev main_v162 : Ref sig .tc := ⟨.hbm, 231, rfl⟩
abbrev main_c_44 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_45 : Ref sig .tc := ⟨.hbm, 238, rfl⟩
abbrev main_v168 : Ref sig .tc := ⟨.hbm, 239, rfl⟩
abbrev main_cst_46 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_cst_47 : Ref sig .tc := ⟨.hbm, 249, rfl⟩
abbrev main_v177 : Ref sig .tc := ⟨.hbm, 250, rfl⟩
abbrev main_v178 : Ref sig .tc := ⟨.hbm, 251, rfl⟩
abbrev main_cst_48 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_cst_49 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_c_50 : Ref sig .tc := ⟨.hbm, 262, rfl⟩
abbrev main_v187 : Ref sig .tc := ⟨.hbm, 263, rfl⟩
abbrev main_v188 : Ref sig .tc := ⟨.hbm, 264, rfl⟩
abbrev main_c_51 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_cst_52 : Ref sig .tc := ⟨.hbm, 271, rfl⟩
abbrev main_v194 : Ref sig .tc := ⟨.hbm, 272, rfl⟩
abbrev main_c_53 : Ref sig .tc := ⟨.hbm, 273, rfl⟩
abbrev main_v195 : Ref sig .tc := ⟨.hbm, 274, rfl⟩
abbrev main_v196 : Ref sig .tc := ⟨.hbm, 275, rfl⟩
abbrev main_c_54 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_cst_55 : Ref sig .tc := ⟨.hbm, 281, rfl⟩
abbrev main_v201 : Ref sig .tc := ⟨.hbm, 282, rfl⟩
abbrev main_v202 : Ref sig .tc := ⟨.hbm, 283, rfl⟩
abbrev main_cst_56 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_cst_57 : Ref sig .tc := ⟨.hbm, 290, rfl⟩
abbrev main_call3_cst : Ref sig .tc := ⟨.hbm, 291, rfl⟩
abbrev main_call3_v0 : Ref sig .tc := ⟨.hbm, 292, rfl⟩
abbrev main_call3_v1 : Ref sig .tc := ⟨.hbm, 293, rfl⟩
abbrev main_call3_v2 : Ref sig .tc := ⟨.hbm, 294, rfl⟩
abbrev main_call3_v3 : Ref sig .tc := ⟨.hbm, 295, rfl⟩
abbrev main_call3_v4 : Ref sig .tc := ⟨.hbm, 296, rfl⟩
abbrev main_v208 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S50000_S_d0 : S50000.ReducesTo [0] S_
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S16_d0 : S50000x16.ReducesTo [0] S16
  bcast_S_S16 : S_.BroadcastsInDim S16 (![] : Fin 0 → Fin S16.rank)
  bcast_S16_S50000x16_1 : S16.BroadcastsInDim S50000x16 (![1] : Fin 1 → Fin S50000x16.rank)
  concatenates_S50000x240_S50000x16_S50000x256_d1 : Shape.Concatenates [S50000x240, S50000x16] S50000x256 1
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S50000x16_S800000 : S50000x16.ShapeCasts S800000
  bcast_S50000_S50000x16_0 : S50000.BroadcastsInDim S50000x16 (![0] : Fin 1 → Fin S50000x16.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x256_0_1 : S50000x1.BroadcastsInDim S50000x256 (![0, 1] : Fin 2 → Fin S50000x256.rank)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x256_S50000x256_d1 : S50000x16x256.ReducesTo [1] S50000x256
  bcast_S_S50000x256 : S_.BroadcastsInDim S50000x256 (![] : Fin 0 → Fin S50000x256.rank)
  bcast_S50000x256_S50000x16x256_0_2 : S50000x256.BroadcastsInDim S50000x16x256 (![0, 2] : Fin 2 → Fin S50000x16x256.rank)
  shapeCasts_S50000x16x256_S800000x256 : S50000x16x256.ShapeCasts S800000x256
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x1_S1x16_S50000x16_1_0_0_1_n_n_wf : DotDims.WF S50000x1 S1x16 S50000x16 [1] [0] [0] [1] [] []
  dot_S5000x256_S256x256_S5000x256_1_0_0_1_n_n_wf : DotDims.WF S5000x256 S256x256 S5000x256 [1] [0] [0] [1] [] []
  scatter_S50000_S800000x1_S800000_n_0_0_1_wf : ScatterDims.WF S50000 S800000x1 S800000 [] [0] [0] 1
  gather_S50000x256_S50000x16x1_S50000x16x256_2_0_n_n_0_2_1256_wf : GatherDims.WF S50000x256 S50000x16x1 S50000x16x256 [2] [0] [] [0] [] 2 ![1, 256]
  scatter_S50000x256_S800000x1_S800000x256_1_0_0_1_wf : ScatterDims.WF S50000x256 S800000x1 S800000x256 [1] [0] [0] 1
  dot_S50000x256_S256x1_S50000x1_1_0_0_1_n_n_wf : DotDims.WF S50000x256 S256x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)

variable [Facts₀]

def dot_S50000x1_S1x16_S50000x16_1_0_0_1_n_n : DotDims S50000x1 S1x16 S50000x16 where
  lhsContracting := [1]
  rhsContracting := [0]
  lhsNonContracting := [0]
  rhsNonContracting := [1]
  lhsBatch := []
  rhsBatch := []
  wf := dot_S50000x1_S1x16_S50000x16_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S50000x16x1_S50000x16x256_2_0_n_n_0_2_1256 : GatherDims S50000x256 S50000x16x1 S50000x16x256 where
  offsetDims := [2]
  collapsedSliceDims := [0]
  operandBatchingDims := []
  startIndicesBatchingDims := []
  startIndexMap := [0]
  indexVectorDim := 2
  sliceSizes := ![1, 256]
  wf := gather_S50000x256_S50000x16x1_S50000x16x256_2_0_n_n_0_2_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

abbrev win0_0 : Pipeline.Window sig grid0 :=
  Pipeline.Window.ofSpec (Memref.whole main_v16) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v112) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v113) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v114) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x240 : Shape := ⟨2, ![50000, 240]⟩
abbrev S50000x16 : Shape := ⟨2, ![50000, 16]⟩
abbrev S50000 : Shape := ⟨1, ![50000]⟩
abbrev S1x16 : Shape := ⟨2, ![1, 16]⟩
abbrev S16 : Shape := ⟨1, ![16]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S50000x1 : Shape := ⟨2, ![50000, 1]⟩
abbrev S50000x256 : Shape := ⟨2, ![50000, 256]⟩
abbrev S1x256 : Shape := ⟨2, ![1, 256]⟩
abbrev S800000 : Shape := ⟨1, ![800000]⟩
abbrev S800000x1 : Shape := ⟨2, ![800000, 1]⟩
abbrev S50000x16x1 : Shape := ⟨3, ![50000, 16, 1]⟩
abbrev S50000x16x256 : Shape := ⟨3, ![50000, 16, 256]⟩
abbrev S800000x256 : Shape := ⟨2, ![800000, 256]⟩
abbrev S1x1 : Shape := ⟨2, ![1, 1]⟩

abbrev nBuf : Space → Nat
  | .hbm => 302
  | .vmem => 0
  | .smem => 0
  | _ => 0

abbrev hbmTy0_0 (i : Nat) : BufTy := match i % 128 with
  | 0 => ⟨S50000x240, .f32⟩
  | 1 => ⟨S50000x16, .i32⟩
  | 2 => ⟨S50000, .f32⟩
  | 3 => ⟨S1x16, .f32⟩
  | 4 => ⟨S16, .f32⟩
  | 5 => ⟨S256x256, .f32⟩
  | 6 => ⟨S256, .f32⟩
  | 7 => ⟨S256x1, .f32⟩
  | 8 => ⟨S1, .f32⟩
  | 9 => ⟨S256x256, .f32⟩
  | 10 => ⟨S256, .f32⟩
  | 11 => ⟨S256x1, .f32⟩
  | 12 => ⟨S1, .f32⟩
  | 13 => ⟨S_, .f32⟩
  | 14 => ⟨S_, .f32⟩
  | 15 => ⟨S50000, .f32⟩
  | 16 => ⟨S50000, .f32⟩
  | 17 => ⟨S50000, .f32⟩
  | 18 => ⟨S_, .f32⟩
  | 19 => ⟨S50000, .f32⟩
  | 20 => ⟨S50000, .f32⟩
  | 21 => ⟨S50000, .f32⟩
  | 22 => ⟨S50000x1, .f32⟩
  | 23 => ⟨S50000x16, .f32⟩
  | 24 => ⟨S1x16, .f32⟩
  | 25 => ⟨S50000x16, .f32⟩
  | 26 => ⟨S50000x16, .f32⟩
  | 27 => ⟨S_, .f32⟩
  | 28 => ⟨S16, .f32⟩
  | 29 => ⟨S_, .f32⟩
  | 30 => ⟨S16, .f32⟩
  | 31 => ⟨S16, .f32⟩
  | 32 => ⟨S50000x16, .f32⟩
  | 33 => ⟨S50000x256, .f32⟩
  | 34 => ⟨S50000x256, .f32⟩
  | 35 => ⟨S1x256, .f32⟩
  | 36 => ⟨S50000x256, .f32⟩
  | 37 => ⟨S50000x256, .f32⟩
  | 38 => ⟨S800000, .i32⟩
  | 39 => ⟨S_, .f32⟩
  | 40 => ⟨S50000, .f32⟩
  | 41 => ⟨S50000x16, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S50000, .f32⟩
  | 52 => ⟨S_, .f32⟩
  | 53 => ⟨S50000, .f32⟩
  | 54 => ⟨S50000, .i1⟩
  | 55 => ⟨S_, .f32⟩
  | 56 => ⟨S50000, .f32⟩
  | 57 => ⟨S50000, .f32⟩
  | 58 => ⟨S50000, .f32⟩
  | 59 => ⟨S_, .f32⟩
  | 60 => ⟨S_, .f32⟩
  | 61 => ⟨S50000, .f32⟩
  | 62 => ⟨S50000, .f32⟩
  | 63 => ⟨S50000x1, .f32⟩
  | 64 => ⟨S50000x256, .f32⟩
  | 65 => ⟨S50000x256, .f32⟩
  | 66 => ⟨S_, .i32⟩
  | 67 => ⟨S50000x16, .i32⟩
  | 68 => ⟨S50000x16, .i1⟩
  | 69 => ⟨S_, .i32⟩
  | 70 => ⟨S50000x16, .i32⟩
  | 71 => ⟨S50000x16, .i32⟩
  | 72 => ⟨S50000x16, .i32⟩
  | 73 => ⟨S50000x16x1, .i32⟩
  | 74 => ⟨S50000x16x256, .f32⟩
  | 75 => ⟨S_, .f32⟩
  | 76 => ⟨S50000x256, .f32⟩
  | 77 => ⟨S_, .f32⟩
  | 78 => ⟨S50000x256, .f32⟩
  | 79 => ⟨S50000x256, .f32⟩
  | 80 => ⟨S50000x1, .f32⟩
  | 81 => ⟨S50000x256, .f32⟩
  | 82 => ⟨S50000x256, .f32⟩
  | 83 => ⟨S_, .f32⟩
  | 84 => ⟨S50000x256, .f32⟩
  | 85 => ⟨S50000x16x256, .f32⟩
  | 86 => ⟨S800000x256, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S50000x256, .f32⟩
  | 96 => ⟨S50000x1, .f32⟩
  | 97 => ⟨S50000x256, .f32⟩
  | 98 => ⟨S50000x256, .f32⟩
  | 99 => ⟨S_, .i32⟩
  | 100 => ⟨S50000x16, .i32⟩
  | 101 => ⟨S50000x16, .i1⟩
  | 102 => ⟨S_, .i32⟩
  | 103 => ⟨S50000x16, .i32⟩
  | 104 => ⟨S50000x16, .i32⟩
  | 105 => ⟨S50000x16, .i32⟩
  | 106 => ⟨S50000x16x1, .i32⟩
  | 107 => ⟨S50000x16x256, .f32⟩
  | 108 => ⟨S_, .f32⟩
  | 109 => ⟨S50000x256, .f32⟩
  | 110 => ⟨S_, .f32⟩
  | 111 => ⟨S50000x256, .f32⟩
  | 112 => ⟨S50000x256, .f32⟩
  | 113 => ⟨S50000x1, .f32⟩
  | 114 => ⟨S1x1, .f32⟩
  | 115 => ⟨S50000x1, .f32⟩
  | 116 => ⟨S50000x1, .f32⟩
  | 117 => ⟨S50000x1, .f32⟩
  | 118 => ⟨S50000x1, .f32⟩
  | 119 => ⟨S_, .f32⟩
  | 120 => ⟨S50000x1, .f32⟩
  | 121 => ⟨S50000x1, .f32⟩
  | 122 => ⟨S_, .f32⟩
  | 123 => ⟨S50000x1, .f32⟩
  | 124 => ⟨S50000x1, .f32⟩
  | 125 => ⟨S50000x256, .f32⟩
  | 126 => ⟨S50000x256, .f32⟩
  | 127 => ⟨S800000, .i32⟩
  | _ => ⟨S50000x240, .f32⟩

abbrev hbmTy0_1 (i : Nat) : BufTy := match i % 128 with
  | 0 => ⟨S_, .f32⟩
  | 1 => ⟨S50000x256, .f32⟩
  | 2 => ⟨S50000x16x256, .f32⟩
  | 3 => ⟨S800000x256, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S50000x256, .f32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x256, .f32⟩
  | 31 => ⟨S50000x256, .f32⟩
  | 32 => ⟨S_, .f32⟩
  | 33 => ⟨S_, .f32⟩
  | 34 => ⟨S50000x256, .f32⟩
  | 35 => ⟨S50000x256, .i1⟩
  | 36 => ⟨S_, .f32⟩
  | 37 => ⟨S50000x256, .f32⟩
  | 38 => ⟨S50000x256, .f32⟩
  | 39 => ⟨S50000x256, .f32⟩
  | 40 => ⟨S50000x256, .f32⟩
  | 41 => ⟨S1x256, .f32⟩
  | 42 => ⟨S50000x256, .f32⟩
  | 43 => ⟨S50000x256, .f32⟩
  | 44 => ⟨S800000, .i32⟩
  | 45 => ⟨S_, .f32⟩
  | 46 => ⟨S50000, .f32⟩
  | 47 => ⟨S50000x16, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S50000, .f32⟩
  | 58 => ⟨S_, .f32⟩
  | 59 => ⟨S50000, .f32⟩
  | 60 => ⟨S50000, .i1⟩
  | 61 => ⟨S_, .f32⟩
  | 62 => ⟨S50000, .f32⟩
  | 63 => ⟨S50000, .f32⟩
  | 64 => ⟨S50000, .f32⟩
  | 65 => ⟨S_, .f32⟩
  | 66 => ⟨S_, .f32⟩
  | 67 => ⟨S50000, .f32⟩
  | 68 => ⟨S50000, .f32⟩
  | 69 => ⟨S50000x1, .f32⟩
  | 70 => ⟨S50000x256, .f32⟩
  | 71 => ⟨S50000x256, .f32⟩
  | 72 => ⟨S_, .i32⟩
  | 73 => ⟨S50000x16, .i32⟩
  | 74 => ⟨S50000x16, .i1⟩
  | 75 => ⟨S_, .i32⟩
  | 76 => ⟨S50000x16, .i32⟩
  | 77 => ⟨S50000x16, .i32⟩
  | 78 => ⟨S50000x16, .i32⟩
  | 79 => ⟨S50000x16x1, .i32⟩
  | 80 => ⟨S50000x16x256, .f32⟩
  | 81 => ⟨S_, .f32⟩
  | 82 => ⟨S50000x256, .f32⟩
  | 83 => ⟨S_, .f32⟩
  | 84 => ⟨S50000x256, .f32⟩
  | 85 => ⟨S50000x256, .f32⟩
  | 86 => ⟨S50000x1, .f32⟩
  | 87 => ⟨S50000x256, .f32⟩
  | 88 => ⟨S50000x256, .f32⟩
  | 89 => ⟨S_, .f32⟩
  | 90 => ⟨S50000x256, .f32⟩
  | 91 => ⟨S50000x16x256, .f32⟩
  | 92 => ⟨S800000x256, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S50000x256, .f32⟩
  | 102 => ⟨S50000x1, .f32⟩
  | 103 => ⟨S50000x256, .f32⟩
  | 104 => ⟨S50000x256, .f32⟩
  | 105 => ⟨S_, .i32⟩
  | 106 => ⟨S50000x16, .i32⟩
  | 107 => ⟨S50000x16, .i1⟩
  | 108 => ⟨S_, .i32⟩
  | 109 => ⟨S50000x16, .i32⟩
  | 110 => ⟨S50000x16, .i32⟩
  | 111 => ⟨S50000x16, .i32⟩
  | 112 => ⟨S50000x16x1, .i32⟩
  | 113 => ⟨S50000x16x256, .f32⟩
  | 114 => ⟨S_, .f32⟩
  | 115 => ⟨S50000x256, .f32⟩
  | 116 => ⟨S_, .f32⟩
  | 117 => ⟨S50000x256, .f32⟩
  | 118 => ⟨S50000x256, .f32⟩
  | 119 => ⟨S50000x1, .f32⟩
  | 120 => ⟨S1x1, .f32⟩
  | 121 => ⟨S50000x1, .f32⟩
  | 122 => ⟨S50000x1, .f32⟩
  | 123 => ⟨S50000x1, .f32⟩
  | 124 => ⟨S50000x1, .f32⟩
  | 125 => ⟨S_, .f32⟩
  | 126 => ⟨S50000x1, .f32⟩
  | 127 => ⟨S50000x1, .f32⟩
  | _ => ⟨S50000x240, .f32⟩

abbrev hbmTy0_2 (i : Nat) : BufTy := match i % 128 with
  | 0 => ⟨S_, .f32⟩
  | 1 => ⟨S50000x1, .f32⟩
  | 2 => ⟨S50000x1, .f32⟩
  | 3 => ⟨S50000x256, .f32⟩
  | 4 => ⟨S50000x256, .f32⟩
  | 5 => ⟨S800000, .i32⟩
  | 6 => ⟨S_, .f32⟩
  | 7 => ⟨S50000x256, .f32⟩
  | 8 => ⟨S50000x16x256, .f32⟩
  | 9 => ⟨S800000x256, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S50000x256, .f32⟩
  | 19 => ⟨S_, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S_, .f32⟩
  | 30 => ⟨S800000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x256, .f32⟩
  | 37 => ⟨S50000x256, .f32⟩
  | 38 => ⟨S_, .f32⟩
  | 39 => ⟨S_, .f32⟩
  | 40 => ⟨S50000x256, .f32⟩
  | 41 => ⟨S50000x256, .i1⟩
  | 42 => ⟨S_, .f32⟩
  | 43 => ⟨S50000x256, .f32⟩
  | 44 => ⟨S50000x256, .f32⟩
  | 45 => ⟨S50000x256, .f32⟩
  | _ => ⟨S50000x240, .f32⟩

abbrev hbmTy (i : Nat) : BufTy := match i / 128 with
  | 0 => hbmTy0_0 i
  | 1 => hbmTy0_1 i
  | 2 => hbmTy0_2 i
  | _ => ⟨S50000x240, .f32⟩

abbrev bufTy : (tb : Table) → Fin (tcTables nBuf tb) → BufTy
  | .hbm, ⟨i, _⟩ => hbmTy i
  | _, _ => ⟨S50000x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_17 : Ref sig .tc := ⟨.hbm, 108, rfl⟩
abbrev main_v74 : Ref sig .tc := ⟨.hbm, 109, rfl⟩
abbrev main_cst_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_v83 : Ref sig .tc := ⟨.hbm, 120, rfl⟩
abbrev main_v84 : Ref sig .tc := ⟨.hbm, 121, rfl⟩
abbrev main_cst_20 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_22 : Ref sig .tc := ⟨.hbm, 132, rfl⟩
abbrev main_v93 : Ref sig .tc := ⟨.hbm, 133, rfl⟩
abbrev main_v94 : Ref sig .tc := ⟨.hbm, 134, rfl⟩
abbrev main_c_23 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_24 : Ref sig .tc := ⟨.hbm, 141, rfl⟩
abbrev main_v100 : Ref sig .tc := ⟨.hbm, 142, rfl⟩
abbrev main_c_25 : Ref sig .tc := ⟨.hbm, 143, rfl⟩
abbrev main_v101 : Ref sig .tc := ⟨.hbm, 144, rfl⟩
abbrev main_v102 : Ref sig .tc := ⟨.hbm, 145, rfl⟩
abbrev main_c_26 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_27 : Ref sig .tc := ⟨.hbm, 151, rfl⟩
abbrev main_v107 : Ref sig .tc := ⟨.hbm, 152, rfl⟩
abbrev main_v108 : Ref sig .tc := ⟨.hbm, 153, rfl⟩
abbrev main_cst_28 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_29 : Ref sig .tc := ⟨.hbm, 160, rfl⟩
abbrev main_call1_cst : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_call1_v3 : Ref sig .tc := ⟨.hbm, 165, rfl⟩
abbrev main_call1_v4 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_30 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_31 : Ref sig .tc := ⟨.hbm, 177, rfl⟩
abbrev main_v123 : Ref sig .tc := ⟨.hbm, 178, rfl⟩
abbrev main_v124 : Ref sig .tc := ⟨.hbm, 179, rfl⟩
abbrev main_c_32 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_33 : Ref sig .tc := ⟨.hbm, 186, rfl⟩
abbrev main_v130 : Ref sig .tc := ⟨.hbm, 187, rfl⟩
abbrev main_v131 : Ref sig .tc := ⟨.hbm, 188, rfl⟩
abbrev main_cst_34 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_cst_35 : Ref sig .tc := ⟨.hbm, 193, rfl⟩
abbrev main_call2_v0 : Ref sig .tc := ⟨.hbm, 194, rfl⟩
abbrev main_call2_v1 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_c_36 : Ref sig .tc := ⟨.hbm, 200, rfl⟩
abbrev main_v139 : Ref sig .tc := ⟨.hbm, 201, rfl⟩
abbrev main_v140 : Ref sig .tc := ⟨.hbm, 202, rfl⟩
abbrev main_c_37 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_38 : Ref sig .tc := ⟨.hbm, 209, rfl⟩
abbrev main_v146 : Ref sig .tc := ⟨.hbm, 210, rfl⟩
abbrev main_cst_39 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_cst_40 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_c_41 : Ref sig .tc := ⟨.hbm, 221, rfl⟩
abbrev main_v155 : Ref sig .tc := ⟨.hbm, 222, rfl⟩
abbrev main_v156 : Ref sig .tc := ⟨.hbm, 223, rfl⟩
abbrev main_c_42 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_c_43 : Ref sig .tc := ⟨.hbm, 233, rfl⟩
abbrev main_v165 : Ref sig .tc := ⟨.hbm, 234, rfl⟩
abbrev main_v166 : Ref sig .tc := ⟨.hbm, 235, rfl⟩
abbrev main_c_44 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_cst_45 : Ref sig .tc := ⟨.hbm, 242, rfl⟩
abbrev main_v172 : Ref sig .tc := ⟨.hbm, 243, rfl⟩
abbrev main_cst_46 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_cst_47 : Ref sig .tc := ⟨.hbm, 253, rfl⟩
abbrev main_v181 : Ref sig .tc := ⟨.hbm, 254, rfl⟩
abbrev main_v182 : Ref sig .tc := ⟨.hbm, 255, rfl⟩
abbrev main_cst_48 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_cst_49 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_c_50 : Ref sig .tc := ⟨.hbm, 266, rfl⟩
abbrev main_v191 : Ref sig .tc := ⟨.hbm, 267, rfl⟩
abbrev main_v192 : Ref sig .tc := ⟨.hbm, 268, rfl⟩
abbrev main_c_51 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_cst_52 : Ref sig .tc := ⟨.hbm, 275, rfl⟩
abbrev main_v198 : Ref sig .tc := ⟨.hbm, 276, rfl⟩
abbrev main_c_53 : Ref sig .tc := ⟨.hbm, 277, rfl⟩
abbrev main_v199 : Ref sig .tc := ⟨.hbm, 278, rfl⟩
abbrev main_v200 : Ref sig .tc := ⟨.hbm, 279, rfl⟩
abbrev main_c_54 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_cst_55 : Ref sig .tc := ⟨.hbm, 285, rfl⟩
abbrev main_v205 : Ref sig .tc := ⟨.hbm, 286, rfl⟩
abbrev main_v206 : Ref sig .tc := ⟨.hbm, 287, rfl⟩
abbrev main_cst_56 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_cst_57 : Ref sig .tc := ⟨.hbm, 294, rfl⟩
abbrev main_call3_cst : Ref sig .tc := ⟨.hbm, 295, rfl⟩
abbrev main_call3_v0 : Ref sig .tc := ⟨.hbm, 296, rfl⟩
abbrev main_call3_v1 : Ref sig .tc := ⟨.hbm, 297, rfl⟩
abbrev main_call3_v2 : Ref sig .tc := ⟨.hbm, 298, rfl⟩
abbrev main_call3_v3 : Ref sig .tc := ⟨.hbm, 299, rfl⟩
abbrev main_call3_v4 : Ref sig .tc := ⟨.hbm, 300, rfl⟩
abbrev main_v212 : Ref sig .tc := ⟨.hbm, 301, rfl⟩

abbrev nD : Nat := 1
abbrev τ : Topo := Topo.v7x

variable {F : FTy → Type} [FloatOps F]

class Facts₀ : Prop where
  reducesTo_S50000_S_d0 : S50000.ReducesTo [0] S_
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S16_d0 : S50000x16.ReducesTo [0] S16
  bcast_S_S16 : S_.BroadcastsInDim S16 (![] : Fin 0 → Fin S16.rank)
  bcast_S16_S50000x16_1 : S16.BroadcastsInDim S50000x16 (![1] : Fin 1 → Fin S50000x16.rank)
  concatenates_S50000x240_S50000x16_S50000x256_d1 : Shape.Concatenates [S50000x240, S50000x16] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S50000x16_S800000 : S50000x16.ShapeCasts S800000
  bcast_S50000_S50000x16_0 : S50000.BroadcastsInDim S50000x16 (![0] : Fin 1 → Fin S50000x16.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x256_0_1 : S50000x1.BroadcastsInDim S50000x256 (![0, 1] : Fin 2 → Fin S50000x256.rank)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x256_S50000x256_d1 : S50000x16x256.ReducesTo [1] S50000x256
  bcast_S_S50000x256 : S_.BroadcastsInDim S50000x256 (![] : Fin 0 → Fin S50000x256.rank)
  bcast_S50000x256_S50000x16x256_0_2 : S50000x256.BroadcastsInDim S50000x16x256 (![0, 2] : Fin 2 → Fin S50000x16x256.rank)
  shapeCasts_S50000x16x256_S800000x256 : S50000x16x256.ShapeCasts S800000x256
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x1_S1x16_S50000x16_1_0_0_1_n_n_wf : DotDims.WF S50000x1 S1x16 S50000x16 [1] [0] [0] [1] [] []
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000x256_S50000x16x1_S50000x16x256_2_0_n_n_0_2_1256_wf : GatherDims.WF S50000x256 S50000x16x1 S50000x16x256 [2] [0] [] [0] [] 2 ![1, 256]
  scatter_S50000x256_S800000x1_S800000x256_1_0_0_1_wf : ScatterDims.WF S50000x256 S800000x1 S800000x256 [1] [0] [0] 1
  dot_S50000x256_S256x1_S50000x1_1_0_0_1_n_n_wf : DotDims.WF S50000x256 S256x1 S50000x1 [1] [0] [0] [1] [] []

variable [Facts₀]

def dot_S50000x1_S1x16_S50000x16_1_0_0_1_n_n : DotDims S50000x1 S1x16 S50000x16 where
  lhsContracting := [1]
  rhsContracting := [0]
  lhsNonContracting := [0]
  rhsNonContracting := [1]
  lhsBatch := []
  rhsBatch := []
  wf := dot_S50000x1_S1x16_S50000x16_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S50000x16x1_S50000x16x256_2_0_n_n_0_2_1256 : GatherDims S50000x256 S50000x16x1 S50000x16x256 where
  offsetDims := [2]
  collapsedSliceDims := [0]
  operandBatchingDims := []
  startIndicesBatchingDims := []
  startIndexMap := [0]
  indexVectorDim := 2
  sliceSizes := ![1, 256]
  wf := gather_S50000x256_S50000x16x1_S50000x16x256_2_0_n_n_0_2_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelRun.lean ====
/-
  The idealized kernel program's run with its buffers READ: @main is host operations, the first affine kernel,
  host operations, the second affine kernel, host operations. The library's several-regions theorem runs it segment by
  segment; every weakly fair execution terminates, nothing faulting, and in the final memory each buffer that outlives
  the regions holds the last boundary's contents — the fold of the host stretches' results and the two kernels'
  write-backs over the launch memory. The frame claim keeps of this only the arguments; here the whole reading is kept,
  so that the result buffer can be read too.
-/
import proofs.«146255_j34883724378625_1_alg».proof.Proof.Gen.KernelIdeal.Frame

set_option maxRecDepth 16384

noncomputable section

namespace Cert.KernelIdeal.HostRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-regions theorem's implicit arguments are found by unifying its conclusion with this one, which takes
-- unfolding plain definitions in a metavariable's type
set_option backward.isDefEq.respectTransparency.types false in
/-- Every weakly fair execution of @main terminates, nothing faulting, and every final memory has each buffer that
    is not scoped to a region at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same reading at one buffer: a buffer of @main's own (none is scoped to a region). -/
theorem read_of_run {r : PUnit × MemSt nD τ sig (Elt F)}
    (h : ∀ c : Dev nD, ∀ b ∈ Pipeline.ucRefs τ sig, r.2.mem (((c : Thread nD τ)).1, b) = W12 m ρ c b)
    (c : Dev nD) (b : Ref sig .tc) (hb : ¬ (Proc.devRef .tc b : DevRef τ sig).isScoped) :
    r.2.mem ((c.tc : Thread nD τ).loc b) = W12 m ρ c (Proc.devRef .tc b) :=
  h c _ (mem_uc b hb)

end Cert.KernelIdeal.HostRun

end
-- ==== Proof.RefOps.lean ====
/- A call of an outlined function is the callee's operations over that call's buffers, a piece of its own; the two affine steps (the matrix product by a weight matrix, the bias broadcast twice, the sum) are pieces of their own. -/
import proofs.«146255_j34883724378625_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem

variable {F : FTy → Type} [FloatOps F]

set_option maxHeartbeats 40000000 in
/-- 21 operations of window main_part0. -/
abbrev ops00 : List (HloOp τ sig (Elt F)) :=
  [ StableHlo.nullary main_cst (constant S_ .f32 0xFF800000#32),
    StableHlo.binary main_arg2 main_cst main_v0 ((fun x v => Host.reduce FloatOps.maximumf x v reducesTo_S50000_S_d0 h_S_) : (⟨S50000, .f32⟩ : BufTy).Contents (Elt F) → (⟨S_, .f32⟩ : BufTy).Contents (Elt F) → (⟨S_, .f32⟩ : BufTy).Contents (Elt F)),
    StableHlo.unary main_v0 main_v1 (broadcastInDim S50000 ![] bcast_S_S50000 : (⟨S_, .f32⟩ : BufTy).Contents (Elt F) → (⟨S50000, .f32⟩ : BufTy).Contents (Elt F)),
    StableHlo.binary main_v1 main_arg2 main_v2 (subf : (⟨S50000, .f32⟩ : BufTy).Contents (Elt F) → (⟨S50000, .f32⟩ : BufTy).Contents (Elt F) → (⟨S50000, .f32⟩ : BufTy).Contents (Elt F)),
    StableHlo.unary main_v2 main_v3 (Host.negf : (⟨S50000, .f32⟩ : BufTy).Contents (Elt F) → (⟨S50000, .f32⟩ : BufTy).Contents (Elt F)),
    StableHlo.nullary main_cst_0 (constant S_ .f32 0x43B68000#32),
    StableHlo.unary main_cst_0 main_v4 (broadcastInDim S50000 ![] bcast_S_S50000 : (⟨S_, .f32⟩ : BufTy).Contents (Elt F) → (⟨S50000, .f32⟩ : BufTy).Contents (Elt F)),
    StableHlo.binary main_v3 main_v4 main_v5 (Host.divf : (⟨S50000, .f32⟩ : BufTy).Contents (Elt F) → (⟨S50000, .f32⟩ : BufTy).Contents (Elt F) → (⟨S50000, .f32⟩ : BufTy).Contents (Elt F)),
    StableHlo.unary main_v5 main_v6 (Host.exp : (⟨S50000, .f32⟩ : BufTy).Contents (Elt F) → (⟨S50000, .f32⟩ : BufTy).Contents (Elt F)),
    StableHlo.unary main_arg2 main_v7 (broadcastInDim S50000x1 ![0] bcast_S50000_S50000x1_0 : (⟨S50000, .f32⟩ : BufTy).Contents (Elt F) → (⟨S50000x1, .f32⟩ : BufTy).Contents (Elt F)),
    StableHlo.binary main_v7 main_arg3 main_v8 ((fun l r => Host.dotGeneral dot_S50000x1_S1x16_S50000x16_1_0_0_1_n_n none l r) : (⟨S50000x1, .f32⟩ : BufTy).Contents (Elt F) → (⟨S1x16, .f32⟩ : BufTy).Contents (Elt F) → (⟨S50000x16, .f32⟩ : BufTy).Contents (Elt F)),
    StableHlo.unary main_arg4 main_v9 (broadcastInDim S1x16 ![1] bcast_S16_S1x16_1 : (⟨S16, .f32⟩ : BufTy).Contents (Elt F) → (⟨S1x16, .f32⟩ : BufTy).Contents (Elt F)),
    StableHlo.unary main_v9 main_v10 (broadcastInDim S50000x16 ![0, 1] bcast_S1x16_S50000x16_0_1 : (⟨S1x16, .f32⟩ : BufTy).Contents (Elt F) → (⟨S50000x16, .f32⟩ : BufTy).Contents (Elt F)),
    StableHlo.binary main_v8 main_v10 main_v11 (addf : (⟨S50000x16, .f32⟩ : BufTy).Contents (Elt F) → (⟨S50000x16, .f32⟩ : BufTy).Contents (Elt F) → (⟨S50000x16, .f32⟩ : BufTy).Contents (Elt F)),
    StableHlo.nullary main_cst_1 (constant S_ .f32 0x00000000#32),
    StableHlo.binary main_v11 main_cst_1 main_v12 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    StableHlo.nullary main_cst_2 (constant S_ .f32 0x47435000#32),
    StableHlo.unary main_cst_2 main_v13 (broadcastInDim S16 ![] bcast_S_S16 : (⟨S_, .f32⟩ : BufTy).Contents (Elt F) → (⟨S16, .f32⟩ : BufTy).Contents (Elt F)),
    StableHlo.binary main_v12 main_v13 main_v14 (Host.divf : (⟨S16, .f32⟩ : BufTy).Contents (Elt F) → (⟨S16, .f32⟩ : BufTy).Contents (Elt F) → (⟨S16, .f32⟩ : BufTy).Contents (Elt F)),
    StableHlo.unary main_v14 main_v15 (broadcastInDim S50000x16 ![1] bcast_S16_S50000x16_1 : (⟨S16, .f32⟩ : BufTy).Contents (Elt F) → (⟨S50000x16, .f32⟩ : BufTy).Contents (Elt F)),
    StableHlo.binary main_arg0 main_v15 main_v16 ((fun a b => concatenate S50000x256 1 [⟨S50000x240, a⟩, ⟨S50000x16, b⟩] concatenates_S50000x240_S50000x16_S50000x256_d1) : (⟨S50000x240, .f32⟩ : BufTy).Contents (Elt F) → (⟨S50000x16, .f32⟩ : BufTy).Contents (Elt F) → (⟨S50000x256, .f32⟩ : BufTy).Contents (Elt F)) ]
theorem ops00_sub : (ops00 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub ..⟩

set_option maxHeartbeats 40000000 in
/-- 4 operations of window main_part0 (an affine step). -/
abbrev ops01 : List (HloOp τ sig (Elt F)) :=
  [ StableHlo.binary main_v16 main_arg5 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S50000x256 ![0, 1] bcast_S1x256_S50000x256_0_1 : (⟨S1x256, .f32⟩ : BufTy).Contents (Elt F) → (⟨S50000x256, .f32⟩ : BufTy).Contents (Elt F)),
    StableHlo.binary main_v17 main_v19 main_v20 (addf : (⟨S50000x256, .f32⟩ : BufTy).Contents (Elt F) → (⟨S50000x256, .f32⟩ : BufTy).Contents (Elt F) → (⟨S50000x256, .f32⟩ : BufTy).Contents (Elt F)) ]
theorem ops01_sub : (ops01 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

set_option maxHeartbeats 40000000 in
/-- 22 operations of window main_part0. -/
abbrev ops02 : List (HloOp τ sig (Elt F)) :=
  [ StableHlo.reshape main_arg1 main_v21 rfl shapeCasts_S50000x16_S800000,
    StableHlo.nullary main_cst_3 (constant S_ .f32 0x00000000#32),
    StableHlo.unary main_cst_3 main_v22 (broadcastInDim S50000 ![] bcast_S_S50000 : (⟨S_, .f32⟩ : BufTy).Contents (Elt F) → (⟨S50000, .f32⟩ : BufTy).Contents (Elt F)),
    StableHlo.unary main_v6 main_v23 (broadcastInDim S50000x16 ![0] bcast_S50000_S50000x16_0 : (⟨S50000, .f32⟩ : BufTy).Contents (Elt F) → (⟨S50000x16, .f32⟩ : BufTy).Contents (Elt F)),
    StableHlo.reshape main_v23 main_v24 rfl shapeCasts_S50000x16_S800000,
    StableHlo.nullary main_c (constantI S_ 32 0#32),
    StableHlo.unary main_c main_v25 (broadcastInDim S800000 ![] bcast_S_S800000 : (⟨S_, .i32⟩ : BufTy).Contents (Elt F) → (⟨S800000, .i32⟩ : BufTy).Contents (Elt F)),
    StableHlo.binary main_v21 main_v25 main_v26 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v27 (broadcastInDim S800000 ![] bcast_S_S800000 : (⟨S_, .i32⟩ : BufTy).Contents (Elt F) → (⟨S800000, .i32⟩ : BufTy).Contents (Elt F)),
    StableHlo.binary main_v21 main_v27 main_v28 (addi : (⟨S800000, .i32⟩ : BufTy).Contents (Elt F) → (⟨S800000, .i32⟩ : BufTy).Contents (Elt F) → (⟨S800000, .i32⟩ : BufTy).Contents (Elt F)),
    StableHlo.ternary main_v26 main_v28 main_v21 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v29 main_v30 (broadcastInDim S800000x1 ![0] bcast_S800000_S800000x1_0 : (⟨S800000, .i32⟩ : BufTy).Contents (Elt F) → (⟨S800000x1, .i32⟩ : BufTy).Contents (Elt F)),
    StableHlo.ternary main_v22 main_v30 main_v24 main_v31 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_5 (constant S_ .f32 0x00000000#32),
    StableHlo.unary main_cst_5 main_v32 (broadcastInDim S50000 ![] bcast_S_S50000 : (⟨S_, .f32⟩ : BufTy).Contents (Elt F) → (⟨S50000, .f32⟩ : BufTy).Contents (Elt F)),
    StableHlo.binary main_v31 main_v32 main_v33 (cmpf .ogt : (⟨S50000, .f32⟩ : BufTy).Contents (Elt F) → (⟨S50000, .f32⟩ : BufTy).Contents (Elt F) → (⟨S50000, .i1⟩ : BufTy).Contents (Elt F)),
    StableHlo.nullary main_cst_6 (constant S_ .f32 0x2B8CBCCC#32),
    StableHlo.unary main_cst_6 main_v34 (broadcastInDim S50000 ![] bcast_S_S50000 : (⟨S_, .f32⟩ : BufTy).Contents (Elt F) → (⟨S50000, .f32⟩ : BufTy).Contents (Elt F)),
    StableHlo.binary main_v31 main_v34 main_v35 (maximumf : (⟨S50000, .f32⟩ : BufTy).Contents (Elt F) → (⟨S50000, .f32⟩ : BufTy).Contents (Elt F) → (⟨S50000, .f32⟩ : BufTy).Contents (Elt F)),
    StableHlo.unary main_v35 main_v36 (Host.rsqrt : (⟨S50000, .f32⟩ : BufTy).Contents (Elt F) → (⟨S50000, .f32⟩ : BufTy).Contents (Elt F)),
    StableHlo.nullary main_cst_7 (constant S_ .f32 0x00000000#32) ]
theorem ops02_sub : (ops02 : List (HloOp τ sig (Elt F))).Forall fun op => op.bufs ⊆ StableHlo.tcRefs τ sig :=
  ⟨StableHlo.reshape_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub ..⟩

set_option maxHeartbeats 40000000 in
/-- 3 operations of window main_part0 (an outlined function's body). -/
abbrev ops03 : List (HloOp τ sig (Elt F)) :=
  [ StableHlo.TRef.unary (.of main_cst_7 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v33 : StableHlo.TRef sig ⟨S50000, .i1⟩) (.of main_v36 : StableHlo.TRef sig ⟨S50000, .f32⟩) (.of main_call0_v1 : StableHlo.TRef sig ⟨S50000, .f32⟩) (.of main_v37 : StableHlo.TRef sig ⟨S50000, .f32⟩) select ]
theorem ops03_sub : (ops03 : List (HloOp τ sig (Elt F))).Forall fun op => op.bufs ⊆ StableHlo.tcRefs τ sig :=
  ⟨StableHlo.unary_bufs_sub .., StableHlo.unary_bufs_sub .., StableHlo.ternary_bufs_sub ..⟩

set_option maxHeartbeats 40000000 in
/-- 12 operations of window main_part0. -/
abbrev ops04 : List (HloOp τ sig (Elt F)) :=
  [ StableHlo.unary main_v37 main_v38 (broadcastInDim S50000x1 ![0] bcast_S50000_S50000x1_0 : (⟨S50000, .f32⟩ : BufTy).Contents (Elt F) → (⟨S50000x1, .f32⟩ : BufTy).Contents (Elt F)),
    StableHlo.unary main_v38 main_v39 (broadcastInDim S50000x256 ![0, 1] bcast_S50000x1_S50000x256_0_1 : (⟨S50000x1, .f32⟩ : BufTy).Contents (Elt F) → (⟨S50000x256, .f32⟩ : BufTy).Contents (Elt F)),
    StableHlo.binary main_v20 main_v39 main_v40 (mulf : (⟨S50000x256, .f32⟩ : BufTy).Contents (Elt F) → (⟨S50000x256, .f32⟩ : BufTy).Contents (Elt F) → (⟨S50000x256, .f32⟩ : BufTy).Contents (Elt F)),
    StableHlo.nullary main_c_8 (constantI S_ 32 0#32),
    StableHlo.unary main_c_8 main_v41 (broadcastInDim S50000x16 ![] bcast_S_S50000x16 : (⟨S_, .i32⟩ : BufTy).Contents (Elt F) → (⟨S50000x16, .i32⟩ : BufTy).Contents (Elt F)),
    StableHlo.binary main_arg1 main_v41 main_v42 (cmpi .slt : (⟨S50000x16, .i32⟩ : BufTy).Contents (Elt F) → (⟨S50000x16, .i32⟩ : BufTy).Contents (Elt F) → (⟨S50000x16, .i1⟩ : BufTy).Contents (Elt F)),
    StableHlo.nullary main_c_9 (constantI S_ 32 50000#32),
    StableHlo.unary main_c_9 main_v43 (broadcastInDim S50000x16 ![] bcast_S_S50000x16 : (⟨S_, .i32⟩ : BufTy).Contents (Elt F) → (⟨S50000x16, .i32⟩ : BufTy).Contents (Elt F)),
    StableHlo.binary main_arg1 main_v43 main_v44 (addi : (⟨S50000x16, .i32⟩ : BufTy).Contents (Elt F) → (⟨S50000x16, .i32⟩ : BufTy).Contents (Elt F) → (⟨S50000x16, .i32⟩ : BufTy).Contents (Elt F)),
    StableHlo.ternary main_v42 main_v44 main_arg1 main_v45 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F)),
    StableHlo.unary main_v45 main_v46 (broadcastInDim S50000x16x1 ![0, 1] bcast_S50000x16_S50000x16x1_0_1 : (⟨S50000x16, .i32⟩ : BufTy).Contents (Elt F) → (⟨S50000x16x1, .i32⟩ : BufTy).Contents (Elt F)),
    StableHlo.binary main_v40 main_v46 main_v47 ((fun x i => Host.gather gather_S50000x256_S50000x16x1_S50000x16x256_2_0_n_n_0_2_1256 x i) : (⟨S50000x256, .f32⟩ : BufTy).Contents (Elt F) → (⟨S50000x16x1, .i32⟩ : BufTy).Contents (Elt F) → (⟨S50000x16x256, .f32⟩ : BufTy).Contents (Elt F)) ]
theorem ops04_sub : (ops04 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

set_option maxHeartbeats 40000000 in
/-- 60 operations of window main_part1. -/
abbrev ops05 : List (HloOp τ sig (Elt F)) :=
  ( StableHlo.nullary main_cst_10 (constant S_ .f32 0x00000000#32)
  :: StableHlo.binary main_v47 main_cst_10 main_v48 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F))
  :: StableHlo.nullary main_cst_11 (constant S_ .f32 0x41800000#32)
  :: StableHlo.unary main_cst_11 main_v49 (broadcastInDim S50000x256 ![] bcast_S_S50000x256 : (⟨S_, .f32⟩ : BufTy).Contents (Elt F) → (⟨S50000x256, .f32⟩ : BufTy).Contents (Elt F))
  :: StableHlo.binary main_v48 main_v49 main_v50 (Host.divf : (⟨S50000x256, .f32⟩ : BufTy).Contents (Elt F) → (⟨S50000x256, .f32⟩ : BufTy).Contents (Elt F) → (⟨S50000x256, .f32⟩ : BufTy).Contents (Elt F))
  :: StableHlo.unary main_v6 main_v51 (broadcastInDim S50000x1 ![0] bcast_S50000_S50000x1_0 : (⟨S50000, .f32⟩ : BufTy).Contents (Elt F) → (⟨S50000x1, .f32⟩ : BufTy).Contents (Elt F))
  :: StableHlo.unary main_v51 main_v52 (broadcastInDim S50000x256 ![0, 1] bcast_S50000x1_S50000x256_0_1 : (⟨S50000x1, .f32⟩ : BufTy).Contents (Elt F) → (⟨S50000x256, .f32⟩ : BufTy).Contents (Elt F))
  :: StableHlo.binary main_v52 main_v50 main_v53 (mulf : (⟨S50000x256, .f32⟩ : BufTy).Contents (Elt F) → (⟨S50000x256, .f32⟩ : BufTy).Contents (Elt F) → (⟨S50000x256, .f32⟩ : BufTy).Contents (Elt F))
  :: StableHlo.nullary main_cst_12 (constant S_ .f32 0x00000000#32)
  :: StableHlo.unary main_cst_12 main_v54 (broadcastInDim S50000x256 ![] bcast_S_S50000x256 : (⟨S_, .f32⟩ : BufTy).Contents (Elt F) → (⟨S50000x256, .f32⟩ : BufTy).Contents (Elt F))
  :: StableHlo.unary main_v53 main_v55 (broadcastInDim S50000x16x256 ![0, 2] bcast_S50000x256_S50000x16x256_0_2 : (⟨S50000x256, .f32⟩ : BufTy).Contents (Elt F) → (⟨S50000x16x256, .f32⟩ : BufTy).Contents (Elt F))
  :: StableHlo.reshape main_v55 main_v56 rfl shapeCasts_S50000x16x256_S800000x256
  :: StableHlo.nullary main_c_13 (constantI S_ 32 0#32)
  :: StableHlo.unary main_c_13 main_v57 (broadcastInDim S800000 ![] bcast_S_S800000 : (⟨S_, .i32⟩ : BufTy).Contents (Elt F) → (⟨S800000, .i32⟩ : BufTy).Contents (Elt F))
  :: StableHlo.binary main_v21 main_v57 main_v58 (cmpi .slt : (⟨S800000, .i32⟩ : BufTy).Contents (Elt F) → (⟨S800000, .i32⟩ : BufTy).Contents (Elt F) → (⟨S800000, .i1⟩ : BufTy).Contents (Elt F))
  :: StableHlo.nullary main_c_14 (constantI S_ 32 50000#32)
  :: StableHlo.unary main_c_14 main_v59 (broadcastInDim S800000 ![] bcast_S_S800000 : (⟨S_, .i32⟩ : BufTy).Contents (Elt F) → (⟨S800000, .i32⟩ : BufTy).Contents (Elt F))
  :: StableHlo.binary main_v21 main_v59 main_v60 (addi : (⟨S800000, .i32⟩ : BufTy).Contents (Elt F) → (⟨S800000, .i32⟩ : BufTy).Contents (Elt F) → (⟨S800000, .i32⟩ : BufTy).Contents (Elt F))
  :: StableHlo.ternary main_v58 main_v60 main_v21 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v61 main_v62 (broadcastInDim S800000x1 ![0] bcast_S800000_S800000x1_0 : (⟨S800000, .i32⟩ : BufTy).Contents (Elt F) → (⟨S800000x1, .i32⟩ : BufTy).Contents (Elt F))
  :: StableHlo.ternary main_v54 main_v62 main_v56 main_v63 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F))
  :: StableHlo.unary main_v37 main_v64 (broadcastInDim S50000x1 ![0] bcast_S50000_S50000x1_0 : (⟨S50000, .f32⟩ : BufTy).Contents (Elt F) → (⟨S50000x1, .f32⟩ : BufTy).Contents (Elt F))
  :: StableHlo.unary main_v64 main_v65 (broadcastInDim S50000x256 ![0, 1] bcast_S50000x1_S50000x256_0_1 : (⟨S50000x1, .f32⟩ : BufTy).Contents (Elt F) → (⟨S50000x256, .f32⟩ : BufTy).Contents (Elt F))
  :: StableHlo.binary main_v63 main_v65 main_v66 (mulf : (⟨S50000x256, .f32⟩ : BufTy).Contents (Elt F) → (⟨S50000x256, .f32⟩ : BufTy).Contents (Elt F) → (⟨S50000x256, .f32⟩ : BufTy).Contents (Elt F))
  :: StableHlo.nullary main_c_15 (constantI S_ 32 0#32)
  :: StableHlo.unary main_c_15 main_v67 (broadcastInDim S50000x16 ![] bcast_S_S50000x16 : (⟨S_, .i32⟩ : BufTy).Contents (Elt F) → (⟨S50000x16, .i32⟩ : BufTy).Contents (Elt F))
  :: StableHlo.binary main_arg1 main_v67 main_v68 (cmpi .slt : (⟨S50000x16, .i32⟩ : BufTy).Contents (Elt F) → (⟨S50000x16, .i32⟩ : BufTy).Contents (Elt F) → (⟨S50000x16, .i1⟩ : BufTy).Contents (Elt F))
  :: StableHlo.nullary main_c_16 (constantI S_ 32 50000#32)
  :: StableHlo.unary main_c_16 main_v69 (broadcastInDim S50000x16 ![] bcast_S_S50000x16 : (⟨S_, .i32⟩ : BufTy).Contents (Elt F) → (⟨S50000x16, .i32⟩ : BufTy).Contents (Elt F))
  :: StableHlo.binary main_arg1 main_v69 main_v70 (addi : (⟨S50000x16, .i32⟩ : BufTy).Contents (Elt F) → (⟨S50000x16, .i32⟩ : BufTy).Contents (Elt F) → (⟨S50000x16, .i32⟩ : BufTy).Contents (Elt F))
  :: StableHlo.ternary main_v68 main_v70 main_arg1 main_v71 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F))
  :: StableHlo.unary main_v71 main_v72 (broadcastInDim S50000x16x1 ![0, 1] bcast_S50000x16_S50000x16x1_0_1 : (⟨S50000x16, .i32⟩ : BufTy).Contents (Elt F) → (⟨S50000x16x1, .i32⟩ : BufTy).Contents (Elt F))
  :: StableHlo.binary main_v66 main_v72 main_v73 ((fun x i => Host.gather gather_S50000x256_S50000x16x1_S50000x16x256_2_0_n_n_0_2_1256 x i) : (⟨S50000x256, .f32⟩ : BufTy).Contents (Elt F) → (⟨S50000x16x1, .i32⟩ : BufTy).Contents (Elt F) → (⟨S50000x16x256, .f32⟩ : BufTy).Contents (Elt F))
  :: StableHlo.nullary main_cst_17 (constant S_ .f32 0x00000000#32)
  :: StableHlo.binary main_v73 main_cst_17 main_v74 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F))
  :: StableHlo.nullary main_cst_18 (constant S_ .f32 0x41800000#32)
  :: StableHlo.unary main_cst_18 main_v75 (broadcastInDim S50000x256 ![] bcast_S_S50000x256 : (⟨S_, .f32⟩ : BufTy).Contents (Elt F) → (⟨S50000x256, .f32⟩ : BufTy).Contents (Elt F))
  :: StableHlo.binary main_v74 main_v75 main_v76 (Host.divf : (⟨S50000x256, .f32⟩ : BufTy).Contents (Elt F) → (⟨S50000x256, .f32⟩ : BufTy).Contents (Elt F) → (⟨S50000x256, .f32⟩ : BufTy).Contents (Elt F))
  :: StableHlo.binary main_v76 main_arg7 main_v77 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F))
  :: StableHlo.unary main_arg8 main_v78 (broadcastInDim S1x1 ![1] bcast_S1_S1x1_1 : (⟨S1, .f32⟩ : BufTy).Contents (Elt F) → (⟨S1x1, .f32⟩ : BufTy).Contents (Elt F))
  :: StableHlo.unary main_v78 main_v79 (broadcastInDim S50000x1 ![0, 1] bcast_S1x1_S50000x1_0_1 : (⟨S1x1, .f32⟩ : BufTy).Contents (Elt F) → (⟨S50000x1, .f32⟩ : BufTy).Contents (Elt F))
  :: StableHlo.binary main_v77 main_v79 main_v80 (addf : (⟨S50000x1, .f32⟩ : BufTy).Contents (Elt F) → (⟨S50000x1, .f32⟩ : BufTy).Contents (Elt F) → (⟨S50000x1, .f32⟩ : BufTy).Contents (Elt F))
  :: StableHlo.unary main_v80 main_v81 (Host.negf : (⟨S50000x1, .f32⟩ : BufTy).Contents (Elt F) → (⟨S50000x1, .f32⟩ : BufTy).Contents (Elt F))
  :: StableHlo.unary main_v81 main_v82 (Host.exp : (⟨S50000x1, .f32⟩ : BufTy).Contents (Elt F) → (⟨S50000x1, .f32⟩ : BufTy).Contents (Elt F))
  :: StableHlo.nullary main_cst_19 (constant S_ .f32 0x3F800000#32)
  :: StableHlo.unary main_cst_19 main_v83 (broadcastInDim S50000x1 ![] bcast_S_S50000x1 : (⟨S_, .f32⟩ : BufTy).Contents (Elt F) → (⟨S50000x1, .f32⟩ : BufTy).Contents (Elt F))
  :: StableHlo.binary main_v83 main_v82 main_v84 (addf : (⟨S50000x1, .f32⟩ : BufTy).Contents (Elt F) → (⟨S50000x1, .f32⟩ : BufTy).Contents (Elt F) → (⟨S50000x1, .f32⟩ : BufTy).Contents (Elt F))
  :: StableHlo.nullary main_cst_20 (constant S_ .f32 0x3F800000#32)
  :: StableHlo.unary main_cst_20 main_v85 (broadcastInDim S50000x1 ![] bcast_S_S50000x1 : (⟨S_, .f32⟩ : BufTy).Contents (Elt F) → (⟨S50000x1, .f32⟩ : BufTy).Contents (Elt F))
  :: StableHlo.binary main_v85 main_v84 main_v86 (Host.divf : (⟨S50000x1, .f32⟩ : BufTy).Contents (Elt F) → (⟨S50000x1, .f32⟩ : BufTy).Contents (Elt F) → (⟨S50000x1, .f32⟩ : BufTy).Contents (Elt F))
  :: StableHlo.unary main_v86 main_v87 (broadcastInDim S50000x256 ![0, 1] bcast_S50000x1_S50000x256_0_1 : (⟨S50000x1, .f32⟩ : BufTy).Contents (Elt F) → (⟨S50000x256, .f32⟩ : BufTy).Contents (Elt F))
  :: StableHlo.binary main_v87 main_v76 main_v88 (mulf : (⟨S50000x256, .f32⟩ : BufTy).Contents (Elt F) → (⟨S50000x256, .f32⟩ : BufTy).Contents (Elt F) → (⟨S50000x256, .f32⟩ : BufTy).Contents (Elt F))
  :: StableHlo.reshape main_arg1 main_v89 rfl shapeCasts_S50000x16_S800000
  :: StableHlo.nullary main_cst_21 (constant S_ .f32 0x00000000#32)
  :: StableHlo.unary main_cst_21 main_v90 (broadcastInDim S50000x256 ![] bcast_S_S50000x256 : (⟨S_, .f32⟩ : BufTy).Contents (Elt F) → (⟨S50000x256, .f32⟩ : BufTy).Contents (Elt F))
  :: StableHlo.unary main_v88 main_v91 (broadcastInDim S50000x16x256 ![0, 2] bcast_S50000x256_S50000x16x256_0_2 : (⟨S50000x256, .f32⟩ : BufTy).Contents (Elt F) → (⟨S50000x16x256, .f32⟩ : BufTy).Contents (Elt F))
  :: StableHlo.reshape main_v91 main_v92 rfl shapeCasts_S50000x16x256_S800000x256
  :: StableHlo.nullary main_c_22 (constantI S_ 32 0#32)
  :: StableHlo.unary main_c_22 main_v93 (broadcastInDim S800000 ![] bcast_S_S800000 : (⟨S_, .i32⟩ : BufTy).Contents (Elt F) → (⟨S800000, .i32⟩ : BufTy).Contents (Elt F))
  :: StableHlo.binary main_v89 main_v93 main_v94 (cmpi .slt : (⟨S800000, .i32⟩ : BufTy).Contents (Elt F) → (⟨S800000, .i32⟩ : BufTy).Contents (Elt F) → (⟨S800000, .i1⟩ : BufTy).Contents (Elt F))
  :: [] )
theorem ops05_sub : (ops05 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.reshape_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub ..⟩

set_option maxHeartbeats 40000000 in
/-- 26 operations of window main_part2. -/
abbrev ops06 : List (HloOp τ sig (Elt F)) :=
  [ StableHlo.nullary main_c_23 (constantI S_ 32 50000#32),
    StableHlo.unary main_c_23 main_v95 (broadcastInDim S800000 ![] bcast_S_S800000 : (⟨S_, .i32⟩ : BufTy).Contents (Elt F) → (⟨S800000, .i32⟩ : BufTy).Contents (Elt F)),
    StableHlo.binary main_v89 main_v95 main_v96 (addi : (⟨S800000, .i32⟩ : BufTy).Contents (Elt F) → (⟨S800000, .i32⟩ : BufTy).Contents (Elt F) → (⟨S800000, .i32⟩ : BufTy).Contents (Elt F)),
    StableHlo.ternary main_v94 main_v96 main_v89 main_v97 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v97 main_v98 (broadcastInDim S800000x1 ![0] bcast_S800000_S800000x1_0 : (⟨S800000, .i32⟩ : BufTy).Contents (Elt F) → (⟨S800000x1, .i32⟩ : BufTy).Contents (Elt F)),
    StableHlo.ternary main_v90 main_v98 main_v92 main_v99 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_24 (constant S_ .f32 0x00000000#32),
    StableHlo.unary main_cst_24 main_v100 (broadcastInDim S50000 ![] bcast_S_S50000 : (⟨S_, .f32⟩ : BufTy).Contents (Elt F) → (⟨S50000, .f32⟩ : BufTy).Contents (Elt F)),
    StableHlo.nullary main_c_25 (constantI S_ 32 0#32),
    StableHlo.unary main_c_25 main_v101 (broadcastInDim S800000 ![] bcast_S_S800000 : (⟨S_, .i32⟩ : BufTy).Contents (Elt F) → (⟨S800000, .i32⟩ : BufTy).Contents (Elt F)),
    StableHlo.binary main_v89 main_v101 main_v102 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32),
    StableHlo.unary main_c_26 main_v103 (broadcastInDim S800000 ![] bcast_S_S800000 : (⟨S_, .i32⟩ : BufTy).Contents (Elt F) → (⟨S800000, .i32⟩ : BufTy).Contents (Elt F)),
    StableHlo.binary main_v89 main_v103 main_v104 (addi : (⟨S800000, .i32⟩ : BufTy).Contents (Elt F) → (⟨S800000, .i32⟩ : BufTy).Contents (Elt F) → (⟨S800000, .i32⟩ : BufTy).Contents (Elt F)),
    StableHlo.ternary main_v102 main_v104 main_v89 main_v105 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v105 main_v106 (broadcastInDim S800000x1 ![0] bcast_S800000_S800000x1_0 : (⟨S800000, .i32⟩ : BufTy).Contents (Elt F) → (⟨S800000x1, .i32⟩ : BufTy).Contents (Elt F)),
    StableHlo.nullary main_cst_27 (constant S_ .f32 0x3F800000#32),
    StableHlo.unary main_cst_27 main_v107 (broadcastInDim S800000 ![] bcast_S_S800000 : (⟨S_, .f32⟩ : BufTy).Contents (Elt F) → (⟨S800000, .f32⟩ : BufTy).Contents (Elt F)),
    StableHlo.ternary main_v100 main_v106 main_v107 main_v108 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_28 (constant S_ .f32 0x3F800000#32),
    StableHlo.unary main_cst_28 main_v109 (broadcastInDim S50000 ![] bcast_S_S50000 : (⟨S_, .f32⟩ : BufTy).Contents (Elt F) → (⟨S50000, .f32⟩ : BufTy).Contents (Elt F)),
    StableHlo.binary main_v108 main_v109 main_v110 (maximumf : (⟨S50000, .f32⟩ : BufTy).Contents (Elt F) → (⟨S50000, .f32⟩ : BufTy).Contents (Elt F) → (⟨S50000, .f32⟩ : BufTy).Contents (Elt F)),
    StableHlo.unary main_v110 main_v111 (broadcastInDim S50000x1 ![0] bcast_S50000_S50000x1_0 : (⟨S50000, .f32⟩ : BufTy).Contents (Elt F) → (⟨S50000x1, .f32⟩ : BufTy).Contents (Elt F)),
    StableHlo.unary main_v111 main_v112 (broadcastInDim S50000x256 ![0, 1] bcast_S50000x1_S50000x256_0_1 : (⟨S50000x1, .f32⟩ : BufTy).Contents (Elt F) → (⟨S50000x256, .f32⟩ : BufTy).Contents (Elt F)),
    StableHlo.binary main_v99 main_v112 main_v113 (Host.divf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x3E4CCCCD#32) ]
theorem ops06_sub : (ops06 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩

set_option maxHeartbeats 40000000 in
/-- 7 operations of window main_part2 (an outlined function's body). -/
abbrev ops07 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v113 : StableHlo.TRef sig ⟨S50000x256, .f32⟩) (.of main_call1_v0 : StableHlo.TRef sig ⟨S50000x256, .f32⟩) (.of main_call1_v1 : StableHlo.TRef sig ⟨S50000x256, .i1⟩) (cmpf .oge),
    StableHlo.TRef.unary (.of main_cst_29 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x256, .f32⟩) (broadcastInDim S50000x256 ![] bcast_S_S50000x256),
    StableHlo.TRef.binary (.of main_call1_v3 : StableHlo.TRef sig ⟨S50000x256, .f32⟩) (.of main_v113 : StableHlo.TRef sig ⟨S50000x256, .f32⟩) (.of main_call1_v4 : StableHlo.TRef sig ⟨S50000x256, .f32⟩) mulf,
    StableHlo.TRef.ternary (.of main_call1_v1 : StableHlo.TRef sig ⟨S50000x256, .i1⟩) (.of main_v113 : StableHlo.TRef sig ⟨S50000x256, .f32⟩) (.of main_call1_v4 : StableHlo.TRef sig ⟨S50000x256, .f32⟩) (.of main_v114 : StableHlo.TRef sig ⟨S50000x256, .f32⟩) select ]
theorem ops07_sub : (ops07 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

set_option maxHeartbeats 40000000 in
/-- 4 operations of window main_part2 (an affine step). -/
abbrev ops08 : List (HloOp τ sig (Elt F)) :=
  [ StableHlo.binary main_v114 main_arg9 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg10 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S50000x256 ![0, 1] bcast_S1x256_S50000x256_0_1 : (⟨S1x256, .f32⟩ : BufTy).Contents (Elt F) → (⟨S50000x256, .f32⟩ : BufTy).Contents (Elt F)),
    StableHlo.binary main_v115 main_v117 main_v118 (addf : (⟨S50000x256, .f32⟩ : BufTy).Contents (Elt F) → (⟨S50000x256, .f32⟩ : BufTy).Contents (Elt F) → (⟨S50000x256, .f32⟩ : BufTy).Contents (Elt F)) ]
theorem ops08_sub : (ops08 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

set_option maxHeartbeats 40000000 in
/-- 22 operations of window main_part2. -/
abbrev ops09 : List (HloOp τ sig (Elt F)) :=
  [ StableHlo.reshape main_arg1 main_v119 rfl shapeCasts_S50000x16_S800000,
    StableHlo.nullary main_cst_30 (constant S_ .f32 0x00000000#32),
    StableHlo.unary main_cst_30 main_v120 (broadcastInDim S50000 ![] bcast_S_S50000 : (⟨S_, .f32⟩ : BufTy).Contents (Elt F) → (⟨S50000, .f32⟩ : BufTy).Contents (Elt F)),
    StableHlo.unary main_v6 main_v121 (broadcastInDim S50000x16 ![0] bcast_S50000_S50000x16_0 : (⟨S50000, .f32⟩ : BufTy).Contents (Elt F) → (⟨S50000x16, .f32⟩ : BufTy).Contents (Elt F)),
    StableHlo.reshape main_v121 main_v122 rfl shapeCasts_S50000x16_S800000,
    StableHlo.nullary main_c_31 (constantI S_ 32 0#32),
    StableHlo.unary main_c_31 main_v123 (broadcastInDim S800000 ![] bcast_S_S800000 : (⟨S_, .i32⟩ : BufTy).Contents (Elt F) → (⟨S800000, .i32⟩ : BufTy).Contents (Elt F)),
    StableHlo.binary main_v119 main_v123 main_v124 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v125 (broadcastInDim S800000 ![] bcast_S_S800000 : (⟨S_, .i32⟩ : BufTy).Contents (Elt F) → (⟨S800000, .i32⟩ : BufTy).Contents (Elt F)),
    StableHlo.binary main_v119 main_v125 main_v126 (addi : (⟨S800000, .i32⟩ : BufTy).Contents (Elt F) → (⟨S800000, .i32⟩ : BufTy).Contents (Elt F) → (⟨S800000, .i32⟩ : BufTy).Contents (Elt F)),
    StableHlo.ternary main_v124 main_v126 main_v119 main_v127 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v127 main_v128 (broadcastInDim S800000x1 ![0] bcast_S800000_S800000x1_0 : (⟨S800000, .i32⟩ : BufTy).Contents (Elt F) → (⟨S800000x1, .i32⟩ : BufTy).Contents (Elt F)),
    StableHlo.ternary main_v120 main_v128 main_v122 main_v129 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_33 (constant S_ .f32 0x00000000#32),
    StableHlo.unary main_cst_33 main_v130 (broadcastInDim S50000 ![] bcast_S_S50000 : (⟨S_, .f32⟩ : BufTy).Contents (Elt F) → (⟨S50000, .f32⟩ : BufTy).Contents (Elt F)),
    StableHlo.binary main_v129 main_v130 main_v131 (cmpf .ogt : (⟨S50000, .f32⟩ : BufTy).Contents (Elt F) → (⟨S50000, .f32⟩ : BufTy).Contents (Elt F) → (⟨S50000, .i1⟩ : BufTy).Contents (Elt F)),
    StableHlo.nullary main_cst_34 (constant S_ .f32 0x2B8CBCCC#32),
    StableHlo.unary main_cst_34 main_v132 (broadcastInDim S50000 ![] bcast_S_S50000 : (⟨S_, .f32⟩ : BufTy).Contents (Elt F) → (⟨S50000, .f32⟩ : BufTy).Contents (Elt F)),
    StableHlo.binary main_v129 main_v132 main_v133 (maximumf : (⟨S50000, .f32⟩ : BufTy).Contents (Elt F) → (⟨S50000, .f32⟩ : BufTy).Contents (Elt F) → (⟨S50000, .f32⟩ : BufTy).Contents (Elt F)),
    StableHlo.unary main_v133 main_v134 (Host.rsqrt : (⟨S50000, .f32⟩ : BufTy).Contents (Elt F) → (⟨S50000, .f32⟩ : BufTy).Contents (Elt F)),
    StableHlo.nullary main_cst_35 (constant S_ .f32 0x00000000#32) ]
theorem ops09_sub : (ops09 : List (HloOp τ sig (Elt F))).Forall fun op => op.bufs ⊆ StableHlo.tcRefs τ sig :=
  ⟨StableHlo.reshape_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub ..⟩

set_option maxHeartbeats 40000000 in
/-- 3 operations of window main_part2 (an outlined function's body). -/
abbrev ops10 : List (HloOp τ sig (Elt F)) :=
  [ StableHlo.TRef.unary (.of main_cst_35 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S50000, .f32⟩) (broadcastInDim S50000 ![] bcast_S_S50000),
    StableHlo.TRef.ternary (.of main_v131 : StableHlo.TRef sig ⟨S50000, .i1⟩) (.of main_v134 : StableHlo.TRef sig ⟨S50000, .f32⟩) (.of main_call2_v1 : StableHlo.TRef sig ⟨S50000, .f32⟩) (.of main_v135 : StableHlo.TRef sig ⟨S50000, .f32⟩) select ]
theorem ops10_sub : (ops10 : List (HloOp τ sig (Elt F))).Forall fun op => op.bufs ⊆ StableHlo.tcRefs τ sig :=
  ⟨StableHlo.unary_bufs_sub .., StableHlo.unary_bufs_sub .., StableHlo.ternary_bufs_sub ..⟩

set_option maxHeartbeats 40000000 in
/-- 6 operations of window main_part2. -/
abbrev ops11 : List (HloOp τ sig (Elt F)) :=
  [ StableHlo.unary main_v135 main_v136 (broadcastInDim S50000x1 ![0] bcast_S50000_S50000x1_0 : (⟨S50000, .f32⟩ : BufTy).Contents (Elt F) → (⟨S50000x1, .f32⟩ : BufTy).Contents (Elt F)),
    StableHlo.unary main_v136 main_v137 (broadcastInDim S50000x256 ![0, 1] bcast_S50000x1_S50000x256_0_1 : (⟨S50000x1, .f32⟩ : BufTy).Contents (Elt F) → (⟨S50000x256, .f32⟩ : BufTy).Contents (Elt F)),
    StableHlo.binary main_v118 main_v137 main_v138 (mulf : (⟨S50000x256, .f32⟩ : BufTy).Contents (Elt F) → (⟨S50000x256, .f32⟩ : BufTy).Contents (Elt F) → (⟨S50000x256, .f32⟩ : BufTy).Contents (Elt F)),
    StableHlo.nullary main_c_36 (constantI S_ 32 0#32),
    StableHlo.unary main_c_36 main_v139 (broadcastInDim S50000x16 ![] bcast_S_S50000x16 : (⟨S_, .i32⟩ : BufTy).Contents (Elt F) → (⟨S50000x16, .i32⟩ : BufTy).Contents (Elt F)),
    StableHlo.binary main_arg1 main_v139 main_v140 (cmpi .slt : (⟨S50000x16, .i32⟩ : BufTy).Contents (Elt F) → (⟨S50000x16, .i32⟩ : BufTy).Contents (Elt F) → (⟨S50000x16, .i1⟩ : BufTy).Contents (Elt F)) ]
theorem ops11_sub : (ops11 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..⟩

set_option maxHeartbeats 40000000 in
/-- 60 operations of window main_part3. -/
abbrev ops12 : List (HloOp τ sig (Elt F)) :=
  ( StableHlo.nullary main_c_37 (constantI S_ 32 50000#32)
  :: StableHlo.unary main_c_37 main_v141 (broadcastInDim S50000x16 ![] bcast_S_S50000x16 : (⟨S_, .i32⟩ : BufTy).Contents (Elt F) → (⟨S50000x16, .i32⟩ : BufTy).Contents (Elt F))
  :: StableHlo.binary main_arg1 main_v141 main_v142 (addi : (⟨S50000x16, .i32⟩ : BufTy).Contents (Elt F) → (⟨S50000x16, .i32⟩ : BufTy).Contents (Elt F) → (⟨S50000x16, .i32⟩ : BufTy).Contents (Elt F))
  :: StableHlo.ternary main_v140 main_v142 main_arg1 main_v143 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F))
  :: StableHlo.unary main_v143 main_v144 (broadcastInDim S50000x16x1 ![0, 1] bcast_S50000x16_S50000x16x1_0_1 : (⟨S50000x16, .i32⟩ : BufTy).Contents (Elt F) → (⟨S50000x16x1, .i32⟩ : BufTy).Contents (Elt F))
  :: StableHlo.binary main_v138 main_v144 main_v145 ((fun x i => Host.gather gather_S50000x256_S50000x16x1_S50000x16x256_2_0_n_n_0_2_1256 x i) : (⟨S50000x256, .f32⟩ : BufTy).Contents (Elt F) → (⟨S50000x16x1, .i32⟩ : BufTy).Contents (Elt F) → (⟨S50000x16x256, .f32⟩ : BufTy).Contents (Elt F))
  :: StableHlo.nullary main_cst_38 (constant S_ .f32 0x00000000#32)
  :: StableHlo.binary main_v145 main_cst_38 main_v146 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F))
  :: StableHlo.nullary main_cst_39 (constant S_ .f32 0x41800000#32)
  :: StableHlo.unary main_cst_39 main_v147 (broadcastInDim S50000x256 ![] bcast_S_S50000x256 : (⟨S_, .f32⟩ : BufTy).Contents (Elt F) → (⟨S50000x256, .f32⟩ : BufTy).Contents (Elt F))
  :: StableHlo.binary main_v146 main_v147 main_v148 (Host.divf : (⟨S50000x256, .f32⟩ : BufTy).Contents (Elt F) → (⟨S50000x256, .f32⟩ : BufTy).Contents (Elt F) → (⟨S50000x256, .f32⟩ : BufTy).Contents (Elt F))
  :: StableHlo.unary main_v6 main_v149 (broadcastInDim S50000x1 ![0] bcast_S50000_S50000x1_0 : (⟨S50000, .f32⟩ : BufTy).Contents (Elt F) → (⟨S50000x1, .f32⟩ : BufTy).Contents (Elt F))
  :: StableHlo.unary main_v149 main_v150 (broadcastInDim S50000x256 ![0, 1] bcast_S50000x1_S50000x256_0_1 : (⟨S50000x1, .f32⟩ : BufTy).Contents (Elt F) → (⟨S50000x256, .f32⟩ : BufTy).Contents (Elt F))
  :: StableHlo.binary main_v150 main_v148 main_v151 (mulf : (⟨S50000x256, .f32⟩ : BufTy).Contents (Elt F) → (⟨S50000x256, .f32⟩ : BufTy).Contents (Elt F) → (⟨S50000x256, .f32⟩ : BufTy).Contents (Elt F))
  :: StableHlo.nullary main_cst_40 (constant S_ .f32 0x00000000#32)
  :: StableHlo.unary main_cst_40 main_v152 (broadcastInDim S50000x256 ![] bcast_S_S50000x256 : (⟨S_, .f32⟩ : BufTy).Contents (Elt F) → (⟨S50000x256, .f32⟩ : BufTy).Contents (Elt F))
  :: StableHlo.unary main_v151 main_v153 (broadcastInDim S50000x16x256 ![0, 2] bcast_S50000x256_S50000x16x256_0_2 : (⟨S50000x256, .f32⟩ : BufTy).Contents (Elt F) → (⟨S50000x16x256, .f32⟩ : BufTy).Contents (Elt F))
  :: StableHlo.reshape main_v153 main_v154 rfl shapeCasts_S50000x16x256_S800000x256
  :: StableHlo.nullary main_c_41 (constantI S_ 32 0#32)
  :: StableHlo.unary main_c_41 main_v155 (broadcastInDim S800000 ![] bcast_S_S800000 : (⟨S_, .i32⟩ : BufTy).Contents (Elt F) → (⟨S800000, .i32⟩ : BufTy).Contents (Elt F))
  :: StableHlo.binary main_v119 main_v155 main_v156 (cmpi .slt : (⟨S800000, .i32⟩ : BufTy).Contents (Elt F) → (⟨S800000, .i32⟩ : BufTy).Contents (Elt F) → (⟨S800000, .i1⟩ : BufTy).Contents (Elt F))
  :: StableHlo.nullary main_c_42 (constantI S_ 32 50000#32)
  :: StableHlo.unary main_c_42 main_v157 (broadcastInDim S800000 ![] bcast_S_S800000 : (⟨S_, .i32⟩ : BufTy).Contents (Elt F) → (⟨S800000, .i32⟩ : BufTy).Contents (Elt F))
  :: StableHlo.binary main_v119 main_v157 main_v158 (addi : (⟨S800000, .i32⟩ : BufTy).Contents (Elt F) → (⟨S800000, .i32⟩ : BufTy).Contents (Elt F) → (⟨S800000, .i32⟩ : BufTy).Contents (Elt F))
  :: StableHlo.ternary main_v156 main_v158 main_v119 main_v159 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v159 main_v160 (broadcastInDim S800000x1 ![0] bcast_S800000_S800000x1_0 : (⟨S800000, .i32⟩ : BufTy).Contents (Elt F) → (⟨S800000x1, .i32⟩ : BufTy).Contents (Elt F))
  :: StableHlo.ternary main_v152 main_v160 main_v154 main_v161 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F))
  :: StableHlo.unary main_v135 main_v162 (broadcastInDim S50000x1 ![0] bcast_S50000_S50000x1_0 : (⟨S50000, .f32⟩ : BufTy).Contents (Elt F) → (⟨S50000x1, .f32⟩ : BufTy).Contents (Elt F))
  :: StableHlo.unary main_v162 main_v163 (broadcastInDim S50000x256 ![0, 1] bcast_S50000x1_S50000x256_0_1 : (⟨S50000x1, .f32⟩ : BufTy).Contents (Elt F) → (⟨S50000x256, .f32⟩ : BufTy).Contents (Elt F))
  :: StableHlo.binary main_v161 main_v163 main_v164 (mulf : (⟨S50000x256, .f32⟩ : BufTy).Contents (Elt F) → (⟨S50000x256, .f32⟩ : BufTy).Contents (Elt F) → (⟨S50000x256, .f32⟩ : BufTy).Contents (Elt F))
  :: StableHlo.nullary main_c_43 (constantI S_ 32 0#32)
  :: StableHlo.unary main_c_43 main_v165 (broadcastInDim S50000x16 ![] bcast_S_S50000x16 : (⟨S_, .i32⟩ : BufTy).Contents (Elt F) → (⟨S50000x16, .i32⟩ : BufTy).Contents (Elt F))
  :: StableHlo.binary main_arg1 main_v165 main_v166 (cmpi .slt : (⟨S50000x16, .i32⟩ : BufTy).Contents (Elt F) → (⟨S50000x16, .i32⟩ : BufTy).Contents (Elt F) → (⟨S50000x16, .i1⟩ : BufTy).Contents (Elt F))
  :: StableHlo.nullary main_c_44 (constantI S_ 32 50000#32)
  :: StableHlo.unary main_c_44 main_v167 (broadcastInDim S50000x16 ![] bcast_S_S50000x16 : (⟨S_, .i32⟩ : BufTy).Contents (Elt F) → (⟨S50000x16, .i32⟩ : BufTy).Contents (Elt F))
  :: StableHlo.binary main_arg1 main_v167 main_v168 (addi : (⟨S50000x16, .i32⟩ : BufTy).Contents (Elt F) → (⟨S50000x16, .i32⟩ : BufTy).Contents (Elt F) → (⟨S50000x16, .i32⟩ : BufTy).Contents (Elt F))
  :: StableHlo.ternary main_v166 main_v168 main_arg1 main_v169 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F))
  :: StableHlo.unary main_v169 main_v170 (broadcastInDim S50000x16x1 ![0, 1] bcast_S50000x16_S50000x16x1_0_1 : (⟨S50000x16, .i32⟩ : BufTy).Contents (Elt F) → (⟨S50000x16x1, .i32⟩ : BufTy).Contents (Elt F))
  :: StableHlo.binary main_v164 main_v170 main_v171 ((fun x i => Host.gather gather_S50000x256_S50000x16x1_S50000x16x256_2_0_n_n_0_2_1256 x i) : (⟨S50000x256, .f32⟩ : BufTy).Contents (Elt F) → (⟨S50000x16x1, .i32⟩ : BufTy).Contents (Elt F) → (⟨S50000x16x256, .f32⟩ : BufTy).Contents (Elt F))
  :: StableHlo.nullary main_cst_45 (constant S_ .f32 0x00000000#32)
  :: StableHlo.binary main_v171 main_cst_45 main_v172 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F))
  :: StableHlo.nullary main_cst_46 (constant S_ .f32 0x41800000#32)
  :: StableHlo.unary main_cst_46 main_v173 (broadcastInDim S50000x256 ![] bcast_S_S50000x256 : (⟨S_, .f32⟩ : BufTy).Contents (Elt F) → (⟨S50000x256, .f32⟩ : BufTy).Contents (Elt F))
  :: StableHlo.binary main_v172 main_v173 main_v174 (Host.divf : (⟨S50000x256, .f32⟩ : BufTy).Contents (Elt F) → (⟨S50000x256, .f32⟩ : BufTy).Contents (Elt F) → (⟨S50000x256, .f32⟩ : BufTy).Contents (Elt F))
  :: StableHlo.binary main_v174 main_arg11 main_v175 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F))
  :: StableHlo.unary main_arg12 main_v176 (broadcastInDim S1x1 ![1] bcast_S1_S1x1_1 : (⟨S1, .f32⟩ : BufTy).Contents (Elt F) → (⟨S1x1, .f32⟩ : BufTy).Contents (Elt F))
  :: StableHlo.unary main_v176 main_v177 (broadcastInDim S50000x1 ![0, 1] bcast_S1x1_S50000x1_0_1 : (⟨S1x1, .f32⟩ : BufTy).Contents (Elt F) → (⟨S50000x1, .f32⟩ : BufTy).Contents (Elt F))
  :: StableHlo.binary main_v175 main_v177 main_v178 (addf : (⟨S50000x1, .f32⟩ : BufTy).Contents (Elt F) → (⟨S50000x1, .f32⟩ : BufTy).Contents (Elt F) → (⟨S50000x1, .f32⟩ : BufTy).Contents (Elt F))
  :: StableHlo.unary main_v178 main_v179 (Host.negf : (⟨S50000x1, .f32⟩ : BufTy).Contents (Elt F) → (⟨S50000x1, .f32⟩ : BufTy).Contents (Elt F))
  :: StableHlo.unary main_v179 main_v180 (Host.exp : (⟨S50000x1, .f32⟩ : BufTy).Contents (Elt F) → (⟨S50000x1, .f32⟩ : BufTy).Contents (Elt F))
  :: StableHlo.nullary main_cst_47 (constant S_ .f32 0x3F800000#32)
  :: StableHlo.unary main_cst_47 main_v181 (broadcastInDim S50000x1 ![] bcast_S_S50000x1 : (⟨S_, .f32⟩ : BufTy).Contents (Elt F) → (⟨S50000x1, .f32⟩ : BufTy).Contents (Elt F))
  :: StableHlo.binary main_v181 main_v180 main_v182 (addf : (⟨S50000x1, .f32⟩ : BufTy).Contents (Elt F) → (⟨S50000x1, .f32⟩ : BufTy).Contents (Elt F) → (⟨S50000x1, .f32⟩ : BufTy).Contents (Elt F))
  :: StableHlo.nullary main_cst_48 (constant S_ .f32 0x3F800000#32)
  :: StableHlo.unary main_cst_48 main_v183 (broadcastInDim S50000x1 ![] bcast_S_S50000x1 : (⟨S_, .f32⟩ : BufTy).Contents (Elt F) → (⟨S50000x1, .f32⟩ : BufTy).Contents (Elt F))
  :: StableHlo.binary main_v183 main_v182 main_v184 (Host.divf : (⟨S50000x1, .f32⟩ : BufTy).Contents (Elt F) → (⟨S50000x1, .f32⟩ : BufTy).Contents (Elt F) → (⟨S50000x1, .f32⟩ : BufTy).Contents (Elt F))
  :: StableHlo.unary main_v184 main_v185 (broadcastInDim S50000x256 ![0, 1] bcast_S50000x1_S50000x256_0_1 : (⟨S50000x1, .f32⟩ : BufTy).Contents (Elt F) → (⟨S50000x256, .f32⟩ : BufTy).Contents (Elt F))
  :: StableHlo.binary main_v185 main_v174 main_v186 (mulf : (⟨S50000x256, .f32⟩ : BufTy).Contents (Elt F) → (⟨S50000x256, .f32⟩ : BufTy).Contents (Elt F) → (⟨S50000x256, .f32⟩ : BufTy).Contents (Elt F))
  :: StableHlo.reshape main_arg1 main_v187 rfl shapeCasts_S50000x16_S800000
  :: StableHlo.nullary main_cst_49 (constant S_ .f32 0x00000000#32)
  :: [] )
theorem ops12_sub : (ops12 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.reshape_bufs_sub .., StableHlo.nullary_bufs_sub ..⟩

set_option maxHeartbeats 40000000 in
/-- 32 operations of window main_part4. -/
abbrev ops13 : List (HloOp τ sig (Elt F)) :=
  ( StableHlo.unary main_cst_49 main_v188 (broadcastInDim S50000x256 ![] bcast_S_S50000x256 : (⟨S_, .f32⟩ : BufTy).Contents (Elt F) → (⟨S50000x256, .f32⟩ : BufTy).Contents (Elt F))
  :: StableHlo.unary main_v186 main_v189 (broadcastInDim S50000x16x256 ![0, 2] bcast_S50000x256_S50000x16x256_0_2 : (⟨S50000x256, .f32⟩ : BufTy).Contents (Elt F) → (⟨S50000x16x256, .f32⟩ : BufTy).Contents (Elt F))
  :: StableHlo.reshape main_v189 main_v190 rfl shapeCasts_S50000x16x256_S800000x256
  :: StableHlo.nullary main_c_50 (constantI S_ 32 0#32)
  :: StableHlo.unary main_c_50 main_v191 (broadcastInDim S800000 ![] bcast_S_S800000 : (⟨S_, .i32⟩ : BufTy).Contents (Elt F) → (⟨S800000, .i32⟩ : BufTy).Contents (Elt F))
  :: StableHlo.binary main_v187 main_v191 main_v192 (cmpi .slt : (⟨S800000, .i32⟩ : BufTy).Contents (Elt F) → (⟨S800000, .i32⟩ : BufTy).Contents (Elt F) → (⟨S800000, .i1⟩ : BufTy).Contents (Elt F))
  :: StableHlo.nullary main_c_51 (constantI S_ 32 50000#32)
  :: StableHlo.unary main_c_51 main_v193 (broadcastInDim S800000 ![] bcast_S_S800000 : (⟨S_, .i32⟩ : BufTy).Contents (Elt F) → (⟨S800000, .i32⟩ : BufTy).Contents (Elt F))
  :: StableHlo.binary main_v187 main_v193 main_v194 (addi : (⟨S800000, .i32⟩ : BufTy).Contents (Elt F) → (⟨S800000, .i32⟩ : BufTy).Contents (Elt F) → (⟨S800000, .i32⟩ : BufTy).Contents (Elt F))
  :: StableHlo.ternary main_v192 main_v194 main_v187 main_v195 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v195 main_v196 (broadcastInDim S800000x1 ![0] bcast_S800000_S800000x1_0 : (⟨S800000, .i32⟩ : BufTy).Contents (Elt F) → (⟨S800000x1, .i32⟩ : BufTy).Contents (Elt F))
  :: StableHlo.ternary main_v188 main_v196 main_v190 main_v197 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F))
  :: StableHlo.nullary main_cst_52 (constant S_ .f32 0x00000000#32)
  :: StableHlo.unary main_cst_52 main_v198 (broadcastInDim S50000 ![] bcast_S_S50000 : (⟨S_, .f32⟩ : BufTy).Contents (Elt F) → (⟨S50000, .f32⟩ : BufTy).Contents (Elt F))
  :: StableHlo.nullary main_c_53 (constantI S_ 32 0#32)
  :: StableHlo.unary main_c_53 main_v199 (broadcastInDim S800000 ![] bcast_S_S800000 : (⟨S_, .i32⟩ : BufTy).Contents (Elt F) → (⟨S800000, .i32⟩ : BufTy).Contents (Elt F))
  :: StableHlo.binary main_v187 main_v199 main_v200 (cmpi .slt : (⟨S800000, .i32⟩ : BufTy).Contents (Elt F) → (⟨S800000, .i32⟩ : BufTy).Contents (Elt F) → (⟨S800000, .i1⟩ : BufTy).Contents (Elt F))
  :: StableHlo.nullary main_c_54 (constantI S_ 32 50000#32)
  :: StableHlo.unary main_c_54 main_v201 (broadcastInDim S800000 ![] bcast_S_S800000 : (⟨S_, .i32⟩ : BufTy).Contents (Elt F) → (⟨S800000, .i32⟩ : BufTy).Contents (Elt F))
  :: StableHlo.binary main_v187 main_v201 main_v202 (addi : (⟨S800000, .i32⟩ : BufTy).Contents (Elt F) → (⟨S800000, .i32⟩ : BufTy).Contents (Elt F) → (⟨S800000, .i32⟩ : BufTy).Contents (Elt F))
  :: StableHlo.ternary main_v200 main_v202 main_v187 main_v203 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v203 main_v204 (broadcastInDim S800000x1 ![0] bcast_S800000_S800000x1_0 : (⟨S800000, .i32⟩ : BufTy).Contents (Elt F) → (⟨S800000x1, .i32⟩ : BufTy).Contents (Elt F))
  :: StableHlo.nullary main_cst_55 (constant S_ .f32 0x3F800000#32)
  :: StableHlo.unary main_cst_55 main_v205 (broadcastInDim S800000 ![] bcast_S_S800000 : (⟨S_, .f32⟩ : BufTy).Contents (Elt F) → (⟨S800000, .f32⟩ : BufTy).Contents (Elt F))
  :: StableHlo.ternary main_v198 main_v204 main_v205 main_v206 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))
  :: StableHlo.nullary main_cst_56 (constant S_ .f32 0x3F800000#32)
  :: StableHlo.unary main_cst_56 main_v207 (broadcastInDim S50000 ![] bcast_S_S50000 : (⟨S_, .f32⟩ : BufTy).Contents (Elt F) → (⟨S50000, .f32⟩ : BufTy).Contents (Elt F))
  :: StableHlo.binary main_v206 main_v207 main_v208 (maximumf : (⟨S50000, .f32⟩ : BufTy).Contents (Elt F) → (⟨S50000, .f32⟩ : BufTy).Contents (Elt F) → (⟨S50000, .f32⟩ : BufTy).Contents (Elt F))
  :: StableHlo.unary main_v208 main_v209 (broadcastInDim S50000x1 ![0] bcast_S50000_S50000x1_0 : (⟨S50000, .f32⟩ : BufTy).Contents (Elt F) → (⟨S50000x1, .f32⟩ : BufTy).Contents (Elt F))
  :: StableHlo.unary main_v209 main_v210 (broadcastInDim S50000x256 ![0, 1] bcast_S50000x1_S50000x256_0_1 : (⟨S50000x1, .f32⟩ : BufTy).Contents (Elt F) → (⟨S50000x256, .f32⟩ : BufTy).Contents (Elt F))
  :: StableHlo.binary main_v197 main_v210 main_v211 (Host.divf : (⟨S50000x256, .f32⟩ : BufTy).Contents (Elt F) → (⟨S50000x256, .f32⟩ : BufTy).Contents (Elt F) → (⟨S50000x256, .f32⟩ : BufTy).Contents (Elt F))
  :: StableHlo.nullary main_cst_57 (constant S_ .f32 0x3E4CCCCD#32)
  :: [] )
theorem ops13_sub : (ops13 : List (HloOp τ sig (Elt F))).Forall fun op => op.bufs ⊆ StableHlo.tcRefs τ sig :=
  ⟨StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩

set_option maxHeartbeats 40000000 in
/-- 7 operations of window main_part4 (an outlined function's body). -/
abbrev ops14 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x256, .f32⟩) (broadcastInDim S50000x256 ![] bcast_S_S50000x256),
    StableHlo.TRef.binary (.of main_v211 : StableHlo.TRef sig ⟨S50000x256, .f32⟩) (.of main_call3_v0 : StableHlo.TRef sig ⟨S50000x256, .f32⟩) (.of main_call3_v1 : StableHlo.TRef sig ⟨S50000x256, .i1⟩) (cmpf .oge),
    StableHlo.TRef.unary (.of main_cst_57 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S50000x256, .f32⟩) (broadcastInDim S50000x256 ![] bcast_S_S50000x256),
    StableHlo.TRef.binary (.of main_call3_v3 : StableHlo.TRef sig ⟨S50000x256, .f32⟩) (.of main_v211 : StableHlo.TRef sig ⟨S50000x256, .f32⟩) (.of main_call3_v4 : StableHlo.TRef sig ⟨S50000x256, .f32⟩) mulf,
    StableHlo.TRef.ternary (.of main_call3_v1 : StableHlo.TRef sig ⟨S50000x256, .i1⟩) (.of main_v211 : StableHlo.TRef sig ⟨S50000x256, .f32⟩) (.of main_call3_v4 : StableHlo.TRef sig ⟨S50000x256, .f32⟩) (.of main_v212 : StableHlo.TRef sig ⟨S50000x256, .f32⟩) select ]
theorem ops14_sub : (ops14 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

-- the pieces of each window of @main, in order
-- main_part0: ops00 ops01 ops02 ops03 ops04
-- main_part1: ops05
-- main_part2: ops06 ops07 ops08 ops09 ops10 ops11
-- main_part3: ops12
-- main_part4: ops13 ops14

end Cert.ReferenceIdeal.HostRun

end
-- ==== Proof.RefRun.lean ====
/-
  The reference program's run. Its @main is one straight line of host operations (the outlined functions' bodies
  run in place at their calls), so every weakly fair execution ends with each buffer at the fold of the operations'
  results over the launch contents. The line is cut into fifteen pieces; the fold over the whole line is the pieces'
  folds one after the other.
-/
import proofs.«146255_j34883724378625_1_alg».proof.Proof.RefOps
import Idealize.ShloMosaic.Lib.Pipeline.Regions
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem
open Idealize.ShloMosaic.StableHlo

variable {F : FTy → Type} [FloatOps F]

/-- Straight lines run one after the other are the one line of all their operations. -/
theorem chain_map_seq {nD : Nat} {τ : Topo} {sig : RefSig} {Val : EltTy → Type} {Λ : Labels} :
    ∀ ls : List (List (HloOp τ sig Val)),
      Pipeline.chain (ls.map fun l => (StableHlo.seq l : Prog (TpuEff nD τ sig Val Λ .tc) PUnit)) = StableHlo.seq ls.flatten
  | [] => rfl
  | l :: ls => by
    rw [List.map_cons, Pipeline.chain_cons, chain_map_seq ls, List.flatten_cons, StableHlo.seq_append]

/-! ## Each window of @main is the chain of its pieces -/

theorem part0_chain (c : Dev nD) : main_part0 (F := F) c = (Pipeline.chainK
  [ StableHlo.seq ops00, StableHlo.seq ops01, StableHlo.seq ops02, StableHlo.seq ops03 ]
  (StableHlo.seq ops04) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chainK
  [  ]
  (StableHlo.seq ops05) : Prog (TpuEff nD τ sig (Elt F) (Pipeline.Sig Λ₀ (Fin 0) fun p => (pcfgs (F := F) p).Adm) .tc) PUnit) := by
  chain_rfl

theorem part2_chain (c : Dev nD) : main_part2 (F := F) c = (Pipeline.chainK
  [ StableHlo.seq ops06, StableHlo.seq ops07, StableHlo.seq ops08, StableHlo.seq ops09, StableHlo.seq ops10 ]
  (StableHlo.seq ops11) : Prog (TpuEff nD τ sig (Elt F) (Pipeline.Sig Λ₀ (Fin 0) fun p => (pcfgs (F := F) p).Adm) .tc) PUnit) := by
  chain_rfl

theorem part3_chain (c : Dev nD) : main_part3 (F := F) c = (Pipeline.chainK
  [  ]
  (StableHlo.seq ops12) : Prog (TpuEff nD τ sig (Elt F) (Pipeline.Sig Λ₀ (Fin 0) fun p => (pcfgs (F := F) p).Adm) .tc) PUnit) := by
  chain_rfl

theorem part4_chain (c : Dev nD) : main_part4 (F := F) c = (Pipeline.chain
  [ StableHlo.seq ops13, StableHlo.seq ops14 ] : Prog (TpuEff nD τ sig (Elt F) (Pipeline.Sig Λ₀ (Fin 0) fun p => (pcfgs (F := F) p).Adm) .tc) PUnit) := by
  chain_rfl

/-- The fifteen pieces, in order. -/
abbrev pieces : List (List (HloOp τ sig (Elt F))) :=
  [ ops00, ops01, ops02, ops03, ops04, ops05, ops06, ops07, ops08, ops09, ops10, ops11, ops12, ops13, ops14 ]

/-- @main is the chain of all the pieces: the windows' equations, joined at each window boundary. -/
theorem main_chain (c : Dev nD) : main (F := F) c = (Pipeline.chain
  [ StableHlo.seq ops00, StableHlo.seq ops01, StableHlo.seq ops02, StableHlo.seq ops03, StableHlo.seq ops04, StableHlo.seq ops05, StableHlo.seq ops06, StableHlo.seq ops07, StableHlo.seq ops08, StableHlo.seq ops09, StableHlo.seq ops10, StableHlo.seq ops11, StableHlo.seq ops12, StableHlo.seq ops13, StableHlo.seq ops14 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c) = _
  rewrite [part4_chain, part3_chain, Pipeline.chainK_bind_chain, part2_chain, Pipeline.chainK_bind_chain, part1_chain, Pipeline.chainK_bind_chain, part0_chain, Pipeline.chainK_bind_chain]
  chain_rfl

/-- @main's operations, in order. -/
abbrev ops : List (HloOp τ sig (Elt F)) := (pieces (F := F)).flatten

/-- @main is that one straight line. -/
theorem main_eq (c : Dev nD) : main (F := F) c = StableHlo.seq ops :=
  (main_chain c).trans (chain_map_seq (pieces (F := F)))

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ StableHlo.tcRefs τ sig :=
  List.forall_iff_forall_mem.mpr fun op h => by
    simp only [ops, pieces, List.flatten_cons, List.flatten_nil, List.mem_append] at h
    rcases h with h | h | h | h | h | h | h | h | h | h | h | h | h | h | h | h
    exacts [List.forall_iff_forall_mem.mp ops00_sub op h, List.forall_iff_forall_mem.mp ops01_sub op h, List.forall_iff_forall_mem.mp ops02_sub op h, List.forall_iff_forall_mem.mp ops03_sub op h, List.forall_iff_forall_mem.mp ops04_sub op h, List.forall_iff_forall_mem.mp ops05_sub op h, List.forall_iff_forall_mem.mp ops06_sub op h, List.forall_iff_forall_mem.mp ops07_sub op h, List.forall_iff_forall_mem.mp ops08_sub op h, List.forall_iff_forall_mem.mp ops09_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h, absurd h List.not_mem_nil]

/-! ## No operation allocates a buffer: each determines its results -/

theorem ops00_fresh : (ops00 : List (HloOp τ sig (Elt F))).Forall fun op => op.fresh = ∅ := by
  simp only [List.Forall]; repeat' constructor
theorem ops01_fresh : (ops01 : List (HloOp τ sig (Elt F))).Forall fun op => op.fresh = ∅ := by
  simp only [List.Forall]; repeat' constructor
theorem ops02_fresh : (ops02 : List (HloOp τ sig (Elt F))).Forall fun op => op.fresh = ∅ := by
  simp only [List.Forall]; repeat' constructor
theorem ops03_fresh : (ops03 : List (HloOp τ sig (Elt F))).Forall fun op => op.fresh = ∅ := by
  simp only [List.Forall]; repeat' constructor
theorem ops04_fresh : (ops04 : List (HloOp τ sig (Elt F))).Forall fun op => op.fresh = ∅ := by
  simp only [List.Forall]; repeat' constructor
theorem ops05_fresh : (ops05 : List (HloOp τ sig (Elt F))).Forall fun op => op.fresh = ∅ := by
  simp only [List.Forall]; repeat' constructor
theorem ops06_fresh : (ops06 : List (HloOp τ sig (Elt F))).Forall fun op => op.fresh = ∅ := by
  simp only [List.Forall]; repeat' constructor
theorem ops07_fresh : (ops07 : List (HloOp τ sig (Elt F))).Forall fun op => op.fresh = ∅ := by
  simp only [List.Forall]; repeat' constructor
theorem ops08_fresh : (ops08 : List (HloOp τ sig (Elt F))).Forall fun op => op.fresh = ∅ := by
  simp only [List.Forall]; repeat' constructor
theorem ops09_fresh : (ops09 : List (HloOp τ sig (Elt F))).Forall fun op => op.fresh = ∅ := by
  simp only [List.Forall]; repeat' constructor
theorem ops10_fresh : (ops10 : List (HloOp τ sig (Elt F))).Forall fun op => op.fresh = ∅ := by
  simp only [List.Forall]; repeat' constructor
theorem ops11_fresh : (ops11 : List (HloOp τ sig (Elt F))).Forall fun op => op.fresh = ∅ := by
  simp only [List.Forall]; repeat' constructor
theorem ops12_fresh : (ops12 : List (HloOp τ sig (Elt F))).Forall fun op => op.fresh = ∅ := by
  simp only [List.Forall]; repeat' constructor
theorem ops13_fresh : (ops13 : List (HloOp τ sig (Elt F))).Forall fun op => op.fresh = ∅ := by
  simp only [List.Forall]; repeat' constructor
theorem ops14_fresh : (ops14 : List (HloOp τ sig (Elt F))).Forall fun op => op.fresh = ∅ := by
  simp only [List.Forall]; repeat' constructor

theorem ops_fresh : ∀ op ∈ (ops : List (HloOp τ sig (Elt F))), op.fresh = ∅ := fun op h => by
  simp only [ops, pieces, List.flatten_cons, List.flatten_nil, List.mem_append] at h
  rcases h with h | h | h | h | h | h | h | h | h | h | h | h | h | h | h | h
  exacts [List.forall_iff_forall_mem.mp ops00_fresh op h, List.forall_iff_forall_mem.mp ops01_fresh op h, List.forall_iff_forall_mem.mp ops02_fresh op h, List.forall_iff_forall_mem.mp ops03_fresh op h, List.forall_iff_forall_mem.mp ops04_fresh op h, List.forall_iff_forall_mem.mp ops05_fresh op h, List.forall_iff_forall_mem.mp ops06_fresh op h, List.forall_iff_forall_mem.mp ops07_fresh op h, List.forall_iff_forall_mem.mp ops08_fresh op h, List.forall_iff_forall_mem.mp ops09_fresh op h, List.forall_iff_forall_mem.mp ops10_fresh op h, List.forall_iff_forall_mem.mp ops11_fresh op h, List.forall_iff_forall_mem.mp ops12_fresh op h, List.forall_iff_forall_mem.mp ops13_fresh op h, List.forall_iff_forall_mem.mp ops14_fresh op h, absurd h List.not_mem_nil]

/-- The fold over the whole line is the pieces' folds one after the other. -/
theorem after_ops (V : Valuation τ sig (Elt F)) :
    after (ops (F := F)) V = after ops14 (after ops13 (after ops12 (after ops11 (after ops10 (after ops09 (after ops08 (after ops07 (after ops06 (after ops05 (after ops04 (after ops03 (after ops02 (after ops01 (after ops00 (V))))))))))))))) := by
  simp only [ops, pieces, List.flatten_cons, List.flatten_nil, List.append_nil, StableHlo.after_append]

/-- On every device, from any memory with zero counters: every weakly fair execution of @main terminates, nothing
    faulting, with each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => ops_fresh)

end Cert.ReferenceIdeal.HostRun

end
-- ==== Proof.Affine.lean ====
/-
  The affine map both programs apply twice: a [50000, 256] array of rows times a [256, 256] matrix, plus a bias row.
  Entry (r, j) of the result is the sum over k of x(r, k) · θ(k, j), plus b(0, j), on the extended reals. Only
  commutativity-free reading is used: the sum is taken in the index order of k, the products as written.
-/
import Idealize.ShloMosaic.PureOps.Ideal
import Idealize.ShloMosaic.Lib.ValueIdx

noncomputable section

namespace Cert.Affine

open Idealize.ShloMosaic Idealize.ShloMosaic.ValueIdx

/-- The rows: 50000 nodes, 256 features each. -/
abbrev SX : Shape := ⟨2, ![50000, 256]⟩
/-- The square weight matrix. -/
abbrev SW : Shape := ⟨2, ![256, 256]⟩
/-- The bias, kept as one row. -/
abbrev SB : Shape := ⟨2, ![1, 256]⟩

/-- Entry (r, j) of x·θ + b: row r of x against column j of θ, then the bias's entry j. -/
def affineAt (x : FVec Ideal SX .f32) (θ : FVec Ideal SW .f32) (b : FVec Ideal SB .f32) (r : Fin 50000) (j : Fin 256) : EReal :=
  (∑ k : Fin 256, x (ix2 r k) * θ (ix2 k j)) + b (ix2 0 j)

/-- x·θ + b as one array. -/
def affine (x : FVec Ideal SX .f32) (θ : FVec Ideal SW .f32) (b : FVec Ideal SB .f32) : FVec Ideal SX .f32 :=
  fun i => affineAt x θ b (i 0) (i 1)

theorem affine_ix2 (x : FVec Ideal SX .f32) (θ : FVec Ideal SW .f32) (b : FVec Ideal SB .f32) (r : Fin 50000) (j : Fin 256) :
    affine x θ b (ix2 r j) = affineAt x θ b r j := rfl

end Cert.Affine

end
-- ==== Proof.LinearPayload.lean ====
/-
  One block of the linear layer, read at an entry. The kernel's body multiplies a [5000, 256] block of rows by the
  [256, 256] weight matrix and adds the bias row to every row of the product. At the exact values the narrowing of
  both operands before the product changes nothing, so entry (p, q) of what the body stores is the sum over k of
  x(p, k) · w(k, q), plus b(0, q). The two launches run the same body, so the statement is made twice.
-/
import proofs.«146255_j34883724378625_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx

/-- The origin of a rank-2 buffer, as the constant-zero offset. -/
theorem origin_eq : (![0, 0] : Fin 2 → Nat) = fun _ => 0 := funext fun a => by fin_cases a <;> rfl

/-- The block product's dimension numbers: rows by the contracted axis, times the contracted axis by columns. -/
abbrev blockDot : DotDims S5000x256 S256x256 S5000x256 := dot_S5000x256_S256x256_S5000x256_1_0_0_1_n_n

/-- The contraction runs over one axis of 256 positions. -/
abbrev contrFin : blockDot.contr.Idx ≃ Fin 256 := contrEquiv1 blockDot 256 rfl rfl

/-- At output entry (p, q) and contraction position k the left operand is read at (p, k). -/
theorem lhs_at (p : Fin 5000) (q k : Fin 256) : blockDot.lhsIdx (ix2 p q) (contrFin.symm k) = ix2 p k := by
  funext a; apply Fin.ext
  match a with
  | ⟨0, _⟩ => rfl
  | ⟨1, _⟩ =>
    refine (blockDot.lhsIdx_val_of_single (cl := (1 : Fin 2)) rfl (ix2 p q) (contrFin.symm k)).trans ?_
    exact contrEquiv1_symm_val blockDot 256 rfl rfl k

/-- … and the right operand at (k, q). -/
theorem rhs_at (p : Fin 5000) (q k : Fin 256) : blockDot.rhsIdx (ix2 p q) (contrFin.symm k) = ix2 k q := by
  funext a; apply Fin.ext
  match a with
  | ⟨0, _⟩ =>
    refine (blockDot.rhsIdx_val_of_single (cr := (0 : Fin 2)) rfl (ix2 p q) (contrFin.symm k)).trans ?_
    exact contrEquiv1_symm_val blockDot 256 rfl rfl k
  | ⟨1, _⟩ => rfl

/-- The block product into a zero accumulator, at an entry: the row of the left operand against the column of the right. -/
theorem product_at (A : FVec Ideal S5000x256 .bf16) (B : FVec Ideal S256x256 .bf16) (p : Fin 5000) (q : Fin 256) :
    matmul blockDot none A B (constant (F := Ideal) S5000x256 .f32 0x00000000#32) (ix2 p q)
      = ∑ k : Fin 256, A (ix2 p k) * B (ix2 k q) := by
  refine (Ideal.matmul_constant_zero_apply blockDot none A B (ix2 p q)).trans ?_
  refine (Equiv.sum_comp contrFin.symm _).symm.trans ?_
  refine Finset.sum_congr rfl fun k _ => ?_
  rw [lhs_at, rhs_at]

/-- What the first launch's body stores, at entry (p, q). -/
theorem payload0_at (x0 : Vec Ideal S5000x256 .f32) (x1 : Vec Ideal S256x256 .f32) (x2 : Vec Ideal S1x256 .f32)
    (p : Fin 5000) (q : Fin 256) :
    k0_pay1 (F := Ideal) x0 x1 x2 (ix2 p q) = (∑ k : Fin 256, x0 (ix2 p k) * x1 (ix2 k q)) + x2 (ix2 0 q) := by
  unfold k0_pay1
  refine (addf_apply _ _ (ix2 p q)).trans ?_
  refine congrArg₂ (· + ·) ?_ ?_
  · refine (product_at _ _ p q).trans ?_
    refine Finset.sum_congr rfl fun k _ => ?_
    rw [truncf_apply, truncf_apply, shapeCast_self]
  · refine (broadcastTo_1b_ab_apply _ _ p q).trans ?_
    rw [shapeCast_self]

/-- What the second launch's body stores, at entry (p, q): the same function. -/
theorem payload1_at (x0 : Vec Ideal S5000x256 .f32) (x1 : Vec Ideal S256x256 .f32) (x2 : Vec Ideal S1x256 .f32)
    (p : Fin 5000) (q : Fin 256) :
    k1_pay1 (F := Ideal) x0 x1 x2 (ix2 p q) = (∑ k : Fin 256, x0 (ix2 p k) * x1 (ix2 k q)) + x2 (ix2 0 q) := by
  unfold k1_pay1
  refine (addf_apply _ _ (ix2 p q)).trans ?_
  refine congrArg₂ (· + ·) ?_ ?_
  · refine (product_at _ _ p q).trans ?_
    refine Finset.sum_congr rfl fun k _ => ?_
    rw [truncf_apply, truncf_apply, shapeCast_self]
  · refine (broadcastTo_1b_ab_apply _ _ p q).trans ?_
    rw [shapeCast_self]

end Cert.KernelIdeal.RegionValue

end
-- ==== Proof.RegionValue0.lean ====
/-
  From row blocks to the whole array, for the first launch of the linear layer. The launch walks ten grid points;
  point t reads rows 5000 t … 5000 t + 4999 of the input, the whole weight matrix and the whole bias row, and writes
  the same rows of the output. Each written block is the restriction of ONE function of the three arrays, x·θ + b,
  and the ten blocks tile the output, so after the last point the output array is x·θ + b — at any contents the launch
  finds in the buffers.
-/
import proofs.«146255_j34883724378625_1_alg».proof.Proof.Gen.KernelIdeal.Frame
import proofs.«146255_j34883724378625_1_alg».proof.Proof.Affine
import proofs.«146255_j34883724378625_1_alg».proof.Proof.LinearPayload
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Where the grid sends each window, decided once over the ten points: the row blocks of the input and of the output
    move with the point, the weight matrix and the bias row stay at the origin. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the input's block at point t is entry (5000 t + p, k) of the input array. -/
theorem rows_read0 (c : Dev nD) (t : Fin cfg0.N) (p : Fin 5000) (k : Fin 256) (r : Fin 50000) (hr : r.val = t.val * 5000 + p.val) :
    (iblk0 V c 0 t : Vec Ideal S5000x256 .f32) (ix2 p k)
      = (V c (Pipeline.arrRef spec0 0) : FVec Ideal Cert.Affine.SX .f32) (ix2 r k) := by
  unfold iblk0
  rw [View.read_apply]
  show V c (Pipeline.arrRef spec0 0) (((cfg0.win 0).blk t).view.emb (ix2 p k)) = V c (Pipeline.arrRef spec0 0) (ix2 r k)
  congr 1
  funext a; apply Fin.ext
  match a with
  | ⟨0, _⟩ => show win0_0.index t (0 : Fin 2) * 5000 + 1 * p.val = r.val; rw [(index_facts0 t).1, hr]; omega
  | ⟨1, _⟩ => show win0_0.index t (1 : Fin 2) * 256 + 1 * k.val = k.val; rw [(index_facts0 t).2.1]; omega

/-- The weight matrix's block is the whole matrix at every point. -/
theorem weights_read0 (c : Dev nD) (t : Fin cfg0.N) (k q : Fin 256) :
    (iblk0 V c 1 t : Vec Ideal S256x256 .f32) (ix2 k q)
      = (V c (Pipeline.arrRef spec0 1) : FVec Ideal Cert.Affine.SW .f32) (ix2 k q) := by
  unfold iblk0
  rw [View.read_apply]
  show V c (Pipeline.arrRef spec0 1) (((cfg0.win 1).blk t).view.emb (ix2 k q)) = V c (Pipeline.arrRef spec0 1) (ix2 k q)
  congr 1
  funext a; apply Fin.ext
  match a with
  | ⟨0, _⟩ => show win0_1.index t (0 : Fin 2) * 256 + 1 * k.val = k.val; rw [(index_facts0 t).2.2.1]; omega
  | ⟨1, _⟩ => show win0_1.index t (1 : Fin 2) * 256 + 1 * q.val = q.val; rw [(index_facts0 t).2.2.2.1]; omega

/-- The bias's block is the whole row at every point. -/
theorem bias_read0 (c : Dev nD) (t : Fin cfg0.N) (q : Fin 256) :
    (iblk0 V c 2 t : Vec Ideal S1x256 .f32) (ix2 0 q)
      = (V c (Pipeline.arrRef spec0 2) : FVec Ideal Cert.Affine.SB .f32) (ix2 0 q) := by
  unfold iblk0
  rw [View.read_apply]
  show V c (Pipeline.arrRef spec0 2) (((cfg0.win 2).blk t).view.emb (ix2 0 q)) = V c (Pipeline.arrRef spec0 2) (ix2 0 q)
  congr 1
  funext a; apply Fin.ext
  match a with
  | ⟨0, _⟩ => show win0_2.index t (0 : Fin 2) * 1 + 1 * 0 = 0; rw [(index_facts0 t).2.2.2.2.1]
  | ⟨1, _⟩ => show win0_2.index t (1 : Fin 2) * 256 + 1 * q.val = q.val; rw [(index_facts0 t).2.2.2.2.2.1]; omega

/-- What point t writes back is rows 5000 t … 5000 t + 4999 of x·θ + b of the three arrays as the launch found them. -/
theorem written_back0 (c : Dev nD) (t : Fin cfg0.N) :
    (dat0 (F := Ideal) V c).flushed 3 t
      = ((cfg0.win 3).blk t).view.read (Elt Ideal)
          (Cert.Affine.affine (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin_eq]
  simp only [View.ld_unit_zero (S := S5000x256) origin_eq, View.ld_unit_zero (S := S256x256) origin_eq, View.ld_unit_zero (S := S1x256) origin_eq]
  funext j
  obtain ⟨p, q, rfl⟩ : ∃ (p : Fin 5000) (q : Fin 256), j = ix2 p q := ⟨j 0, j 1, eq_ix2 j⟩
  have ht : t.val < 10 := Nat.lt_of_lt_of_eq t.isLt N_0
  have hp : p.val < 5000 := p.isLt
  obtain ⟨r, hr⟩ : ∃ r : Fin 50000, r.val = t.val * 5000 + p.val := ⟨⟨t.val * 5000 + p.val, by omega⟩, rfl⟩
  have hi : ((cfg0.win 3).blk t).view.emb (ix2 p q) = (ix2 r q : S50000x256.Idx) := by
    funext a; apply Fin.ext
    match a with
    | ⟨0, _⟩ => show win0_3.index t (0 : Fin 2) * 5000 + 1 * p.val = r.val; rw [(index_facts0 t).2.2.2.2.2.2.1, hr]; omega
    | ⟨1, _⟩ => show win0_3.index t (1 : Fin 2) * 256 + 1 * q.val = q.val; rw [(index_facts0 t).2.2.2.2.2.2.2]; omega
  show k0_pay1 (iblk0 V c 0 t) (iblk0 V c 1 t) (iblk0 V c 2 t) (ix2 p q)
    = Cert.Affine.affine (V c (Pipeline.arrRef spec0 0)) (V c (Pipeline.arrRef spec0 1)) (V c (Pipeline.arrRef spec0 2)) (((cfg0.win 3).blk t).view.emb (ix2 p q))
  rw [hi, Cert.Affine.affine_ix2]
  refine (payload0_at _ _ _ p q).trans ?_
  unfold Cert.Affine.affineAt
  refine congrArg₂ (· + ·) (Finset.sum_congr rfl fun k _ => congrArg₂ (· * ·) ?_ ?_) ?_
  · exact rows_read0 V c t p k r hr
  · exact weights_read0 V c t k q
  · exact bias_read0 V c t q

/-- An entry of the output array lies in point t's block iff each coordinate is in the block's range on its axis. -/
theorem mem_block0 (t : Fin cfg0.N) (i : S50000x256.Idx) :
    i ∈ ((cfg0.win 3).blk t).view.set
      ↔ ∀ a : Fin 2, win0_3.index t a * S5000x256.size a ≤ (i a).val ∧ (i a).val < win0_3.index t a * S5000x256.size a + S5000x256.size a := by
  show i ∈ ((View.whole main_v18).slice (win0_3.rect t)).set ↔ _
  rw [View.set_slice_whole, Rect.mem_set_unit]
  exact Iff.rfl

/-- Every entry of the output array is written back by some point: row r by point r / 5000. -/
theorem covered0 (i : S50000x256.Idx) :
    ∃ t : Fin cfg0.N, (cfg0.win 3).flush t = true ∧ i ∈ ((cfg0.win 3).blk t).view.set := by
  have h0 : (i 0).val < 50000 := (i 0).isLt
  have h1 : (i 1).val < 256 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e0, e1⟩ := index_facts0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 256 ≤ (i 1).val ∧ (i 1).val < win0_3.index t (1 : Fin 2) * 256 + 256
    rw [e1]; omega

/-- After the ten points the output array is x·θ + b of the three input arrays as the launch found them. -/
theorem arr0 (c : Dev nD) :
    (dat0 (F := Ideal) V c).arrAt 3 cfg0.N
      = Cert.Affine.affine (V c (Pipeline.arrRef spec0 0)) (V c (Pipeline.arrRef spec0 1)) (V c (Pipeline.arrRef spec0 2)) :=
  (dat0 (F := Ideal) V c).arrAt_eq_of_cover 3
    (Cert.Affine.affine (V c (Pipeline.arrRef spec0 0)) (V c (Pipeline.arrRef spec0 1)) (V c (Pipeline.arrRef spec0 2)))
    (fun t _ => written_back0 V c t) covered0

end Cert.KernelIdeal.RegionValue

end
-- ==== Proof.RegionValue1.lean ====
/-
  From row blocks to the whole array, for the second launch of the linear layer. The launch walks ten grid points;
  point t reads rows 5000 t … 5000 t + 4999 of the input, the whole weight matrix and the whole bias row, and writes
  the same rows of the output. Each written block is the restriction of ONE function of the three arrays, x·θ + b,
  and the ten blocks tile the output, so after the last point the output array is x·θ + b — at any contents the launch
  finds in the buffers.
-/
import proofs.«146255_j34883724378625_1_alg».proof.Proof.Gen.KernelIdeal.Frame
import proofs.«146255_j34883724378625_1_alg».proof.Proof.Affine
import proofs.«146255_j34883724378625_1_alg».proof.Proof.LinearPayload
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Where the grid sends each window, decided once over the ten points: the row blocks of the input and of the output
    move with the point, the weight matrix and the bias row stay at the origin. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the input's block at point t is entry (5000 t + p, k) of the input array. -/
theorem rows_read1 (c : Dev nD) (t : Fin cfg1.N) (p : Fin 5000) (k : Fin 256) (r : Fin 50000) (hr : r.val = t.val * 5000 + p.val) :
    (iblk1 V c 0 t : Vec Ideal S5000x256 .f32) (ix2 p k)
      = (V c (Pipeline.arrRef spec1 0) : FVec Ideal Cert.Affine.SX .f32) (ix2 r k) := by
  unfold iblk1
  rw [View.read_apply]
  show V c (Pipeline.arrRef spec1 0) (((cfg1.win 0).blk t).view.emb (ix2 p k)) = V c (Pipeline.arrRef spec1 0) (ix2 r k)
  congr 1
  funext a; apply Fin.ext
  match a with
  | ⟨0, _⟩ => show win1_0.index t (0 : Fin 2) * 5000 + 1 * p.val = r.val; rw [(index_facts1 t).1, hr]; omega
  | ⟨1, _⟩ => show win1_0.index t (1 : Fin 2) * 256 + 1 * k.val = k.val; rw [(index_facts1 t).2.1]; omega

/-- The weight matrix's block is the whole matrix at every point. -/
theorem weights_read1 (c : Dev nD) (t : Fin cfg1.N) (k q : Fin 256) :
    (iblk1 V c 1 t : Vec Ideal S256x256 .f32) (ix2 k q)
      = (V c (Pipeline.arrRef spec1 1) : FVec Ideal Cert.Affine.SW .f32) (ix2 k q) := by
  unfold iblk1
  rw [View.read_apply]
  show V c (Pipeline.arrRef spec1 1) (((cfg1.win 1).blk t).view.emb (ix2 k q)) = V c (Pipeline.arrRef spec1 1) (ix2 k q)
  congr 1
  funext a; apply Fin.ext
  match a with
  | ⟨0, _⟩ => show win1_1.index t (0 : Fin 2) * 256 + 1 * k.val = k.val; rw [(index_facts1 t).2.2.1]; omega
  | ⟨1, _⟩ => show win1_1.index t (1 : Fin 2) * 256 + 1 * q.val = q.val; rw [(index_facts1 t).2.2.2.1]; omega

/-- The bias's block is the whole row at every point. -/
theorem bias_read1 (c : Dev nD) (t : Fin cfg1.N) (q : Fin 256) :
    (iblk1 V c 2 t : Vec Ideal S1x256 .f32) (ix2 0 q)
      = (V c (Pipeline.arrRef spec1 2) : FVec Ideal Cert.Affine.SB .f32) (ix2 0 q) := by
  unfold iblk1
  rw [View.read_apply]
  show V c (Pipeline.arrRef spec1 2) (((cfg1.win 2).blk t).view.emb (ix2 0 q)) = V c (Pipeline.arrRef spec1 2) (ix2 0 q)
  congr 1
  funext a; apply Fin.ext
  match a with
  | ⟨0, _⟩ => show win1_2.index t (0 : Fin 2) * 1 + 1 * 0 = 0; rw [(index_facts1 t).2.2.2.2.1]
  | ⟨1, _⟩ => show win1_2.index t (1 : Fin 2) * 256 + 1 * q.val = q.val; rw [(index_facts1 t).2.2.2.2.2.1]; omega

/-- What point t writes back is rows 5000 t … 5000 t + 4999 of x·θ + b of the three arrays as the launch found them. -/
theorem written_back1 (c : Dev nD) (t : Fin cfg1.N) :
    (dat1 (F := Ideal) V c).flushed 3 t
      = ((cfg1.win 3).blk t).view.read (Elt Ideal)
          (Cert.Affine.affine (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero origin_eq]
  simp only [View.ld_unit_zero (S := S5000x256) origin_eq, View.ld_unit_zero (S := S256x256) origin_eq, View.ld_unit_zero (S := S1x256) origin_eq]
  funext j
  obtain ⟨p, q, rfl⟩ : ∃ (p : Fin 5000) (q : Fin 256), j = ix2 p q := ⟨j 0, j 1, eq_ix2 j⟩
  have ht : t.val < 10 := Nat.lt_of_lt_of_eq t.isLt N_1
  have hp : p.val < 5000 := p.isLt
  obtain ⟨r, hr⟩ : ∃ r : Fin 50000, r.val = t.val * 5000 + p.val := ⟨⟨t.val * 5000 + p.val, by omega⟩, rfl⟩
  have hi : ((cfg1.win 3).blk t).view.emb (ix2 p q) = (ix2 r q : S50000x256.Idx) := by
    funext a; apply Fin.ext
    match a with
    | ⟨0, _⟩ => show win1_3.index t (0 : Fin 2) * 5000 + 1 * p.val = r.val; rw [(index_facts1 t).2.2.2.2.2.2.1, hr]; omega
    | ⟨1, _⟩ => show win1_3.index t (1 : Fin 2) * 256 + 1 * q.val = q.val; rw [(index_facts1 t).2.2.2.2.2.2.2]; omega
  show k1_pay1 (iblk1 V c 0 t) (iblk1 V c 1 t) (iblk1 V c 2 t) (ix2 p q)
    = Cert.Affine.affine (V c (Pipeline.arrRef spec1 0)) (V c (Pipeline.arrRef spec1 1)) (V c (Pipeline.arrRef spec1 2)) (((cfg1.win 3).blk t).view.emb (ix2 p q))
  rw [hi, Cert.Affine.affine_ix2]
  refine (payload1_at _ _ _ p q).trans ?_
  unfold Cert.Affine.affineAt
  refine congrArg₂ (· + ·) (Finset.sum_congr rfl fun k _ => congrArg₂ (· * ·) ?_ ?_) ?_
  · exact rows_read1 V c t p k r hr
  · exact weights_read1 V c t k q
  · exact bias_read1 V c t q

/-- An entry of the output array lies in point t's block iff each coordinate is in the block's range on its axis. -/
theorem mem_block1 (t : Fin cfg1.N) (i : S50000x256.Idx) :
    i ∈ ((cfg1.win 3).blk t).view.set
      ↔ ∀ a : Fin 2, win1_3.index t a * S5000x256.size a ≤ (i a).val ∧ (i a).val < win1_3.index t a * S5000x256.size a + S5000x256.size a := by
  show i ∈ ((View.whole main_v114).slice (win1_3.rect t)).set ↔ _
  rw [View.set_slice_whole, Rect.mem_set_unit]
  exact Iff.rfl

/-- Every entry of the output array is written back by some point: row r by point r / 5000. -/
theorem covered1 (i : S50000x256.Idx) :
    ∃ t : Fin cfg1.N, (cfg1.win 3).flush t = true ∧ i ∈ ((cfg1.win 3).blk t).view.set := by
  have h0 : (i 0).val < 50000 := (i 0).isLt
  have h1 : (i 1).val < 256 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, e0, e1⟩ := index_facts1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 256 ≤ (i 1).val ∧ (i 1).val < win1_3.index t (1 : Fin 2) * 256 + 256
    rw [e1]; omega

/-- After the ten points the output array is x·θ + b of the three input arrays as the launch found them. -/
theorem arr1 (c : Dev nD) :
    (dat1 (F := Ideal) V c).arrAt 3 cfg1.N
      = Cert.Affine.affine (V c (Pipeline.arrRef spec1 0)) (V c (Pipeline.arrRef spec1 1)) (V c (Pipeline.arrRef spec1 2)) :=
  (dat1 (F := Ideal) V c).arrAt_eq_of_cover 3
    (Cert.Affine.affine (V c (Pipeline.arrRef spec1 0)) (V c (Pipeline.arrRef spec1 1)) (V c (Pipeline.arrRef spec1 2)))
    (fun t _ => written_back1 V c t) covered1

end Cert.KernelIdeal.RegionValue

end
-- ==== Proof.RefAffine.lean ====
/-
  The reference's affine step at an entry. On the host the step is a matrix product, the bias broadcast to a row and
  then down all rows, and a sum: at entry (r, j) that is the sum over k of x(r, k) · θ(k, j), plus the bias's entry j —
  the affine map of Affine.lean with the bias row read at (0, j). The kernel program passes the same bias as a
  reshape of the vector to one row: at (0, j) both rows hold the vector's entry j.
-/
import proofs.«146255_j34883724378625_1_alg».proof.Proof.Gen.ReferenceIdeal
import proofs.«146255_j34883724378625_1_alg».proof.Proof.Affine
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.AffineStep

open Cert.ReferenceIdeal Cert.ReferenceIdeal.Gen Idealize.ShloMosaic Idealize.ShloMosaic.ValueIdx

/-- The product's dimension numbers: rows by the contracted axis, times the contracted axis by columns. -/
abbrev rowDot : DotDims S50000x256 S256x256 S50000x256 := dot_S50000x256_S256x256_S50000x256_1_0_0_1_n_n

/-- The contraction runs over one axis of 256 positions. -/
abbrev contrFin : rowDot.contr.Idx ≃ Fin 256 := contrEquiv1 rowDot 256 rfl rfl

/-- At output entry (r, j) and contraction position k the left operand is read at (r, k). -/
theorem lhs_at (r : Fin 50000) (j k : Fin 256) : rowDot.lhsIdx (ix2 r j) (contrFin.symm k) = ix2 r k := by
  funext a; apply Fin.ext
  match a with
  | ⟨0, _⟩ => rfl
  | ⟨1, _⟩ =>
    refine (rowDot.lhsIdx_val_of_single (cl := (1 : Fin 2)) rfl (ix2 r j) (contrFin.symm k)).trans ?_
    exact contrEquiv1_symm_val rowDot 256 rfl rfl k

/-- … and the right operand at (k, j). -/
theorem rhs_at (r : Fin 50000) (j k : Fin 256) : rowDot.rhsIdx (ix2 r j) (contrFin.symm k) = ix2 k j := by
  funext a; apply Fin.ext
  match a with
  | ⟨0, _⟩ =>
    refine (rowDot.rhsIdx_val_of_single (cr := (0 : Fin 2)) rfl (ix2 r j) (contrFin.symm k)).trans ?_
    exact contrEquiv1_symm_val rowDot 256 rfl rfl k
  | ⟨1, _⟩ => rfl

/-- The host's matrix product at an entry: the row of the left operand against the column of the right. -/
theorem product_at (A : FVec Ideal S50000x256 .f32) (B : FVec Ideal S256x256 .f32) (r : Fin 50000) (j : Fin 256) :
    Host.dotGeneral (F := Ideal) rowDot none A B (ix2 r j) = ∑ k : Fin 256, A (ix2 r k) * B (ix2 k j) := by
  refine (Ideal.dotGeneral_apply rowDot none _ A B (ix2 r j)).trans ?_
  refine (Equiv.sum_comp contrFin.symm _).symm.trans ?_
  refine Finset.sum_congr rfl fun k _ => ?_
  rw [lhs_at, rhs_at]

/-- The bias row broadcast down all rows reads, at (r, j), the row's entry (0, j). -/
theorem bias_rows_at (b : FVec Ideal S1x256 .f32) (r : Fin 50000) (j : Fin 256) :
    broadcastInDim S50000x256 ![0, 1] bcast_S1x256_S50000x256_0_1 b (ix2 r j) = b (ix2 0 j) :=
  broadcastInDim_apply _ _ b (ix2 r j) (ix2 0 j) (fun a => by
    match a with
    | ⟨0, _⟩ => rfl
    | ⟨1, _⟩ => rfl)

/-- The host's affine step is the affine map. -/
theorem step_eq (x : FVec Ideal S50000x256 .f32) (θ : FVec Ideal S256x256 .f32) (b : FVec Ideal S1x256 .f32) :
    addf (Host.dotGeneral (F := Ideal) rowDot none x θ) (broadcastInDim S50000x256 ![0, 1] bcast_S1x256_S50000x256_0_1 b)
      = Cert.Affine.affine x θ b := by
  funext i
  obtain ⟨r, j, rfl⟩ : ∃ (r : Fin 50000) (j : Fin 256), i = ix2 r j := ⟨i 0, i 1, eq_ix2 i⟩
  rw [Cert.Affine.affine_ix2]
  unfold Cert.Affine.affineAt
  refine (addf_apply _ _ (ix2 r j)).trans ?_
  rw [product_at, bias_rows_at]

/-- The affine map reads the bias row only at (0, j): two rows equal there give one map. -/
theorem affine_congr_bias (x : FVec Ideal S50000x256 .f32) (θ : FVec Ideal S256x256 .f32) (b b' : FVec Ideal S1x256 .f32)
    (h : ∀ j : Fin 256, b (ix2 0 j) = b' (ix2 0 j)) : Cert.Affine.affine x θ b = Cert.Affine.affine x θ b' := by
  funext i
  exact congrArg (fun t => (∑ k : Fin 256, x (ix2 (i 0) k) * θ (ix2 k (i 1))) + t) (h (i 1))

/-- The bias vector broadcast to one row holds, at (0, j), the vector's entry j. -/
theorem bias_row_bcast_at (β : FVec Ideal S256 .f32) (j : Fin 256) :
    broadcastInDim S1x256 ![1] bcast_S256_S1x256_1 β (ix2 0 j) = β (ix1 j) :=
  broadcastInDim_apply _ _ β (ix2 0 j) (ix1 j) (fun a => by
    match a with
    | ⟨0, _⟩ => rfl)

/-- The bias vector reshaped to one row holds, at (0, j), the vector's entry j. -/
theorem bias_row_cast_at (β : FVec Ideal S256 .f32) (h : S256.ShapeCasts S1x256) (j : Fin 256) :
    shapeCast S1x256 β h (ix2 0 j) = β (ix1 j) :=
  shapeCast_a_1a_apply β h 0 j

end Cert.ReferenceIdeal.AffineStep

end
-- ==== Proof.AgreePre.lean ====
/-
  Before the first affine step both programs run the same host operations on the same arguments: the per-edge decay
  weights exp(-(max t - t)/365) and the node features, the inputs concatenated with the mean time embedding. Read as
  pure terms of the arguments, the two programs' values are one term.
-/
import proofs.«146255_j34883724378625_1_alg».proof.Proof.Gen.KernelIdeal.Launch
import proofs.«146255_j34883724378625_1_alg».proof.Proof.RefOps
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

/-- The buffer contents of the kernel program's device. -/
abbrev KV := Valuation Cert.KernelIdeal.τ Cert.KernelIdeal.sig (Elt Ideal)
/-- The buffer contents of the reference program's device. -/
abbrev RV := Valuation Cert.ReferenceIdeal.τ Cert.ReferenceIdeal.sig (Elt Ideal)

/-- The two programs' devices hold the same thirteen arguments. -/
structure Args (Wk : KV) (Wr : RV) : Prop where
  a0 : Wk (Proc.devRef (τ := Cert.KernelIdeal.τ) .tc Cert.KernelIdeal.main_arg0) = Wr (Proc.devRef (τ := Cert.ReferenceIdeal.τ) .tc Cert.ReferenceIdeal.main_arg0)
  a1 : Wk (Proc.devRef (τ := Cert.KernelIdeal.τ) .tc Cert.KernelIdeal.main_arg1) = Wr (Proc.devRef (τ := Cert.ReferenceIdeal.τ) .tc Cert.ReferenceIdeal.main_arg1)
  a2 : Wk (Proc.devRef (τ := Cert.KernelIdeal.τ) .tc Cert.KernelIdeal.main_arg2) = Wr (Proc.devRef (τ := Cert.ReferenceIdeal.τ) .tc Cert.ReferenceIdeal.main_arg2)
  a3 : Wk (Proc.devRef (τ := Cert.KernelIdeal.τ) .tc Cert.KernelIdeal.main_arg3) = Wr (Proc.devRef (τ := Cert.ReferenceIdeal.τ) .tc Cert.ReferenceIdeal.main_arg3)
  a4 : Wk (Proc.devRef (τ := Cert.KernelIdeal.τ) .tc Cert.KernelIdeal.main_arg4) = Wr (Proc.devRef (τ := Cert.ReferenceIdeal.τ) .tc Cert.ReferenceIdeal.main_arg4)
  a5 : Wk (Proc.devRef (τ := Cert.KernelIdeal.τ) .tc Cert.KernelIdeal.main_arg5) = Wr (Proc.devRef (τ := Cert.ReferenceIdeal.τ) .tc Cert.ReferenceIdeal.main_arg5)
  a6 : Wk (Proc.devRef (τ := Cert.KernelIdeal.τ) .tc Cert.KernelIdeal.main_arg6) = Wr (Proc.devRef (τ := Cert.ReferenceIdeal.τ) .tc Cert.ReferenceIdeal.main_arg6)
  a7 : Wk (Proc.devRef (τ := Cert.KernelIdeal.τ) .tc Cert.KernelIdeal.main_arg7) = Wr (Proc.devRef (τ := Cert.ReferenceIdeal.τ) .tc Cert.ReferenceIdeal.main_arg7)
  a8 : Wk (Proc.devRef (τ := Cert.KernelIdeal.τ) .tc Cert.KernelIdeal.main_arg8) = Wr (Proc.devRef (τ := Cert.ReferenceIdeal.τ) .tc Cert.ReferenceIdeal.main_arg8)
  a9 : Wk (Proc.devRef (τ := Cert.KernelIdeal.τ) .tc Cert.KernelIdeal.main_arg9) = Wr (Proc.devRef (τ := Cert.ReferenceIdeal.τ) .tc Cert.ReferenceIdeal.main_arg9)
  a10 : Wk (Proc.devRef (τ := Cert.KernelIdeal.τ) .tc Cert.KernelIdeal.main_arg10) = Wr (Proc.devRef (τ := Cert.ReferenceIdeal.τ) .tc Cert.ReferenceIdeal.main_arg10)
  a11 : Wk (Proc.devRef (τ := Cert.KernelIdeal.τ) .tc Cert.KernelIdeal.main_arg11) = Wr (Proc.devRef (τ := Cert.ReferenceIdeal.τ) .tc Cert.ReferenceIdeal.main_arg11)
  a12 : Wk (Proc.devRef (τ := Cert.KernelIdeal.τ) .tc Cert.KernelIdeal.main_arg12) = Wr (Proc.devRef (τ := Cert.ReferenceIdeal.τ) .tc Cert.ReferenceIdeal.main_arg12)

section
open Cert.KernelIdeal Cert.KernelIdeal.Gen
/-- The node features in the kernel program: the 240 input features and the 16 time features side by side. -/
def featK : (⟨S50000x240, .f32⟩ : BufTy).Contents (Elt Ideal) → (⟨S50000x16, .f32⟩ : BufTy).Contents (Elt Ideal) → (⟨S50000x256, .f32⟩ : BufTy).Contents (Elt Ideal) :=
  fun a b => concatenate S50000x256 1 [⟨S50000x240, a⟩, ⟨S50000x16, b⟩] concatenates_S50000x240_S50000x16_S50000x256_d1
theorem featK_fold : ((fun a b => concatenate S50000x256 1 [⟨S50000x240, a⟩, ⟨S50000x16, b⟩] concatenates_S50000x240_S50000x16_S50000x256_d1) :
    (⟨S50000x240, .f32⟩ : BufTy).Contents (Elt Ideal) → (⟨S50000x16, .f32⟩ : BufTy).Contents (Elt Ideal) → (⟨S50000x256, .f32⟩ : BufTy).Contents (Elt Ideal)) = featK := rfl
end

section
open Cert.ReferenceIdeal Cert.ReferenceIdeal.Gen
/-- The same in the reference program. -/
def featR : (⟨S50000x240, .f32⟩ : BufTy).Contents (Elt Ideal) → (⟨S50000x16, .f32⟩ : BufTy).Contents (Elt Ideal) → (⟨S50000x256, .f32⟩ : BufTy).Contents (Elt Ideal) :=
  fun a b => concatenate S50000x256 1 [⟨S50000x240, a⟩, ⟨S50000x16, b⟩] concatenates_S50000x240_S50000x16_S50000x256_d1
theorem featR_fold : ((fun a b => concatenate S50000x256 1 [⟨S50000x240, a⟩, ⟨S50000x16, b⟩] concatenates_S50000x240_S50000x16_S50000x256_d1) :
    (⟨S50000x240, .f32⟩ : BufTy).Contents (Elt Ideal) → (⟨S50000x16, .f32⟩ : BufTy).Contents (Elt Ideal) → (⟨S50000x256, .f32⟩ : BufTy).Contents (Elt Ideal)) = featR := rfl
end

/-- The two programs' concatenations are one function. -/
theorem featK_eq_featR : featK = featR := rfl

set_option maxHeartbeats 1000000 in
/-- The node features entering the first affine step: the same term of the arguments in both programs. -/
theorem pre_features (Wk : KV) (Wr : RV)
    (h0 : Wk (Proc.devRef (τ := Cert.KernelIdeal.τ) .tc Cert.KernelIdeal.main_arg0) = Wr (Proc.devRef (τ := Cert.ReferenceIdeal.τ) .tc Cert.ReferenceIdeal.main_arg0)) (h2 : Wk (Proc.devRef (τ := Cert.KernelIdeal.τ) .tc Cert.KernelIdeal.main_arg2) = Wr (Proc.devRef (τ := Cert.ReferenceIdeal.τ) .tc Cert.ReferenceIdeal.main_arg2))
    (h3 : Wk (Proc.devRef (τ := Cert.KernelIdeal.τ) .tc Cert.KernelIdeal.main_arg3) = Wr (Proc.devRef (τ := Cert.ReferenceIdeal.τ) .tc Cert.ReferenceIdeal.main_arg3)) (h4 : Wk (Proc.devRef (τ := Cert.KernelIdeal.τ) .tc Cert.KernelIdeal.main_arg4) = Wr (Proc.devRef (τ := Cert.ReferenceIdeal.τ) .tc Cert.ReferenceIdeal.main_arg4)) :
    after (Cert.KernelIdeal.Gen.hostOps0 (F := Ideal)) Wk (Proc.devRef (τ := Cert.KernelIdeal.τ) .tc Cert.KernelIdeal.main_v16)
      = after (Cert.ReferenceIdeal.HostRun.ops00 (F := Ideal)) Wr (Proc.devRef (τ := Cert.ReferenceIdeal.τ) .tc Cert.ReferenceIdeal.main_v16) := by
  simp only [Cert.KernelIdeal.Gen.hostOps0, Cert.ReferenceIdeal.HostRun.ops00, featK_fold, featR_fold]
  after_results_simp
  rw [h0, h2, h3, h4, featK_eq_featR]
  rfl

set_option maxHeartbeats 1000000 in
/-- The per-edge weights: the same term of the visit times in both programs. -/
theorem pre_weights (Wk : KV) (Wr : RV) (h2 : Wk (Proc.devRef (τ := Cert.KernelIdeal.τ) .tc Cert.KernelIdeal.main_arg2) = Wr (Proc.devRef (τ := Cert.ReferenceIdeal.τ) .tc Cert.ReferenceIdeal.main_arg2)) :
    after (Cert.KernelIdeal.Gen.hostOps0 (F := Ideal)) Wk (Proc.devRef (τ := Cert.KernelIdeal.τ) .tc Cert.KernelIdeal.main_v6)
      = after (Cert.ReferenceIdeal.HostRun.ops00 (F := Ideal)) Wr (Proc.devRef (τ := Cert.ReferenceIdeal.τ) .tc Cert.ReferenceIdeal.main_v6) := by
  simp only [Cert.KernelIdeal.Gen.hostOps0, Cert.ReferenceIdeal.HostRun.ops00]
  after_results_simp
  rw [h2]

set_option maxHeartbeats 4000000 in
/-- No operation before the first affine step writes an argument. -/
theorem args_pre (Wk : KV) (Wr : RV) (h : Args Wk Wr) :
    Args (after (Cert.KernelIdeal.Gen.hostOps0 (F := Ideal)) (Wk))
      (after (Cert.ReferenceIdeal.HostRun.ops00 (F := Ideal)) (Wr)) := by
  obtain ⟨h0, h1, h2, h3, h4, h5, h6, h7, h8, h9, h10, h11, h12⟩ := h
  constructor <;>
    (simp only [Cert.KernelIdeal.Gen.hostOps0, Cert.ReferenceIdeal.HostRun.ops00]
     after_results_simp
     assumption)

set_option maxHeartbeats 1000000 in
/-- The kernel program's first bias row: the bias vector reshaped to one row. -/
theorem pre_bias (Wk : KV) :
    after (Cert.KernelIdeal.Gen.hostOps0 (F := Ideal)) Wk (Proc.devRef (τ := Cert.KernelIdeal.τ) .tc Cert.KernelIdeal.main_v17)
      = shapeCast Cert.KernelIdeal.S1x256 (Wk (Proc.devRef (τ := Cert.KernelIdeal.τ) .tc Cert.KernelIdeal.main_arg6)) Cert.KernelIdeal.Gen.shapeCasts_S256_S1x256 := by
  simp only [Cert.KernelIdeal.Gen.hostOps0]
  after_results_simp
  rfl

end Cert.Bridge

end
-- ==== Proof.AgreeMid.lean ====
/-
  Between the two affine steps both programs run the same host operations — the hypergraph smoothing (degrees by a
  scatter-add of the edge weights, their inverse square roots, the edge means by a gather, the weighted scatter-add
  back to the nodes), the attention propagation (edge means, a sigmoid gate, the gated scatter-add divided by the node
  counts) and the leaky rectifier — on the first affine step's result, the edge weights, the edge table and the
  attention parameters. Read as pure terms of those five inputs the two programs' values are one term; the chain is
  never opened.
-/
import proofs.«146255_j34883724378625_1_alg».proof.Proof.AgreePre

noncomputable section

namespace Cert.Bridge

open Idealize.ShloMosaic Idealize.ShloMosaic.TcCoe Idealize.SL.Sem Idealize.ShloMosaic.StableHlo

set_option maxHeartbeats 40000000 in
/-- Layer 1 after its affine step: equal inputs give equal outputs. -/
theorem mid_agree (Wk : KV) (Wr : RV)
    (hy : Wk (Proc.devRef (τ := Cert.KernelIdeal.τ) .tc Cert.KernelIdeal.main_v18) = Wr (Proc.devRef (τ := Cert.ReferenceIdeal.τ) .tc Cert.ReferenceIdeal.main_v20))
    (hw : Wk (Proc.devRef (τ := Cert.KernelIdeal.τ) .tc Cert.KernelIdeal.main_v6) = Wr (Proc.devRef (τ := Cert.ReferenceIdeal.τ) .tc Cert.ReferenceIdeal.main_v6))
    (h1 : Wk (Proc.devRef (τ := Cert.KernelIdeal.τ) .tc Cert.KernelIdeal.main_arg1) = Wr (Proc.devRef (τ := Cert.ReferenceIdeal.τ) .tc Cert.ReferenceIdeal.main_arg1)) (h7 : Wk (Proc.devRef (τ := Cert.KernelIdeal.τ) .tc Cert.KernelIdeal.main_arg7) = Wr (Proc.devRef (τ := Cert.ReferenceIdeal.τ) .tc Cert.ReferenceIdeal.main_arg7)) (h8 : Wk (Proc.devRef (τ := Cert.KernelIdeal.τ) .tc Cert.KernelIdeal.main_arg8) = Wr (Proc.devRef (τ := Cert.ReferenceIdeal.τ) .tc Cert.ReferenceIdeal.main_arg8)) :
    after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) (Wk))))) (Proc.devRef (τ := Cert.KernelIdeal.τ) .tc Cert.KernelIdeal.main_v112)
      = after (Cert.ReferenceIdeal.HostRun.ops07 (F := Ideal)) (after (Cert.ReferenceIdeal.HostRun.ops06 (F := Ideal)) (after (Cert.ReferenceIdeal.HostRun.ops05 (F := Ideal)) (after (Cert.ReferenceIdeal.HostRun.ops04 (F := Ideal)) (after (Cert.ReferenceIdeal.HostRun.ops03 (F := Ideal)) (after (Cert.ReferenceIdeal.HostRun.ops02 (F := Ideal)) (Wr)))))) (Proc.devRef (τ := Cert.ReferenceIdeal.τ) .tc Cert.ReferenceIdeal.main_v114) := by
  simp only [Cert.KernelIdeal.Gen.hostOps1, Cert.KernelIdeal.Gen.hostOps1_1, Cert.KernelIdeal.Gen.hostOps1_2, Cert.KernelIdeal.Gen.hostOps1_3, Cert.KernelIdeal.Gen.hostOps1_4, Cert.ReferenceIdeal.HostRun.ops02, Cert.ReferenceIdeal.HostRun.ops03, Cert.ReferenceIdeal.HostRun.ops04, Cert.ReferenceIdeal.HostRun.ops05, Cert.ReferenceIdeal.HostRun.ops06, Cert.ReferenceIdeal.HostRun.ops07]
  after_results_simp
  rw [hy, hw, h1, h7, h8]
  rfl

set_option maxHeartbeats 40000000 in
/-- No operation between the two affine steps writes an argument. -/
theorem args_mid (Wk : KV) (Wr : RV) (h : Args Wk Wr) :
    Args (after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) (Wk))))))
      (after (Cert.ReferenceIdeal.HostRun.ops07 (F := Ideal)) (after (Cert.ReferenceIdeal.HostRun.ops06 (F := Ideal)) (after (Cert.ReferenceIdeal.HostRun.ops05 (F := Ideal)) (after (Cert.ReferenceIdeal.HostRun.ops04 (F := Ideal)) (after (Cert.ReferenceIdeal.HostRun.ops03 (F := Ideal)) (after (Cert.ReferenceIdeal.HostRun.ops02 (F := Ideal)) (Wr))))))) := by
  obtain ⟨h0, h1, h2, h3, h4, h5, h6, h7, h8, h9, h10, h11, h12⟩ := h
  constructor <;>
    (simp only [Cert.KernelIdeal.Gen.hostOps1, Cert.KernelIdeal.Gen.hostOps1_1, Cert.KernelIdeal.Gen.hostOps1_2, Cert.KernelIdeal.Gen.hostOps1_3, Cert.KernelIdeal.Gen.hostOps1_4, Cert.ReferenceIdeal.HostRun.ops02, Cert.ReferenceIdeal.HostRun.ops03, Cert.ReferenceIdeal.HostRun.ops04, Cert.ReferenceIdeal.HostRun.ops05, Cert.ReferenceIdeal.HostRun.ops06, Cert.ReferenceIdeal.HostRun.ops07]
     after_results_simp
     assumption)

set_option maxHeartbeats 40000000 in
/-- Nor do they write the edge weights. -/
theorem weights_mid (Wk : KV) (Wr : RV) (hw : Wk (Proc.devRef (τ := Cert.KernelIdeal.τ) .tc Cert.KernelIdeal.main_v6) = Wr (Proc.devRef (τ := Cert.ReferenceIdeal.τ) .tc Cert.ReferenceIdeal.main_v6)) :
    after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) (Wk))))) (Proc.devRef (τ := Cert.KernelIdeal.τ) .tc Cert.KernelIdeal.main_v6)
      = after (Cert.ReferenceIdeal.HostRun.ops07 (F := Ideal)) (after (Cert.ReferenceIdeal.HostRun.ops06 (F := Ideal)) (after (Cert.ReferenceIdeal.HostRun.ops05 (F := Ideal)) (after (Cert.ReferenceIdeal.HostRun.ops04 (F := Ideal)) (after (Cert.ReferenceIdeal.HostRun.ops03 (F := Ideal)) (after (Cert.ReferenceIdeal.HostRun.ops02 (F := Ideal)) (Wr)))))) (Proc.devRef (τ := Cert.ReferenceIdeal.τ) .tc Cert.ReferenceIdeal.main_v6) := by
  simp only [Cert.KernelIdeal.Gen.hostOps1, Cert.KernelIdeal.Gen.hostOps1_1, Cert.KernelIdeal.Gen.hostOps1_2, Cert.KernelIdeal.Gen.hostOps1_3, Cert.KernelIdeal.Gen.hostOps1_4, Cert.ReferenceIdeal.HostRun.ops02, Cert.ReferenceIdeal.HostRun.ops03, Cert.ReferenceIdeal.HostRun.ops04, Cert.ReferenceIdeal.HostRun.ops05, Cert.ReferenceIdeal.HostRun.ops06, Cert.ReferenceIdeal.HostRun.ops07]
  after_results_simp
  exact hw

set_option maxHeartbeats 40000000 in
/-- The kernel program's second bias row: the bias vector reshaped to one row. -/
theorem mid_bias (Wk : KV) :
    after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) (Wk))))) (Proc.devRef (τ := Cert.KernelIdeal.τ) .tc Cert.KernelIdeal.main_v113)
      = shapeCast Cert.KernelIdeal.S1x256 (Wk (Proc.devRef (τ := Cert.KernelIdeal.τ) .tc Cert.KernelIdeal.main_arg10)) Cert.KernelIdeal.Gen.shapeCasts_S256_S1x256 := by
  simp only [Cert.KernelIdeal.Gen.hostOps1, Cert.KernelIdeal.Gen.hostOps1_1, Cert.KernelIdeal.Gen.hostOps1_2, Cert.KernelIdeal.Gen.hostOps1_3, Cert.KernelIdeal.Gen.hostOps1_4]
  after_results_simp
  rfl

end Cert.Bridge

end
-- ==== Proof.AgreeTail.lean ====
/-
  After the second affine step both programs run layer 2's smoothing, attention propagation and leaky rectifier — the
  same host operations on the same five inputs (the affine step's result, the edge weights, the edge table, the
  attention parameters) — down to the result. Read as pure terms of those inputs the two results are one term.
-/
import proofs.«146255_j34883724378625_1_alg».proof.Proof.AgreePre

noncomputable section

namespace Cert.Bridge

open Idealize.ShloMosaic Idealize.ShloMosaic.TcCoe Idealize.SL.Sem Idealize.ShloMosaic.StableHlo

set_option maxHeartbeats 40000000 in
/-- Layer 2 after its affine step: equal inputs give equal results. -/
theorem tail_agree (Wk : KV) (Wr : RV)
    (hy : Wk (Proc.devRef (τ := Cert.KernelIdeal.τ) .tc Cert.KernelIdeal.main_v114) = Wr (Proc.devRef (τ := Cert.ReferenceIdeal.τ) .tc Cert.ReferenceIdeal.main_v118))
    (hw : Wk (Proc.devRef (τ := Cert.KernelIdeal.τ) .tc Cert.KernelIdeal.main_v6) = Wr (Proc.devRef (τ := Cert.ReferenceIdeal.τ) .tc Cert.ReferenceIdeal.main_v6))
    (h1 : Wk (Proc.devRef (τ := Cert.KernelIdeal.τ) .tc Cert.KernelIdeal.main_arg1) = Wr (Proc.devRef (τ := Cert.ReferenceIdeal.τ) .tc Cert.ReferenceIdeal.main_arg1)) (h11 : Wk (Proc.devRef (τ := Cert.KernelIdeal.τ) .tc Cert.KernelIdeal.main_arg11) = Wr (Proc.devRef (τ := Cert.ReferenceIdeal.τ) .tc Cert.ReferenceIdeal.main_arg11)) (h12 : Wk (Proc.devRef (τ := Cert.KernelIdeal.τ) .tc Cert.KernelIdeal.main_arg12) = Wr (Proc.devRef (τ := Cert.ReferenceIdeal.τ) .tc Cert.ReferenceIdeal.main_arg12)) :
    after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) (Wk)))) (Proc.devRef (τ := Cert.KernelIdeal.τ) .tc Cert.KernelIdeal.main_v208)
      = after (Cert.ReferenceIdeal.HostRun.ops14 (F := Ideal)) (after (Cert.ReferenceIdeal.HostRun.ops13 (F := Ideal)) (after (Cert.ReferenceIdeal.HostRun.ops12 (F := Ideal)) (after (Cert.ReferenceIdeal.HostRun.ops11 (F := Ideal)) (after (Cert.ReferenceIdeal.HostRun.ops10 (F := Ideal)) (after (Cert.ReferenceIdeal.HostRun.ops09 (F := Ideal)) (Wr)))))) (Proc.devRef (τ := Cert.ReferenceIdeal.τ) .tc Cert.ReferenceIdeal.main_v212) := by
  simp only [Cert.KernelIdeal.Gen.hostOps2, Cert.KernelIdeal.Gen.hostOps2_1, Cert.KernelIdeal.Gen.hostOps2_2, Cert.KernelIdeal.Gen.hostOps2_3, Cert.ReferenceIdeal.HostRun.ops09, Cert.ReferenceIdeal.HostRun.ops10, Cert.ReferenceIdeal.HostRun.ops11, Cert.ReferenceIdeal.HostRun.ops12, Cert.ReferenceIdeal.HostRun.ops13, Cert.ReferenceIdeal.HostRun.ops14]
  after_results_simp
  rw [hy, hw, h1, h11, h12]
  rfl

set_option maxHeartbeats 40000000 in
/-- No operation after the second affine step writes an argument. -/
theorem args_tail (Wk : KV) (Wr : RV) (h : Args Wk Wr) :
    Args (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) (Wk)))))
      (after (Cert.ReferenceIdeal.HostRun.ops14 (F := Ideal)) (after (Cert.ReferenceIdeal.HostRun.ops13 (F := Ideal)) (after (Cert.ReferenceIdeal.HostRun.ops12 (F := Ideal)) (after (Cert.ReferenceIdeal.HostRun.ops11 (F := Ideal)) (after (Cert.ReferenceIdeal.HostRun.ops10 (F := Ideal)) (after (Cert.ReferenceIdeal.HostRun.ops09 (F := Ideal)) (Wr))))))) := by
  obtain ⟨h0, h1, h2, h3, h4, h5, h6, h7, h8, h9, h10, h11, h12⟩ := h
  constructor <;>
    (simp only [Cert.KernelIdeal.Gen.hostOps2, Cert.KernelIdeal.Gen.hostOps2_1, Cert.KernelIdeal.Gen.hostOps2_2, Cert.KernelIdeal.Gen.hostOps2_3, Cert.ReferenceIdeal.HostRun.ops09, Cert.ReferenceIdeal.HostRun.ops10, Cert.ReferenceIdeal.HostRun.ops11, Cert.ReferenceIdeal.HostRun.ops12, Cert.ReferenceIdeal.HostRun.ops13, Cert.ReferenceIdeal.HostRun.ops14]
     after_results_simp
     assumption)

end Cert.Bridge

end
-- ==== Proof.Value.lean ====
/-
  The two programs' results are equal. Both programs are: host operations (the edge weights and the node features),
  an affine step x·θ₁ + b₁, layer 1's host operations, an affine step with θ₂ and b₂, layer 2's host operations. The
  kernel program takes each affine step in a Pallas kernel over ten blocks of 5000 rows; the reference on the host.
  At each of the five boundaries the two devices agree on the arguments, on the edge weights and on the value the next
  stage reads: at the affine steps because both compute the affine map of Affine.lean (the kernel's blocks tile the
  rows; the bias is passed as one row either way), in between because the host operations are the same terms.
-/
import proofs.«146255_j34883724378625_1_alg».proof.Proof.KernelRun
import proofs.«146255_j34883724378625_1_alg».proof.Proof.RefRun
import proofs.«146255_j34883724378625_1_alg».proof.Proof.RegionValue0
import proofs.«146255_j34883724378625_1_alg».proof.Proof.RegionValue1
import proofs.«146255_j34883724378625_1_alg».proof.Proof.RefAffine
import proofs.«146255_j34883724378625_1_alg».proof.Proof.AgreeMid
import proofs.«146255_j34883724378625_1_alg».proof.Proof.AgreeTail

noncomputable section

namespace Cert.Bridge

open Idealize.ShloMosaic Idealize.ShloMosaic.TcCoe Idealize.SL.Sem Idealize.ShloMosaic.StableHlo
open Idealize.ShloMosaic.ValueIdx

/-! ## The reference's boundaries -/

/-- Before the first affine step. -/
abbrev X1 (L : RV) : RV := after (Cert.ReferenceIdeal.HostRun.ops00 (F := Ideal)) L
/-- After it. -/
abbrev X2 (L : RV) : RV := after (Cert.ReferenceIdeal.HostRun.ops01 (F := Ideal)) (X1 L)
/-- Before the second affine step. -/
abbrev X7 (L : RV) : RV := after (Cert.ReferenceIdeal.HostRun.ops07 (F := Ideal)) (after (Cert.ReferenceIdeal.HostRun.ops06 (F := Ideal)) (after (Cert.ReferenceIdeal.HostRun.ops05 (F := Ideal)) (after (Cert.ReferenceIdeal.HostRun.ops04 (F := Ideal)) (after (Cert.ReferenceIdeal.HostRun.ops03 (F := Ideal)) (after (Cert.ReferenceIdeal.HostRun.ops02 (F := Ideal)) (X2 L))))))
/-- After it. -/
abbrev X8 (L : RV) : RV := after (Cert.ReferenceIdeal.HostRun.ops08 (F := Ideal)) (X7 L)
/-- At the end. -/
abbrev X12 (L : RV) : RV := after (Cert.ReferenceIdeal.HostRun.ops14 (F := Ideal)) (after (Cert.ReferenceIdeal.HostRun.ops13 (F := Ideal)) (after (Cert.ReferenceIdeal.HostRun.ops12 (F := Ideal)) (after (Cert.ReferenceIdeal.HostRun.ops11 (F := Ideal)) (after (Cert.ReferenceIdeal.HostRun.ops10 (F := Ideal)) (after (Cert.ReferenceIdeal.HostRun.ops09 (F := Ideal)) (X8 L))))))

/-- The reference's fold over its whole line is the last boundary. -/
theorem after_ops_eq (L : RV) : after (Cert.ReferenceIdeal.HostRun.ops (F := Ideal)) L = X12 L := Cert.ReferenceIdeal.HostRun.after_ops L

/-! ## The reference's affine steps -/

set_option maxHeartbeats 1000000 in
/-- The first: the affine map of the node features, θ₁ and the bias b₁ broadcast to a row. -/
theorem ref_step1 (X : RV) :
    after (Cert.ReferenceIdeal.HostRun.ops01 (F := Ideal)) X (Proc.devRef (τ := Cert.ReferenceIdeal.τ) .tc Cert.ReferenceIdeal.main_v20)
      = Cert.Affine.affine (X (Proc.devRef (τ := Cert.ReferenceIdeal.τ) .tc Cert.ReferenceIdeal.main_v16)) (X (Proc.devRef (τ := Cert.ReferenceIdeal.τ) .tc Cert.ReferenceIdeal.main_arg5))
          (broadcastInDim Cert.ReferenceIdeal.S1x256 ![1] Cert.ReferenceIdeal.Gen.bcast_S256_S1x256_1 (X (Proc.devRef (τ := Cert.ReferenceIdeal.τ) .tc Cert.ReferenceIdeal.main_arg6))) := by
  simp only [Cert.ReferenceIdeal.HostRun.ops01]
  after_results_simp
  exact Cert.ReferenceIdeal.AffineStep.step_eq _ _ _

set_option maxHeartbeats 1000000 in
/-- The second: the affine map of layer 1's output, θ₂ and b₂. -/
theorem ref_step2 (X : RV) :
    after (Cert.ReferenceIdeal.HostRun.ops08 (F := Ideal)) X (Proc.devRef (τ := Cert.ReferenceIdeal.τ) .tc Cert.ReferenceIdeal.main_v118)
      = Cert.Affine.affine (X (Proc.devRef (τ := Cert.ReferenceIdeal.τ) .tc Cert.ReferenceIdeal.main_v114)) (X (Proc.devRef (τ := Cert.ReferenceIdeal.τ) .tc Cert.ReferenceIdeal.main_arg9))
          (broadcastInDim Cert.ReferenceIdeal.S1x256 ![1] Cert.ReferenceIdeal.Gen.bcast_S256_S1x256_1 (X (Proc.devRef (τ := Cert.ReferenceIdeal.τ) .tc Cert.ReferenceIdeal.main_arg10))) := by
  simp only [Cert.ReferenceIdeal.HostRun.ops08]
  after_results_simp
  exact Cert.ReferenceIdeal.AffineStep.step_eq _ _ _

set_option maxHeartbeats 4000000 in
/-- The first affine step writes no argument and not the edge weights. -/
theorem ref_keep1 (X : RV) :
    (after (Cert.ReferenceIdeal.HostRun.ops01 (F := Ideal)) X (Proc.devRef (τ := Cert.ReferenceIdeal.τ) .tc Cert.ReferenceIdeal.main_arg0) = X (Proc.devRef (τ := Cert.ReferenceIdeal.τ) .tc Cert.ReferenceIdeal.main_arg0)
    ∧ after (Cert.ReferenceIdeal.HostRun.ops01 (F := Ideal)) X (Proc.devRef (τ := Cert.ReferenceIdeal.τ) .tc Cert.ReferenceIdeal.main_arg1) = X (Proc.devRef (τ := Cert.ReferenceIdeal.τ) .tc Cert.ReferenceIdeal.main_arg1)
    ∧ after (Cert.ReferenceIdeal.HostRun.ops01 (F := Ideal)) X (Proc.devRef (τ := Cert.ReferenceIdeal.τ) .tc Cert.ReferenceIdeal.main_arg2) = X (Proc.devRef (τ := Cert.ReferenceIdeal.τ) .tc Cert.ReferenceIdeal.main_arg2)
    ∧ after (Cert.ReferenceIdeal.HostRun.ops01 (F := Ideal)) X (Proc.devRef (τ := Cert.ReferenceIdeal.τ) .tc Cert.ReferenceIdeal.main_arg3) = X (Proc.devRef (τ := Cert.ReferenceIdeal.τ) .tc Cert.ReferenceIdeal.main_arg3)
    ∧ after (Cert.ReferenceIdeal.HostRun.ops01 (F := Ideal)) X (Proc.devRef (τ := Cert.ReferenceIdeal.τ) .tc Cert.ReferenceIdeal.main_arg4) = X (Proc.devRef (τ := Cert.ReferenceIdeal.τ) .tc Cert.ReferenceIdeal.main_arg4)
    ∧ after (Cert.ReferenceIdeal.HostRun.ops01 (F := Ideal)) X (Proc.devRef (τ := Cert.ReferenceIdeal.τ) .tc Cert.ReferenceIdeal.main_arg5) = X (Proc.devRef (τ := Cert.ReferenceIdeal.τ) .tc Cert.ReferenceIdeal.main_arg5)
    ∧ after (Cert.ReferenceIdeal.HostRun.ops01 (F := Ideal)) X (Proc.devRef (τ := Cert.ReferenceIdeal.τ) .tc Cert.ReferenceIdeal.main_arg6) = X (Proc.devRef (τ := Cert.ReferenceIdeal.τ) .tc Cert.ReferenceIdeal.main_arg6)
    ∧ after (Cert.ReferenceIdeal.HostRun.ops01 (F := Ideal)) X (Proc.devRef (τ := Cert.ReferenceIdeal.τ) .tc Cert.ReferenceIdeal.main_arg7) = X (Proc.devRef (τ := Cert.ReferenceIdeal.τ) .tc Cert.ReferenceIdeal.main_arg7)
    ∧ after (Cert.ReferenceIdeal.HostRun.ops01 (F := Ideal)) X (Proc.devRef (τ := Cert.ReferenceIdeal.τ) .tc Cert.ReferenceIdeal.main_arg8) = X (Proc.devRef (τ := Cert.ReferenceIdeal.τ) .tc Cert.ReferenceIdeal.main_arg8)
    ∧ after (Cert.ReferenceIdeal.HostRun.ops01 (F := Ideal)) X (Proc.devRef (τ := Cert.ReferenceIdeal.τ) .tc Cert.ReferenceIdeal.main_arg9) = X (Proc.devRef (τ := Cert.ReferenceIdeal.τ) .tc Cert.ReferenceIdeal.main_arg9)
    ∧ after (Cert.ReferenceIdeal.HostRun.ops01 (F := Ideal)) X (Proc.devRef (τ := Cert.ReferenceIdeal.τ) .tc Cert.ReferenceIdeal.main_arg10) = X (Proc.devRef (τ := Cert.ReferenceIdeal.τ) .tc Cert.ReferenceIdeal.main_arg10)
    ∧ after (Cert.ReferenceIdeal.HostRun.ops01 (F := Ideal)) X (Proc.devRef (τ := Cert.ReferenceIdeal.τ) .tc Cert.ReferenceIdeal.main_arg11) = X (Proc.devRef (τ := Cert.ReferenceIdeal.τ) .tc Cert.ReferenceIdeal.main_arg11)
    ∧ after (Cert.ReferenceIdeal.HostRun.ops01 (F := Ideal)) X (Proc.devRef (τ := Cert.ReferenceIdeal.τ) .tc Cert.ReferenceIdeal.main_arg12) = X (Proc.devRef (τ := Cert.ReferenceIdeal.τ) .tc Cert.ReferenceIdeal.main_arg12)
    ∧ after (Cert.ReferenceIdeal.HostRun.ops01 (F := Ideal)) X (Proc.devRef (τ := Cert.ReferenceIdeal.τ) .tc Cert.ReferenceIdeal.main_v6) = X (Proc.devRef (τ := Cert.ReferenceIdeal.τ) .tc Cert.ReferenceIdeal.main_v6)) := by
  simp only [Cert.ReferenceIdeal.HostRun.ops01]
  refine ⟨?_, ?_, ?_, ?_, ?_, ?_, ?_, ?_, ?_, ?_, ?_, ?_, ?_, ?_⟩ <;> after_results_simp

set_option maxHeartbeats 4000000 in
/-- Nor does the second. -/
theorem ref_keep2 (X : RV) :
    (after (Cert.ReferenceIdeal.HostRun.ops08 (F := Ideal)) X (Proc.devRef (τ := Cert.ReferenceIdeal.τ) .tc Cert.ReferenceIdeal.main_arg0) = X (Proc.devRef (τ := Cert.ReferenceIdeal.τ) .tc Cert.ReferenceIdeal.main_arg0)
    ∧ after (Cert.ReferenceIdeal.HostRun.ops08 (F := Ideal)) X (Proc.devRef (τ := Cert.ReferenceIdeal.τ) .tc Cert.ReferenceIdeal.main_arg1) = X (Proc.devRef (τ := Cert.ReferenceIdeal.τ) .tc Cert.ReferenceIdeal.main_arg1)
    ∧ after (Cert.ReferenceIdeal.HostRun.ops08 (F := Ideal)) X (Proc.devRef (τ := Cert.ReferenceIdeal.τ) .tc Cert.ReferenceIdeal.main_arg2) = X (Proc.devRef (τ := Cert.ReferenceIdeal.τ) .tc Cert.ReferenceIdeal.main_arg2)
    ∧ after (Cert.ReferenceIdeal.HostRun.ops08 (F := Ideal)) X (Proc.devRef (τ := Cert.ReferenceIdeal.τ) .tc Cert.ReferenceIdeal.main_arg3) = X (Proc.devRef (τ := Cert.ReferenceIdeal.τ) .tc Cert.ReferenceIdeal.main_arg3)
    ∧ after (Cert.ReferenceIdeal.HostRun.ops08 (F := Ideal)) X (Proc.devRef (τ := Cert.ReferenceIdeal.τ) .tc Cert.ReferenceIdeal.main_arg4) = X (Proc.devRef (τ := Cert.ReferenceIdeal.τ) .tc Cert.ReferenceIdeal.main_arg4)
    ∧ after (Cert.ReferenceIdeal.HostRun.ops08 (F := Ideal)) X (Proc.devRef (τ := Cert.ReferenceIdeal.τ) .tc Cert.ReferenceIdeal.main_arg5) = X (Proc.devRef (τ := Cert.ReferenceIdeal.τ) .tc Cert.ReferenceIdeal.main_arg5)
    ∧ after (Cert.ReferenceIdeal.HostRun.ops08 (F := Ideal)) X (Proc.devRef (τ := Cert.ReferenceIdeal.τ) .tc Cert.ReferenceIdeal.main_arg6) = X (Proc.devRef (τ := Cert.ReferenceIdeal.τ) .tc Cert.ReferenceIdeal.main_arg6)
    ∧ after (Cert.ReferenceIdeal.HostRun.ops08 (F := Ideal)) X (Proc.devRef (τ := Cert.ReferenceIdeal.τ) .tc Cert.ReferenceIdeal.main_arg7) = X (Proc.devRef (τ := Cert.ReferenceIdeal.τ) .tc Cert.ReferenceIdeal.main_arg7)
    ∧ after (Cert.ReferenceIdeal.HostRun.ops08 (F := Ideal)) X (Proc.devRef (τ := Cert.ReferenceIdeal.τ) .tc Cert.ReferenceIdeal.main_arg8) = X (Proc.devRef (τ := Cert.ReferenceIdeal.τ) .tc Cert.ReferenceIdeal.main_arg8)
    ∧ after (Cert.ReferenceIdeal.HostRun.ops08 (F := Ideal)) X (Proc.devRef (τ := Cert.ReferenceIdeal.τ) .tc Cert.ReferenceIdeal.main_arg9) = X (Proc.devRef (τ := Cert.ReferenceIdeal.τ) .tc Cert.ReferenceIdeal.main_arg9)
    ∧ after (Cert.ReferenceIdeal.HostRun.ops08 (F := Ideal)) X (Proc.devRef (τ := Cert.ReferenceIdeal.τ) .tc Cert.ReferenceIdeal.main_arg10) = X (Proc.devRef (τ := Cert.ReferenceIdeal.τ) .tc Cert.ReferenceIdeal.main_arg10)
    ∧ after (Cert.ReferenceIdeal.HostRun.ops08 (F := Ideal)) X (Proc.devRef (τ := Cert.ReferenceIdeal.τ) .tc Cert.ReferenceIdeal.main_arg11) = X (Proc.devRef (τ := Cert.ReferenceIdeal.τ) .tc Cert.ReferenceIdeal.main_arg11)
    ∧ after (Cert.ReferenceIdeal.HostRun.ops08 (F := Ideal)) X (Proc.devRef (τ := Cert.ReferenceIdeal.τ) .tc Cert.ReferenceIdeal.main_arg12) = X (Proc.devRef (τ := Cert.ReferenceIdeal.τ) .tc Cert.ReferenceIdeal.main_arg12)
    ∧ after (Cert.ReferenceIdeal.HostRun.ops08 (F := Ideal)) X (Proc.devRef (τ := Cert.ReferenceIdeal.τ) .tc Cert.ReferenceIdeal.main_v6) = X (Proc.devRef (τ := Cert.ReferenceIdeal.τ) .tc Cert.ReferenceIdeal.main_v6)) := by
  simp only [Cert.ReferenceIdeal.HostRun.ops08]
  refine ⟨?_, ?_, ?_, ?_, ?_, ?_, ?_, ?_, ?_, ?_, ?_, ?_, ?_, ?_⟩ <;> after_results_simp

/-! ## The kernel program's bias rows -/

set_option maxHeartbeats 4000000 in
/-- The first bias row is the bias vector, as the first kernel finds it, reshaped to one row. -/
theorem bias_row1 (Wk : KV) :
    after (Cert.KernelIdeal.Gen.hostOps0 (F := Ideal)) Wk (Proc.devRef (τ := Cert.KernelIdeal.τ) .tc Cert.KernelIdeal.main_v17)
      = shapeCast Cert.KernelIdeal.S1x256 (after (Cert.KernelIdeal.Gen.hostOps0 (F := Ideal)) Wk (Proc.devRef (τ := Cert.KernelIdeal.τ) .tc Cert.KernelIdeal.main_arg6)) Cert.KernelIdeal.Gen.shapeCasts_S256_S1x256 := by
  have e : after (Cert.KernelIdeal.Gen.hostOps0 (F := Ideal)) Wk (Proc.devRef (τ := Cert.KernelIdeal.τ) .tc Cert.KernelIdeal.main_arg6) = Wk (Proc.devRef (τ := Cert.KernelIdeal.τ) .tc Cert.KernelIdeal.main_arg6) := by
    simp only [Cert.KernelIdeal.Gen.hostOps0]
    after_results_simp
  rw [e]
  exact pre_bias Wk

set_option maxHeartbeats 40000000 in
/-- The second bias row likewise. -/
theorem bias_row2 (Wk : KV) :
    after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) (Wk))))) (Proc.devRef (τ := Cert.KernelIdeal.τ) .tc Cert.KernelIdeal.main_v113)
      = shapeCast Cert.KernelIdeal.S1x256 (after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) (Wk))))) (Proc.devRef (τ := Cert.KernelIdeal.τ) .tc Cert.KernelIdeal.main_arg10)) Cert.KernelIdeal.Gen.shapeCasts_S256_S1x256 := by
  have e : after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) (Wk))))) (Proc.devRef (τ := Cert.KernelIdeal.τ) .tc Cert.KernelIdeal.main_arg10) = Wk (Proc.devRef (τ := Cert.KernelIdeal.τ) .tc Cert.KernelIdeal.main_arg10) := by
    simp only [Cert.KernelIdeal.Gen.hostOps1, Cert.KernelIdeal.Gen.hostOps1_1, Cert.KernelIdeal.Gen.hostOps1_2, Cert.KernelIdeal.Gen.hostOps1_3, Cert.KernelIdeal.Gen.hostOps1_4]
    after_results_simp
  rw [e]
  exact mid_bias Wk

/-! ## The kernel program's affine steps -/

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The first kernel leaves in its output array the affine map of the arrays it was given. -/
theorem ker_step1 :
    Cert.KernelIdeal.Gen.W2 m ρ c (Proc.devRef (τ := Cert.KernelIdeal.τ) .tc Cert.KernelIdeal.main_v18)
      = Cert.Affine.affine (Cert.KernelIdeal.Gen.W1 m ρ c (Proc.devRef (τ := Cert.KernelIdeal.τ) .tc Cert.KernelIdeal.main_v16)) (Cert.KernelIdeal.Gen.W1 m ρ c (Proc.devRef (τ := Cert.KernelIdeal.τ) .tc Cert.KernelIdeal.main_arg5)) (Cert.KernelIdeal.Gen.W1 m ρ c (Proc.devRef (τ := Cert.KernelIdeal.τ) .tc Cert.KernelIdeal.main_v17)) :=
  (Cert.KernelIdeal.Gen.W2_arr m ρ c 3).trans (Cert.KernelIdeal.RegionValue.arr0 (Cert.KernelIdeal.Gen.V1 m ρ) c)

/-- The second kernel likewise. -/
theorem ker_step2 :
    Cert.KernelIdeal.Gen.W8 m ρ c (Proc.devRef (τ := Cert.KernelIdeal.τ) .tc Cert.KernelIdeal.main_v114)
      = Cert.Affine.affine (Cert.KernelIdeal.Gen.W7 m ρ c (Proc.devRef (τ := Cert.KernelIdeal.τ) .tc Cert.KernelIdeal.main_v112)) (Cert.KernelIdeal.Gen.W7 m ρ c (Proc.devRef (τ := Cert.KernelIdeal.τ) .tc Cert.KernelIdeal.main_arg9)) (Cert.KernelIdeal.Gen.W7 m ρ c (Proc.devRef (τ := Cert.KernelIdeal.τ) .tc Cert.KernelIdeal.main_v113)) :=
  (Cert.KernelIdeal.Gen.W8_arr m ρ c 3).trans (Cert.KernelIdeal.RegionValue.arr1 (Cert.KernelIdeal.Gen.V7 m ρ) c)

/-- The bias row the kernel program passes (the vector reshaped) and the one the reference broadcasts hold the same
    entries, so the affine maps over them are one. -/
theorem affine_bias_rows (x : FVec Ideal Cert.ReferenceIdeal.S50000x256 .f32) (θ : FVec Ideal Cert.ReferenceIdeal.S256x256 .f32) (β : FVec Ideal Cert.ReferenceIdeal.S256 .f32) :
    Cert.Affine.affine x θ (shapeCast Cert.KernelIdeal.S1x256 β Cert.KernelIdeal.Gen.shapeCasts_S256_S1x256)
      = Cert.Affine.affine x θ (broadcastInDim Cert.ReferenceIdeal.S1x256 ![1] Cert.ReferenceIdeal.Gen.bcast_S256_S1x256_1 β) :=
  Cert.ReferenceIdeal.AffineStep.affine_congr_bias x θ _ _ fun j =>
    (Cert.ReferenceIdeal.AffineStep.bias_row_cast_at β _ j).trans (Cert.ReferenceIdeal.AffineStep.bias_row_bcast_at β j).symm

/-! ## The boundaries agree -/

/-- Through the first kernel the arguments stay: it writes its output array only (θ₁ is one of its input arrays). -/
theorem args_step1 (L : RV) (h : Args (Cert.KernelIdeal.Gen.W1 m ρ c) (X1 L)) : Args (Cert.KernelIdeal.Gen.W2 m ρ c) (X2 L) := by
  obtain ⟨r0, r1, r2, r3, r4, r5, r6, r7, r8, r9, r10, r11, r12, -⟩ := ref_keep1 (X1 L)
  exact {
    a0 := (Cert.KernelIdeal.Gen.W2_of_ne m ρ c Cert.KernelIdeal.main_arg0 (by decide)).trans (h.a0.trans r0.symm)
    a1 := (Cert.KernelIdeal.Gen.W2_of_ne m ρ c Cert.KernelIdeal.main_arg1 (by decide)).trans (h.a1.trans r1.symm)
    a2 := (Cert.KernelIdeal.Gen.W2_of_ne m ρ c Cert.KernelIdeal.main_arg2 (by decide)).trans (h.a2.trans r2.symm)
    a3 := (Cert.KernelIdeal.Gen.W2_of_ne m ρ c Cert.KernelIdeal.main_arg3 (by decide)).trans (h.a3.trans r3.symm)
    a4 := (Cert.KernelIdeal.Gen.W2_of_ne m ρ c Cert.KernelIdeal.main_arg4 (by decide)).trans (h.a4.trans r4.symm)
    a5 := ((Cert.KernelIdeal.Gen.W2_arr m ρ c 1).trans (((Cert.KernelIdeal.Gen.dat0 (Cert.KernelIdeal.Gen.V1 m ρ) c).arrAt_in 1 rfl _).trans (Cert.KernelIdeal.Gen.A_eq0 (Cert.KernelIdeal.Gen.V1 m ρ) c 1))).trans (h.a5.trans r5.symm)
    a6 := (Cert.KernelIdeal.Gen.W2_of_ne m ρ c Cert.KernelIdeal.main_arg6 (by decide)).trans (h.a6.trans r6.symm)
    a7 := (Cert.KernelIdeal.Gen.W2_of_ne m ρ c Cert.KernelIdeal.main_arg7 (by decide)).trans (h.a7.trans r7.symm)
    a8 := (Cert.KernelIdeal.Gen.W2_of_ne m ρ c Cert.KernelIdeal.main_arg8 (by decide)).trans (h.a8.trans r8.symm)
    a9 := (Cert.KernelIdeal.Gen.W2_of_ne m ρ c Cert.KernelIdeal.main_arg9 (by decide)).trans (h.a9.trans r9.symm)
    a10 := (Cert.KernelIdeal.Gen.W2_of_ne m ρ c Cert.KernelIdeal.main_arg10 (by decide)).trans (h.a10.trans r10.symm)
    a11 := (Cert.KernelIdeal.Gen.W2_of_ne m ρ c Cert.KernelIdeal.main_arg11 (by decide)).trans (h.a11.trans r11.symm)
    a12 := (Cert.KernelIdeal.Gen.W2_of_ne m ρ c Cert.KernelIdeal.main_arg12 (by decide)).trans (h.a12.trans r12.symm) }

/-- Through the second kernel likewise (θ₂ is one of its input arrays). -/
theorem args_step2 (L : RV) (h : Args (Cert.KernelIdeal.Gen.W7 m ρ c) (X7 L)) : Args (Cert.KernelIdeal.Gen.W8 m ρ c) (X8 L) := by
  obtain ⟨r0, r1, r2, r3, r4, r5, r6, r7, r8, r9, r10, r11, r12, -⟩ := ref_keep2 (X7 L)
  exact {
    a0 := (Cert.KernelIdeal.Gen.W8_of_ne m ρ c Cert.KernelIdeal.main_arg0 (by decide)).trans (h.a0.trans r0.symm)
    a1 := (Cert.KernelIdeal.Gen.W8_of_ne m ρ c Cert.KernelIdeal.main_arg1 (by decide)).trans (h.a1.trans r1.symm)
    a2 := (Cert.KernelIdeal.Gen.W8_of_ne m ρ c Cert.KernelIdeal.main_arg2 (by decide)).trans (h.a2.trans r2.symm)
    a3 := (Cert.KernelIdeal.Gen.W8_of_ne m ρ c Cert.KernelIdeal.main_arg3 (by decide)).trans (h.a3.trans r3.symm)
    a4 := (Cert.KernelIdeal.Gen.W8_of_ne m ρ c Cert.KernelIdeal.main_arg4 (by decide)).trans (h.a4.trans r4.symm)
    a5 := (Cert.KernelIdeal.Gen.W8_of_ne m ρ c Cert.KernelIdeal.main_arg5 (by decide)).trans (h.a5.trans r5.symm)
    a6 := (Cert.KernelIdeal.Gen.W8_of_ne m ρ c Cert.KernelIdeal.main_arg6 (by decide)).trans (h.a6.trans r6.symm)
    a7 := (Cert.KernelIdeal.Gen.W8_of_ne m ρ c Cert.KernelIdeal.main_arg7 (by decide)).trans (h.a7.trans r7.symm)
    a8 := (Cert.KernelIdeal.Gen.W8_of_ne m ρ c Cert.KernelIdeal.main_arg8 (by decide)).trans (h.a8.trans r8.symm)
    a9 := ((Cert.KernelIdeal.Gen.W8_arr m ρ c 1).trans (((Cert.KernelIdeal.Gen.dat1 (Cert.KernelIdeal.Gen.V7 m ρ) c).arrAt_in 1 rfl _).trans (Cert.KernelIdeal.Gen.A_eq1 (Cert.KernelIdeal.Gen.V7 m ρ) c 1))).trans (h.a9.trans r9.symm)
    a10 := (Cert.KernelIdeal.Gen.W8_of_ne m ρ c Cert.KernelIdeal.main_arg10 (by decide)).trans (h.a10.trans r10.symm)
    a11 := (Cert.KernelIdeal.Gen.W8_of_ne m ρ c Cert.KernelIdeal.main_arg11 (by decide)).trans (h.a11.trans r11.symm)
    a12 := (Cert.KernelIdeal.Gen.W8_of_ne m ρ c Cert.KernelIdeal.main_arg12 (by decide)).trans (h.a12.trans r12.symm) }

/-- From devices that agree on the arguments at launch: at the end they agree on the result and on the arguments. -/
theorem ends_agree (L : RV) (h0 : Args (Cert.KernelIdeal.Gen.W0 m ρ c) L) :
    Cert.KernelIdeal.Gen.W12 m ρ c (Proc.devRef (τ := Cert.KernelIdeal.τ) .tc Cert.KernelIdeal.main_v208) = X12 L (Proc.devRef (τ := Cert.ReferenceIdeal.τ) .tc Cert.ReferenceIdeal.main_v212) ∧ Args (Cert.KernelIdeal.Gen.W12 m ρ c) (X12 L) := by
  -- before the first affine step
  have a1 : Args (Cert.KernelIdeal.Gen.W1 m ρ c) (X1 L) := args_pre _ _ h0
  have f1 : Cert.KernelIdeal.Gen.W1 m ρ c (Proc.devRef (τ := Cert.KernelIdeal.τ) .tc Cert.KernelIdeal.main_v16) = X1 L (Proc.devRef (τ := Cert.ReferenceIdeal.τ) .tc Cert.ReferenceIdeal.main_v16) := pre_features _ _ h0.a0 h0.a2 h0.a3 h0.a4
  have w1 : Cert.KernelIdeal.Gen.W1 m ρ c (Proc.devRef (τ := Cert.KernelIdeal.τ) .tc Cert.KernelIdeal.main_v6) = X1 L (Proc.devRef (τ := Cert.ReferenceIdeal.τ) .tc Cert.ReferenceIdeal.main_v6) := pre_weights _ _ h0.a2
  have b1 : Cert.KernelIdeal.Gen.W1 m ρ c (Proc.devRef (τ := Cert.KernelIdeal.τ) .tc Cert.KernelIdeal.main_v17) = shapeCast Cert.KernelIdeal.S1x256 (Cert.KernelIdeal.Gen.W1 m ρ c (Proc.devRef (τ := Cert.KernelIdeal.τ) .tc Cert.KernelIdeal.main_arg6)) Cert.KernelIdeal.Gen.shapeCasts_S256_S1x256 := bias_row1 _
  -- after it
  have a2 : Args (Cert.KernelIdeal.Gen.W2 m ρ c) (X2 L) := args_step1 m ρ c L a1
  have y2 : Cert.KernelIdeal.Gen.W2 m ρ c (Proc.devRef (τ := Cert.KernelIdeal.τ) .tc Cert.KernelIdeal.main_v18) = X2 L (Proc.devRef (τ := Cert.ReferenceIdeal.τ) .tc Cert.ReferenceIdeal.main_v20) := by
    refine (ker_step1 m ρ c).trans ?_
    rw [b1, f1, a1.a5, a1.a6]
    exact (affine_bias_rows _ _ _).trans (ref_step1 (X1 L)).symm
  have w2 : Cert.KernelIdeal.Gen.W2 m ρ c (Proc.devRef (τ := Cert.KernelIdeal.τ) .tc Cert.KernelIdeal.main_v6) = X2 L (Proc.devRef (τ := Cert.ReferenceIdeal.τ) .tc Cert.ReferenceIdeal.main_v6) :=
    (Cert.KernelIdeal.Gen.W2_of_ne m ρ c Cert.KernelIdeal.main_v6 (by decide)).trans (w1.trans (ref_keep1 (X1 L)).2.2.2.2.2.2.2.2.2.2.2.2.2.symm)
  -- before the second affine step
  have a7 : Args (Cert.KernelIdeal.Gen.W7 m ρ c) (X7 L) := args_mid _ _ a2
  have h7 : Cert.KernelIdeal.Gen.W7 m ρ c (Proc.devRef (τ := Cert.KernelIdeal.τ) .tc Cert.KernelIdeal.main_v112) = X7 L (Proc.devRef (τ := Cert.ReferenceIdeal.τ) .tc Cert.ReferenceIdeal.main_v114) := mid_agree _ _ y2 w2 a2.a1 a2.a7 a2.a8
  have w7 : Cert.KernelIdeal.Gen.W7 m ρ c (Proc.devRef (τ := Cert.KernelIdeal.τ) .tc Cert.KernelIdeal.main_v6) = X7 L (Proc.devRef (τ := Cert.ReferenceIdeal.τ) .tc Cert.ReferenceIdeal.main_v6) := weights_mid _ _ w2
  have b7 : Cert.KernelIdeal.Gen.W7 m ρ c (Proc.devRef (τ := Cert.KernelIdeal.τ) .tc Cert.KernelIdeal.main_v113) = shapeCast Cert.KernelIdeal.S1x256 (Cert.KernelIdeal.Gen.W7 m ρ c (Proc.devRef (τ := Cert.KernelIdeal.τ) .tc Cert.KernelIdeal.main_arg10)) Cert.KernelIdeal.Gen.shapeCasts_S256_S1x256 := bias_row2 _
  -- after it
  have a8 : Args (Cert.KernelIdeal.Gen.W8 m ρ c) (X8 L) := args_step2 m ρ c L a7
  have y8 : Cert.KernelIdeal.Gen.W8 m ρ c (Proc.devRef (τ := Cert.KernelIdeal.τ) .tc Cert.KernelIdeal.main_v114) = X8 L (Proc.devRef (τ := Cert.ReferenceIdeal.τ) .tc Cert.ReferenceIdeal.main_v118) := by
    refine (ker_step2 m ρ c).trans ?_
    rw [b7, h7, a7.a9, a7.a10]
    exact (affine_bias_rows _ _ _).trans (ref_step2 (X7 L)).symm
  have w8 : Cert.KernelIdeal.Gen.W8 m ρ c (Proc.devRef (τ := Cert.KernelIdeal.τ) .tc Cert.KernelIdeal.main_v6) = X8 L (Proc.devRef (τ := Cert.ReferenceIdeal.τ) .tc Cert.ReferenceIdeal.main_v6) :=
    (Cert.KernelIdeal.Gen.W8_of_ne m ρ c Cert.KernelIdeal.main_v6 (by decide)).trans (w7.trans (ref_keep2 (X7 L)).2.2.2.2.2.2.2.2.2.2.2.2.2.symm)
  -- the end
  exact ⟨tail_agree _ _ y8 w8 a8.a1 a8.a11 a8.a12, args_tail _ _ a8⟩

end Cert.Bridge

end
-- ==== Proof.RefArgs.lean ====
/-
  The reference never writes an argument: every one of its operations has a result buffer of its own. So the fold of
  its whole line leaves each argument's buffer at its launch contents.
-/
import proofs.«146255_j34883724378625_1_alg».proof.Proof.RefRun
import Idealize.ShloMosaic.PureOps.Ideal

noncomputable section

namespace Cert.ReferenceIdeal.HostRun

open Cert.ReferenceIdeal Cert.ReferenceIdeal.Gen Idealize.ShloMosaic Idealize.ShloMosaic.TcCoe Idealize.SL.Sem
open Idealize.ShloMosaic.StableHlo

set_option maxHeartbeats 200000000 in
/-- Each argument's buffer after the whole line holds what it held at launch. -/
theorem args_kept (L : Valuation τ sig (Elt Ideal)) :
    (after (ops (F := Ideal)) L (Proc.devRef .tc main_arg0) = L (Proc.devRef .tc main_arg0)
    ∧ after (ops (F := Ideal)) L (Proc.devRef .tc main_arg1) = L (Proc.devRef .tc main_arg1)
    ∧ after (ops (F := Ideal)) L (Proc.devRef .tc main_arg2) = L (Proc.devRef .tc main_arg2)
    ∧ after (ops (F := Ideal)) L (Proc.devRef .tc main_arg3) = L (Proc.devRef .tc main_arg3)
    ∧ after (ops (F := Ideal)) L (Proc.devRef .tc main_arg4) = L (Proc.devRef .tc main_arg4)
    ∧ after (ops (F := Ideal)) L (Proc.devRef .tc main_arg5) = L (Proc.devRef .tc main_arg5)
    ∧ after (ops (F := Ideal)) L (Proc.devRef .tc main_arg6) = L (Proc.devRef .tc main_arg6)
    ∧ after (ops (F := Ideal)) L (Proc.devRef .tc main_arg7) = L (Proc.devRef .tc main_arg7)
    ∧ after (ops (F := Ideal)) L (Proc.devRef .tc main_arg8) = L (Proc.devRef .tc main_arg8)
    ∧ after (ops (F := Ideal)) L (Proc.devRef .tc main_arg9) = L (Proc.devRef .tc main_arg9)
    ∧ after (ops (F := Ideal)) L (Proc.devRef .tc main_arg10) = L (Proc.devRef .tc main_arg10)
    ∧ after (ops (F := Ideal)) L (Proc.devRef .tc main_arg11) = L (Proc.devRef .tc main_arg11)
    ∧ after (ops (F := Ideal)) L (Proc.devRef .tc main_arg12) = L (Proc.devRef .tc main_arg12)) := by
  rw [after_ops]
  simp only [ops00, ops01, ops02, ops03, ops04, ops05, ops06, ops07, ops08, ops09, ops10, ops11, ops12, ops13, ops14]
  refine ⟨?_, ?_, ?_, ?_, ?_, ?_, ?_, ?_, ?_, ?_, ?_, ?_, ?_⟩ <;> after_results_simp

end Cert.ReferenceIdeal.HostRun

end
-- ==== Proof.lean ====
/-
  The certificate of a two-layer hypergraph network whose dense steps run in a Pallas kernel.

  Both programs compute, from node features X [50000, 240], a table of 50000 hyperedges of 16 nodes each and the
  edges' visit times: edge weights w = exp(-(max t - t)/365); node features h₀ = [X | mean time embedding]; then twice
  (layers 1 and 2): y = h·θ + b; the symmetric smoothing D^(-1/2) H W D_e^(-1) Hᵀ D^(-1/2) y (degrees by a scatter-add
  of w, edge means by a gather, a weighted scatter-add back); the attention propagation (edge means, a sigmoid gate,
  a gated scatter-add divided by the node counts); a leaky rectifier. The reference takes y = h·θ + b on the host
  (a matrix product, the bias broadcast, a sum); the kernel program takes it in a Pallas kernel over ten blocks of 5000
  rows, the operands narrowed to bf16 before the product and the bias passed as one row. Everything else is the same
  host operations in both.

  On the extended reals narrowing is the identity and a product into a zero accumulator is the plain sum over the
  contracted axis, so each block of the kernel's output is the restriction of x·θ + b to its rows, and the ten blocks
  tile the rows (RegionValue0/1 over LinearPayload); the reference's three host operations are the same map
  (RefAffine). Between the affine steps the two programs' host operations are the same pure terms of the same inputs
  (AgreePre, AgreeMid, AgreeTail), which is all that is used of them: no law of arithmetic, and so no finiteness of the
  inputs, enters. Value.lean chains the five boundaries; KernelRun and RefRun are the two runs with their buffers read.

  The ideal pass rewrote nothing in the kernel program (it only narrows on the way into the product), so the
  preservation claim is trivial. The three frames: the two kernel programs' are the generated frame certificates; the
  reference's is its run, with the fact that no operation writes an argument (RefArgs).
-/
import proofs.«146255_j34883724378625_1_alg».proof.Defs
import proofs.«146255_j34883724378625_1_alg».proof.Proof.Gen.Kernel
import proofs.«146255_j34883724378625_1_alg».proof.Proof.Gen.Kernel.Skeleton
import proofs.«146255_j34883724378625_1_alg».proof.Proof.Gen.Kernel.Launch
import proofs.«146255_j34883724378625_1_alg».proof.Proof.Gen.Kernel.Points
import proofs.«146255_j34883724378625_1_alg».proof.Proof.Gen.Kernel.Frame
import proofs.«146255_j34883724378625_1_alg».proof.Proof.Gen.KernelIdeal
import proofs.«146255_j34883724378625_1_alg».proof.Proof.Gen.KernelIdeal.Skeleton
import proofs.«146255_j34883724378625_1_alg».proof.Proof.Gen.KernelIdeal.Launch
import proofs.«146255_j34883724378625_1_alg».proof.Proof.Gen.KernelIdeal.Points
import proofs.«146255_j34883724378625_1_alg».proof.Proof.Gen.KernelIdeal.Frame
import proofs.«146255_j34883724378625_1_alg».proof.Proof.Gen.ReferenceIdeal
import proofs.«146255_j34883724378625_1_alg».proof.Proof.Gen.Pre_finite_inputs
import proofs.«146255_j34883724378625_1_alg».proof.Proof.Value
import proofs.«146255_j34883724378625_1_alg».proof.Proof.RefArgs
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program as printed: the generated frame certificate. -/
theorem frame_k : Cert.frame_Kernel := fun m ρ _ => Cert.Kernel.Gen.frame m ρ

/-- Its idealization: the same certificate at the extended reals. -/
theorem frame_ki : Cert.frame_KernelIdeal := fun m ρ _ => Cert.KernelIdeal.Gen.frame m ρ

/-- The reference: its run, and no operation writes an argument. -/
theorem frame_ri : Cert.frame_ReferenceIdeal := fun m ρ _ =>
  (θ_run Cert.ReferenceIdeal.defs _ _).mono (fun r h c => by
    obtain ⟨k0, k1, k2, k3, k4, k5, k6, k7, k8, k9, k10, k11, k12⟩ := Cert.ReferenceIdeal.HostRun.args_kept (launchContents m c)
    exact ⟨(h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12⟩)
    (Cert.ReferenceIdeal.HostRun.run (F := Ideal) m ρ)

/-- The ideal pass rewrote nothing. -/
theorem preserves : Cert.preserves_Kernel_KernelIdeal := trivial

/-- From memories that agree on the arguments both idealized programs run, end with the arguments unchanged, and
    with equal results: the kernel program's last boundary read at its result buffer. -/
theorem algebraic : Cert.algebraic_KernelIdeal_ReferenceIdeal := by
  intro m ρ m' ρ' _ hagree
  refine ⟨fun c => Cert.KernelIdeal.Gen.W12 m ρ c (Proc.devRef (τ := Cert.KernelIdeal.τ) .tc Cert.KernelIdeal.main_v208), ?_, ?_⟩
  · refine (θ_run Cert.KernelIdeal.defs _ _).mono (fun r h c => ?_) (Cert.KernelIdeal.HostRun.run_all (F := Ideal) m ρ)
    exact ⟨Cert.KernelIdeal.HostRun.read_of_run m ρ h c Cert.KernelIdeal.main_v208 (by decide),
      (Cert.KernelIdeal.HostRun.read_of_run m ρ h c Cert.KernelIdeal.main_arg0 (by decide)).trans (Cert.KernelIdeal.Gen.W12_main_arg0 m ρ c),
      (Cert.KernelIdeal.HostRun.read_of_run m ρ h c Cert.KernelIdeal.main_arg1 (by decide)).trans (Cert.KernelIdeal.Gen.W12_main_arg1 m ρ c),
      (Cert.KernelIdeal.HostRun.read_of_run m ρ h c Cert.KernelIdeal.main_arg2 (by decide)).trans (Cert.KernelIdeal.Gen.W12_main_arg2 m ρ c),
      (Cert.KernelIdeal.HostRun.read_of_run m ρ h c Cert.KernelIdeal.main_arg3 (by decide)).trans (Cert.KernelIdeal.Gen.W12_main_arg3 m ρ c),
      (Cert.KernelIdeal.HostRun.read_of_run m ρ h c Cert.KernelIdeal.main_arg4 (by decide)).trans (Cert.KernelIdeal.Gen.W12_main_arg4 m ρ c),
      (Cert.KernelIdeal.HostRun.read_of_run m ρ h c Cert.KernelIdeal.main_arg5 (by decide)).trans (Cert.KernelIdeal.Gen.W12_main_arg5 m ρ c),
      (Cert.KernelIdeal.HostRun.read_of_run m ρ h c Cert.KernelIdeal.main_arg6 (by decide)).trans (Cert.KernelIdeal.Gen.W12_main_arg6 m ρ c),
      (Cert.KernelIdeal.HostRun.read_of_run m ρ h c Cert.KernelIdeal.main_arg7 (by decide)).trans (Cert.KernelIdeal.Gen.W12_main_arg7 m ρ c),
      (Cert.KernelIdeal.HostRun.read_of_run m ρ h c Cert.KernelIdeal.main_arg8 (by decide)).trans (Cert.KernelIdeal.Gen.W12_main_arg8 m ρ c),
      (Cert.KernelIdeal.HostRun.read_of_run m ρ h c Cert.KernelIdeal.main_arg9 (by decide)).trans (Cert.KernelIdeal.Gen.W12_main_arg9 m ρ c),
      (Cert.KernelIdeal.HostRun.read_of_run m ρ h c Cert.KernelIdeal.main_arg10 (by decide)).trans (Cert.KernelIdeal.Gen.W12_main_arg10 m ρ c),
      (Cert.KernelIdeal.HostRun.read_of_run m ρ h c Cert.KernelIdeal.main_arg11 (by decide)).trans (Cert.KernelIdeal.Gen.W12_main_arg11 m ρ c),
      (Cert.KernelIdeal.HostRun.read_of_run m ρ h c Cert.KernelIdeal.main_arg12 (by decide)).trans (Cert.KernelIdeal.Gen.W12_main_arg12 m ρ c)⟩
  · refine (θ_run Cert.ReferenceIdeal.defs _ _).mono (fun r h c => ?_) (Cert.ReferenceIdeal.HostRun.run (F := Ideal) m' ρ')
    obtain ⟨g0, g1, g2, g3, g4, g5, g6, g7, g8, g9, g10, g11, g12⟩ := hagree c
    have h0 : Cert.Bridge.Args (Cert.KernelIdeal.Gen.W0 m ρ c) (launchContents m' c) :=
      ⟨g0.symm, g1.symm, g2.symm, g3.symm, g4.symm, g5.symm, g6.symm, g7.symm, g8.symm, g9.symm, g10.symm, g11.symm, g12.symm⟩
    obtain ⟨hres, -⟩ := Cert.Bridge.ends_agree m ρ c _ h0
    obtain ⟨k0, k1, k2, k3, k4, k5, k6, k7, k8, k9, k10, k11, k12⟩ := Cert.ReferenceIdeal.HostRun.args_kept (launchContents m' c)
    exact ⟨(h c Cert.ReferenceIdeal.main_v212).trans ((congrFun (Cert.Bridge.after_ops_eq (launchContents m' c)) _).trans hres.symm),
      (h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
